-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S16x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x5 : Shape := ⟨2, ![4096, 5]⟩
abbrev S4096x1 : Shape := ⟨2, ![4096, 1]⟩
abbrev S16x10 : Shape := ⟨2, ![16, 10]⟩
abbrev S16x1 : Shape := ⟨2, ![16, 1]⟩
abbrev S32x16 : Shape := ⟨2, ![32, 16]⟩
abbrev S32x1 : Shape := ⟨2, ![32, 1]⟩
abbrev S16x32 : Shape := ⟨2, ![16, 32]⟩
abbrev S16x5 : Shape := ⟨2, ![16, 5]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x5 : S_.BroadcastsInDim S4096x5 (![] : Fin 0 → Fin S4096x5.rank)
  reducesTo_S4096x5_S_d0_1 : S4096x5.ReducesTo [0, 1] S_
  bcast_S_S16x10 : S_.BroadcastsInDim S16x10 (![] : Fin 0 → Fin S16x10.rank)
  reducesTo_S16x10_S_d0_1 : S16x10.ReducesTo [0, 1] S_
  bcast_S_S16x1 : S_.BroadcastsInDim S16x1 (![] : Fin 0 → Fin S16x1.rank)
  reducesTo_S16x1_S_d0_1 : S16x1.ReducesTo [0, 1] S_
  bcast_S_S32x16 : S_.BroadcastsInDim S32x16 (![] : Fin 0 → Fin S32x16.rank)
  reducesTo_S32x16_S_d0_1 : S32x16.ReducesTo [0, 1] S_
  bcast_S_S32x1 : S_.BroadcastsInDim S32x1 (![] : Fin 0 → Fin S32x1.rank)
  reducesTo_S32x1_S_d0_1 : S32x1.ReducesTo [0, 1] S_
  bcast_S_S16x32 : S_.BroadcastsInDim S16x32 (![] : Fin 0 → Fin S16x32.rank)
  reducesTo_S16x32_S_d0_1 : S16x32.ReducesTo [0, 1] S_
  bcast_S_S16x5 : S_.BroadcastsInDim S16x5 (![] : Fin 0 → Fin S16x5.rank)
  reducesTo_S16x5_S_d0_1 : S16x5.ReducesTo [0, 1] S_

variable [Facts]

def fn_part3 {F : FTy → Type} [FloatOps F] (main_arg12 : FVec F S16x1 .f32) (main_arg13 : FVec F S16x5 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S16x1 .f32 := Host.absf main_arg12
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S16x5 .f32 := Host.absf main_arg13
  let main_cst_22 : FVec F S_ .f32 := constant S_ .f32 0x7F800000#32
  let main_v60 : FVec F S16x5 .f32 := broadcastInDim S16x5 ![] bcast_S_S16x5 main_cst_22
  let main_v61 : IVec S16x5 1 := cmpf .olt main_v59 main_v60
  let main_c_23 : IVec S_ 1 := constantI S_ 1 1#1
  let main_v62 : IVec S_ 1 := (fun x v => Host.reduce IntOp.andi x v reducesTo_S16x5_S_d0_1 h_S_) main_v61 main_c_23
  let main_v63 : IVec S_ 1 := andi main_v58 main_v62
  main_v63

def fn_part2 {F : FTy → Type} [FloatOps F] (main_arg8 : FVec F S16x1 .f32) (main_arg9 : FVec F S32x16 .f32) (main_arg10 : FVec F S32x1 .f32) (main_arg11 : FVec F S16x32 .f32) (main_arg12 : FVec F S16x1 .f32) (main_arg13 : FVec F S16x5 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S16x32 .f32 := Host.absf main_arg11
  let main_cst_18 : FVec F S_ .f32 := constant S_ .f32 0x7F800000#32
  let main_v50 : FVec F S16x32 .f32 := broadcastInDim S16x32 ![] bcast_S_S16x32 main_cst_18
  fn_part3 (F := F) main_arg12 main_arg13 main_v48 main_v49 main_v50

def fn_part1 {F : FTy → Type} [FloatOps F] (main_arg5 : FVec F S32x16 .f32) (main_arg6 : FVec F S32x1 .f32) (main_arg7 : FVec F S16x32 .f32) (main_arg8 : FVec F S16x1 .f32) (main_arg9 : FVec F S32x16 .f32) (main_arg10 : FVec F S32x1 .f32) (main_arg11 : FVec F S16x32 .f32) (main_arg12 : FVec F S16x1 .f32) (main_arg13 : FVec F S16x5 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S4096x4096 .f32) (main_arg1 : FVec F S4096x5 .f32) (main_arg2 : IVec S4096x1 32) (main_arg3 : FVec F S16x10 .f32) (main_arg4 : FVec F S16x1 .f32) (main_arg5 : FVec F S32x16 .f32) (main_arg6 : FVec F S32x1 .f32) (main_arg7 : FVec F S16x32 .f32) (main_arg8 : FVec F S16x1 .f32) (main_arg9 : FVec F S32x16 .f32) (main_arg10 : FVec F S32x1 .f32) (main_arg11 : FVec F S16x32 .f32) (main_arg12 : FVec F S16x1 .f32) (main_arg13 : FVec F S16x5 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x5 .f32 := Host.absf main_arg1
  let main_cst_0 : FVec F S_ .f32 := constant S_ .f32 0x7F800000#32
  let main_v5 : FVec F S4096x5 .f32 := broadcastInDim S4096x5 ![] bcast_S_S4096x5 main_cst_0
  let main_v6 : IVec S4096x5 1 := cmpf .olt main_v4 main_v5
  let main_c_1 : IVec S_ 1 := constantI S_ 1 1#1
  let main_v7 : IVec S_ 1 := (fun x v => Host.reduce IntOp.andi x v reducesTo_S4096x5_S_d0_1 h_S_) main_v6 main_c_1
  let main_v8 : IVec S_ 1 := andi main_v3 main_v7
  let main_v9 : FVec F S16x10 .f32 := Host.absf main_arg3
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_arg6 main_arg7 main_arg8 main_arg9 main_arg10 main_arg11 main_arg12 main_arg13 main_v13 main_v16
-- ==== Kernel.lean ====
abbrev S4096x4096 : Shape := ⟨2, ![4096, 4096]⟩
abbrev S4096x5 : Shape := ⟨2, ![4096, 5]⟩
abbrev S4096x1 : Shape := ⟨2, ![4096, 1]⟩
abbrev S16x10 : Shape := ⟨2, ![16, 10]⟩
abbrev S16x1 : Shape := ⟨2, ![16, 1]⟩
abbrev S32x16 : Shape := ⟨2, ![32, 16]⟩
abbrev S32x1 : Shape := ⟨2, ![32, 1]⟩
abbrev S16x32 : Shape := ⟨2, ![16, 32]⟩
abbrev S16x5 : Shape := ⟨2, ![16, 5]⟩
abbrev S_ : Shape := ⟨0, ![]⟩
abbrev S5 : Shape := ⟨1, ![5]⟩
abbrev S1x5 : Shape := ⟨2, ![1, 5]⟩
abbrev S4096 : Shape := ⟨1, ![4096]⟩
abbrev S4096x10 : Shape := ⟨2, ![4096, 10]⟩
abbrev S10x4096 : Shape := ⟨2, ![10, 4096]⟩
abbrev S16x4096 : Shape := ⟨2, ![16, 4096]⟩
abbrev S512x4096 : Shape := ⟨2, ![512, 4096]⟩
abbrev S16x512 : Shape := ⟨2, ![16, 512]⟩
abbrev S32x4096 : Shape := ⟨2, ![32, 4096]⟩
abbrev S32x512 : Shape := ⟨2, ![32, 512]⟩
abbrev S4096x16 : Shape := ⟨2, ![4096, 16]⟩

abbrev nBuf : Space → Nat
  | .hbm => 37
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x5, .f32⟩
  | .hbm, ⟨2, _⟩ => ⟨S4096x1, .i32⟩
  | .hbm, ⟨3, _⟩ => ⟨S16x10, .f32⟩
  | .hbm, ⟨4, _⟩ => ⟨S16x1, .f32⟩
  | .hbm, ⟨5, _⟩ => ⟨S32x16, .f32⟩
  | .hbm, ⟨6, _⟩ => ⟨S32x1, .f32⟩
  | .hbm, ⟨7, _⟩ => ⟨S16x32, .f32⟩
  | .hbm, ⟨8, _⟩ => ⟨S16x1, .f32⟩
  | .hbm, ⟨9, _⟩ => ⟨S32x16, .f32⟩
  | .hbm, ⟨10, _⟩ => ⟨S32x1, .f32⟩
  | .hbm, ⟨11, _⟩ => ⟨S16x32, .f32⟩
  | .hbm, ⟨12, _⟩ => ⟨S16x1, .f32⟩
  | .hbm, ⟨13, _⟩ => ⟨S16x5, .f32⟩
  | .hbm, ⟨14, _⟩ => ⟨S4096x5, .f32⟩
  | .hbm, ⟨15, _⟩ => ⟨S_, .f32⟩
  | .hbm, ⟨16, _⟩ => ⟨S5, .f32⟩
  | .hbm, ⟨17, _⟩ => ⟨S1x5, .f32⟩
  | .hbm, ⟨18, _⟩ => ⟨S_, .f32⟩
  | .hbm, ⟨19, _⟩ => ⟨S1x5, .f32⟩
  | .hbm, ⟨20, _⟩ => ⟨S1x5, .f32⟩
  | .hbm, ⟨21, _⟩ => ⟨S4096x5, .f32⟩
  | .hbm, ⟨22, _⟩ => ⟨S4096x5, .f32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x5, .f32⟩
  | .hbm, ⟨33, _⟩ => ⟨S4096x10, .f32⟩
  | .hbm, ⟨34, _⟩ => ⟨S10x4096, .f32⟩
  | .hbm, ⟨35, _⟩ => ⟨S16x4096, .f32⟩
  | .hbm, ⟨36, _⟩ => ⟨S4096x16, .f32⟩
  | .local _ .vmem, ⟨0, _⟩ => ⟨S10x4096, .f32⟩
  | .local _ .vmem, ⟨1, _⟩ => ⟨S16x10, .f32⟩
  | .local _ .vmem, ⟨2, _⟩ => ⟨S16x1, .f32⟩
  | .local _ .vmem, ⟨3, _⟩ => ⟨S32x16, .f32⟩
  | .local _ .vmem, ⟨4, _⟩ => ⟨S32x1, .f32⟩
  | .local _ .vmem, ⟨5, _⟩ => ⟨S16x32, .f32⟩
  | .local _ .vmem, ⟨6, _⟩ => ⟨S16x1, .f32⟩
  | .local _ .vmem, ⟨7, _⟩ => ⟨S32x16, .f32⟩
  | .local _ .vmem, ⟨8, _⟩ => ⟨S32x1, .f32⟩
  | .local _ .vmem, ⟨9, _⟩ => ⟨S16x32, .f32⟩
  | .local _ .vmem, ⟨10, _⟩ => ⟨S16x1, .f32⟩
  | .local _ .vmem, ⟨11, _⟩ => ⟨S512x4096, .f32⟩
  | .local _ .vmem, ⟨12, _⟩ => ⟨S512x4096, .f32⟩
  | .local _ .vmem, ⟨13, _⟩ => ⟨S16x512, .f32⟩
  | .local _ .vmem, ⟨14, _⟩ => ⟨S16x512, .f32⟩
  | .local _ .vmem, ⟨15, _⟩ => ⟨S16x4096, .f32⟩
  | .local _ .vmem, ⟨16, _⟩ => ⟨S16x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let c0_16 : Index := 0#32
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let c512_i32 : BitVec 32 := 512#32
  let v22 : BitVec 32 := Scalar.muli v4 c512_i32
  let v23 : Index := Scalar.indexCast v22
  ![0, v23.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S10x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  reducesTo_S4096x5_S5_d0 : S4096x5.ReducesTo [0] S5
  h_S_ : 0 < S_.numel
  bcast_S5_S1x5_1 : S5.BroadcastsInDim S1x5 (![1] : Fin 1 → Fin S1x5.rank)
  bcast_S_S1x5 : S_.BroadcastsInDim S1x5 (![] : Fin 0 → Fin S1x5.rank)
  bcast_S1x5_S4096x5_0_1 : S1x5.BroadcastsInDim S4096x5 (![0, 1] : Fin 2 → Fin S4096x5.rank)
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x5_S4096x5_S4096x10_d1 : Shape.Concatenates [S4096x5, S4096x5] S4096x10 1
  transposes_S4096x10_S10x4096_1_0 : S4096x10.Transposes [1, 0] S10x4096
  inb_S10x4096_S10x4096_0_0 : ∀ a, (![0, 0] : Fin 2 → Nat) a + S10x4096.size a ≤ S10x4096.size a
  h_S10x4096 : 0 < S10x4096.numel
  shapeCasts_S10x4096_S10x4096 : S10x4096.ShapeCasts S10x4096
  inb_S16x10_S16x10_0_0 : ∀ a, (![0, 0] : Fin 2 → Nat) a + S16x10.size a ≤ S16x10.size a
  h_S16x10 : 0 < S16x10.numel
  inb_S16x1_S16x1_0_0 : ∀ a, (![0, 0] : Fin 2 → Nat) a + S16x1.size a ≤ S16x1.size a
  h_S16x1 : 0 < S16x1.numel
  broadcasts_S16x1_S16x4096 : S16x1.Broadcasts S16x4096
  inb_S32x16_S32x16_0_0 : ∀ a, (![0, 0] : Fin 2 → Nat) a + S32x16.size a ≤ S32x16.size a
  h_S32x16 : 0 < S32x16.numel
  inb_S32x1_S32x1_0_0 : ∀ a, (![0, 0] : Fin 2 → Nat) a + S32x1.size a ≤ S32x1.size a
  h_S32x1 : 0 < S32x1.numel
  broadcasts_S32x1_S32x4096 : S32x1.Broadcasts S32x4096
  inb_S16x32_S16x32_0_0 : ∀ a, (![0, 0] : Fin 2 → Nat) a + S16x32.size a ≤ S16x32.size a
  h_S16x32 : 0 < S16x32.numel
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  broadcasts_S32x1_S32x512 : S32x1.Broadcasts S32x512
  broadcasts_S16x1_S16x512 : S16x1.Broadcasts S16x512
  h_S16x512 : 0 < S16x512.numel
  inb_S16x512_S16x512_0_0 : ∀ a, (![0, 0] : Fin 2 → Nat) a + S16x512.size a ≤ S16x512.size a
  transposes_S16x4096_S4096x16_1_0 : S16x4096.Transposes [1, 0] S4096x16
  gather_S16x5_S4096x1_S4096x5_1_0_n_n_0_1_15_wf : GatherDims.WF S16x5 S4096x1 S4096x5 [1] [0] [] [0] [] 1 ![1, 5]
  dot_S16x10_S10x4096_S16x4096_1_0_0_1_n_n_wf : DotDims.WF S16x10 S10x4096 S16x4096 [1] [0] [0] [1] [] []
  dot_S32x16_S16x4096_S32x4096_1_0_0_1_n_n_wf : DotDims.WF S32x16 S16x4096 S32x4096 [1] [0] [0] [1] [] []
  dot_S16x32_S32x4096_S16x4096_1_0_0_1_n_n_wf : DotDims.WF S16x32 S32x4096 S16x4096 [1] [0] [0] [1] [] []
  dot_S16x4096_S512x4096_S16x512_1_1_0_0_n_n_wf : DotDims.WF S16x4096 S512x4096 S16x512 [1] [1] [0] [0] [] []
  dot_S32x16_S16x512_S32x512_1_0_0_1_n_n_wf : DotDims.WF S32x16 S16x512 S32x512 [1] [0] [0] [1] [] []
  dot_S16x32_S32x512_S16x512_1_0_0_1_n_n_wf : DotDims.WF S16x32 S32x512 S16x512 [1] [0] [0] [1] [] []
  hrank0 : 0 < grid0.rank
  k0_off1_inb : ∀ i : grid0.Coords, ∀ a, (k0_off1 i) a + S16x512.size a ≤ S16x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10x4096.size a ≤ S10x4096.size a
  hwx0_0 : ∀ i : grid0.Coords, EltTy.bits .f32 = 32 ∨ (Rect.block (s := S10x4096) S10x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x10.size a ≤ S16x10.size a
  hwx0_1 : ∀ i : grid0.Coords, EltTy.bits .f32 = 32 ∨ (Rect.block (s := S16x10) S16x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .f32 = 32 ∨ (Rect.block (s := S32x16) S32x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .f32 = 32 ∨ (Rect.block (s := S16x32) S16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x4096.size a ≤ S4096x4096.size a
  hwx0_11 : ∀ i : grid0.Coords, EltTy.bits .f32 = 32 ∨ (Rect.block (s := S4096x4096) S512x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x512.size a ≤ S16x4096.size a
  hwx0_12 : ∀ i : grid0.Coords, EltTy.bits .f32 = 32 ∨ (Rect.block (s := S16x4096) S16x512.size (cc0_transform_12 i) (hinb0_12 i)).WholeWords (EltTy.packing .f32)

variable [Facts₀]

def gather_S16x5_S4096x1_S4096x5_1_0_n_n_0_1_15 : GatherDims S16x5 S4096x1 S4096x5 where
  offsetDims := [1]
  collapsedSliceDims := [0]
  operandBatchingDims := []
  startIndicesBatchingDims := []
  startIndexMap := [0]
  indexVectorDim := 1
  sliceSizes := ![1, 5]
  wf := gather_S16x5_S4096x1_S4096x5_1_0_n_n_0_1_15_wf
def dot_S16x10_S10x4096_S16x4096_1_0_0_1_n_n : DotDims S16x10 S10x4096 S16x4096 where
  lhsContracting := [1]
  rhsContracting := [0]
  lhsNonContracting := [0]
  rhsNonContracting := [1]
  lhsBatch := []
  rhsBatch := []
  wf := dot_S16x10_S10x4096_S16x4096_1_0_0_1_n_n_wf
def dot_S32x16_S16x4096_S32x4096_1_0_0_1_n_n : DotDims S32x16 S16x4096 S32x4096 where
  lhsContracting := [1]
  rhsContracting := [0]
  lhsNonContracting := [0]
  rhsNonContracting := [1]
  lhsBatch := []
  rhsBatch := []
  wf := dot_S32x16_S16x4096_S32x4096_1_0_0_1_n_n_wf
def dot_S16x32_S32x4096_S16x4096_1_0_0_1_n_n : DotDims S16x32 S32x4096 S16x4096 where
  lhsContracting := [1]
  rhsContracting := [0]
  lhsNonContracting := [0]
  rhsNonContracting := [1]
  lhsBatch := []
  rhsBatch := []
  wf := dot_S16x32_S32x4096_S16x4096_1_0_0_1_n_n_wf
def dot_S16x4096_S512x4096_S16x512_1_1_0_0_n_n : DotDims S16x4096 S512x4096 S16x512 where
  lhsContracting := [1]
  rhsContracting := [1]
  lhsNonContracting := [0]
  rhsNonContracting := [0]
  lhsBatch := []
  rhsBatch := []
  wf := dot_S16x4096_S512x4096_S16x512_1_1_0_0_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

abbrev win0_0 : Pipeline.Window sig grid0 :=
  Pipeline.Window.ofSpec (Memref.whole main_v16) S10x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg0) S512x4096.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v17) S16x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x5 : Shape := ⟨2, ![4096, 5]⟩
abbrev S4096x1 : Shape := ⟨2, ![4096, 1]⟩
abbrev S16x10 : Shape := ⟨2, ![16, 10]⟩
abbrev S16x1 : Shape := ⟨2, ![16, 1]⟩
abbrev S32x16 : Shape := ⟨2, ![32, 16]⟩
abbrev S32x1 : Shape := ⟨2, ![32, 1]⟩
abbrev S16x32 : Shape := ⟨2, ![16, 32]⟩
abbrev S16x5 : Shape := ⟨2, ![16, 5]⟩
abbrev S0 : Shape := ⟨1, ![0]⟩
abbrev S_ : Shape := ⟨0, ![]⟩
abbrev S5 : Shape := ⟨1, ![5]⟩
abbrev S1x5 : Shape := ⟨2, ![1, 5]⟩
abbrev S4096 : Shape := ⟨1, ![4096]⟩
abbrev S4096x10 : Shape := ⟨2, ![4096, 10]⟩
abbrev S10x4096 : Shape := ⟨2, ![10, 4096]⟩
abbrev S16x4096 : Shape := ⟨2, ![16, 4096]⟩
abbrev S10x512 : Shape := ⟨2, ![10, 512]⟩
abbrev S16x512 : Shape := ⟨2, ![16, 512]⟩
abbrev S32x512 : Shape := ⟨2, ![32, 512]⟩
abbrev S512x512 : Shape := ⟨2, ![512, 512]⟩
abbrev S4096x16 : Shape := ⟨2, ![4096, 16]⟩

abbrev nBuf : Space → Nat
  | .hbm => 53
  | .vmem => 25
  | .smem => 0
  | _ => 0

abbrev bufTy : (tb : Table) → Fin (tcTables nBuf tb) → BufTy
  | .hbm, ⟨0, _⟩ => ⟨S4096x4096, .f32⟩
  | .hbm, ⟨1, _⟩ => ⟨S4096x5, .f32⟩
  | .hbm, ⟨2, _⟩ => ⟨S4096x1, .i32⟩
  | .hbm, ⟨3, _⟩ => ⟨S16x10, .f32⟩
  | .hbm, ⟨4, _⟩ => ⟨S16x1, .f32⟩
  | .hbm, ⟨5, _⟩ => ⟨S32x16, .f32⟩
  | .hbm, ⟨6, _⟩ => ⟨S32x1, .f32⟩
  | .hbm, ⟨7, _⟩ => ⟨S16x32, .f32⟩
  | .hbm, ⟨8, _⟩ => ⟨S16x1, .f32⟩
  | .hbm, ⟨9, _⟩ => ⟨S32x16, .f32⟩
  | .hbm, ⟨10, _⟩ => ⟨S32x1, .f32⟩
  | .hbm, ⟨11, _⟩ => ⟨S16x32, .f32⟩
  | .hbm, ⟨12, _⟩ => ⟨S16x1, .f32⟩
  | .hbm, ⟨13, _⟩ => ⟨S16x5, .f32⟩
  | .hbm, ⟨14, _⟩ => ⟨S0, .i32⟩
  | .hbm, ⟨15, _⟩ => ⟨S0, .i32⟩
  | .hbm, ⟨16, _⟩ => ⟨S0, .i32⟩
  | .hbm, ⟨17, _⟩ => ⟨S4096x5, .f32⟩
  | .hbm, ⟨18, _⟩ => ⟨S_, .f32⟩
  | .hbm, ⟨19, _⟩ => ⟨S5, .f32⟩
  | .hbm, ⟨20, _⟩ => ⟨S1x5, .f32⟩
  | .hbm, ⟨21, _⟩ => ⟨S_, .f32⟩
  | .hbm, ⟨22, _⟩ => ⟨S1x5, .f32⟩
  | .hbm, ⟨23, _⟩ => ⟨S1x5, .f32⟩
  | .hbm, ⟨24, _⟩ => ⟨S4096x5, .f32⟩
  | .hbm, ⟨25, _⟩ => ⟨S4096x5, .f32⟩
  | .hbm, ⟨26, _⟩ => ⟨S_, .f32⟩
  | .hbm, ⟨27, _⟩ => ⟨S4096x5, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x5, .f32⟩
  | .hbm, ⟨38, _⟩ => ⟨S4096x5, .f32⟩
  | .hbm, ⟨39, _⟩ => ⟨S4096x10, .f32⟩
  | .hbm, ⟨40, _⟩ => ⟨S_, .f32⟩
  | .hbm, ⟨41, _⟩ => ⟨S10x4096, .f32⟩
  | .hbm, ⟨42, _⟩ => ⟨S10x4096, .f32⟩
  | .hbm, ⟨43, _⟩ => ⟨S10x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .bf16⟩
  | .hbm, ⟨49, _⟩ => ⟨S16x4096, .f32⟩
  | .hbm, ⟨50, _⟩ => ⟨S16x4096, .bf16⟩
  | .hbm, ⟨51, _⟩ => ⟨S16x4096, .f32⟩
  | .hbm, ⟨52, _⟩ => ⟨S4096x16, .f32⟩
  | .local _ .vmem, ⟨0, _⟩ => ⟨S10x512, .f32⟩
  | .local _ .vmem, ⟨1, _⟩ => ⟨S10x512, .f32⟩
  | .local _ .vmem, ⟨2, _⟩ => ⟨S16x10, .f32⟩
  | .local _ .vmem, ⟨3, _⟩ => ⟨S16x1, .f32⟩
  | .local _ .vmem, ⟨4, _⟩ => ⟨S32x16, .f32⟩
  | .local _ .vmem, ⟨5, _⟩ => ⟨S32x1, .f32⟩
  | .local _ .vmem, ⟨6, _⟩ => ⟨S16x32, .f32⟩
  | .local _ .vmem, ⟨7, _⟩ => ⟨S16x1, .f32⟩
  | .local _ .vmem, ⟨8, _⟩ => ⟨S16x512, .f32⟩
  | .local _ .vmem, ⟨9, _⟩ => ⟨S16x512, .f32⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S16x512, .f32⟩
  | .local _ .vmem, ⟨17, _⟩ => ⟨S16x512, .f32⟩
  | .local _ .vmem, ⟨18, _⟩ => ⟨S32x16, .f32⟩
  | .local _ .vmem, ⟨19, _⟩ => ⟨S32x1, .f32⟩
  | .local _ .vmem, ⟨20, _⟩ => ⟨S16x32, .f32⟩
  | .local _ .vmem, ⟨21, _⟩ => ⟨S16x1, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_3 : Ref sig .tc := ⟨.hbm, 26, rfl⟩
abbrev main_v7 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_v10 : Ref sig .tc := ⟨.hbm, 31, rfl⟩
abbrev main_c_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S16x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S16x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  hz_S0 : S0.numel = 0
  reducesTo_S4096x5_S5_d0 : S4096x5.ReducesTo [0] S5
  h_S_ : 0 < S_.numel
  bcast_S5_S1x5_1 : S5.BroadcastsInDim S1x5 (![1] : Fin 1 → Fin S1x5.rank)
  bcast_S_S1x5 : S_.BroadcastsInDim S1x5 (![] : Fin 0 → Fin S1x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x5_S4096x5_S4096x10_d1 : Shape.Concatenates [S4096x5, S4096x5] S4096x10 1
  bcast_S_S10x4096 : S_.BroadcastsInDim S10x4096 (![] : Fin 0 → Fin S10x4096.rank)
  transposes_S4096x10_S10x4096_1_0 : S4096x10.Transposes [1, 0] S10x4096
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  inb_S10x512_S10x512_0_0 : ∀ a, (![0, 0] : Fin 2 → Nat) a + S10x512.size a ≤ S10x512.size a
  h_S10x512 : 0 < S10x512.numel
  shapeCasts_S10x512_S10x512 : S10x512.ShapeCasts S10x512
  inb_S16x10_S16x10_0_0 : ∀ a, (![0, 0] : Fin 2 → Nat) a + S16x10.size a ≤ S16x10.size a
  h_S16x10 : 0 < S16x10.numel
  inb_S16x1_S16x1_0_0 : ∀ a, (![0, 0] : Fin 2 → Nat) a + S16x1.size a ≤ S16x1.size a
  h_S16x1 : 0 < S16x1.numel
  broadcasts_S16x1_S16x512 : S16x1.Broadcasts S16x512
  inb_S32x16_S32x16_0_0 : ∀ a, (![0, 0] : Fin 2 → Nat) a + S32x16.size a ≤ S32x16.size a
  h_S32x16 : 0 < S32x16.numel
  inb_S32x1_S32x1_0_0 : ∀ a, (![0, 0] : Fin 2 → Nat) a + S32x1.size a ≤ S32x1.size a
  h_S32x1 : 0 < S32x1.numel
  broadcasts_S32x1_S32x512 : S32x1.Broadcasts S32x512
  inb_S16x32_S16x32_0_0 : ∀ a, (![0, 0] : Fin 2 → Nat) a + S16x32.size a ≤ S16x32.size a
  h_S16x32 : 0 < S16x32.numel
  inb_S16x512_S16x512_0_0 : ∀ a, (![0, 0] : Fin 2 → Nat) a + S16x512.size a ≤ S16x512.size a
  h_S16x512 : 0 < S16x512.numel
  packedbf16_S16x512_S16x512_0_0 : (Rect.unit (s := S16x512) ![0, 0] S16x512.size inb_S16x512_S16x512_0_0).PackedRows (EltTy.packing .bf16)
  shapeCasts_S16x512_S16x512 : S16x512.ShapeCasts S16x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S16x4096_S4096x16_1_0 : S16x4096.Transposes [1, 0] S4096x16
  gather_S16x5_S4096x1_S4096x5_1_0_n_n_0_1_15_wf : GatherDims.WF S16x5 S4096x1 S4096x5 [1] [0] [] [0] [] 1 ![1, 5]
  scatter_S4096x5_S0_S4096x5_01_n_n_0_wf : ScatterDims.WF S4096x5 S0 S4096x5 [0, 1] [] [] 0
  scatter_S10x4096_S0_S10x4096_01_n_n_0_wf : ScatterDims.WF S10x4096 S0 S10x4096 [0, 1] [] [] 0
  scatter_S4096x4096_S0_S4096x4096_01_n_n_0_wf : ScatterDims.WF S4096x4096 S0 S4096x4096 [0, 1] [] [] 0
  dot_S16x10_S10x512_S16x512_1_0_0_1_n_n_wf : DotDims.WF S16x10 S10x512 S16x512 [1] [0] [0] [1] [] []
  dot_S32x16_S16x512_S32x512_1_0_0_1_n_n_wf : DotDims.WF S32x16 S16x512 S32x512 [1] [0] [0] [1] [] []
  dot_S16x32_S32x512_S16x512_1_0_0_1_n_n_wf : DotDims.WF S16x32 S32x512 S16x512 [1] [0] [0] [1] [] []
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x512.size a ≤ S10x4096.size a
  hwx0_0 : ∀ i : grid0.Coords, EltTy.bits .f32 = 32 ∨ (Rect.block (s := S10x4096) S10x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x10.size a ≤ S16x10.size a
  hwx0_1 : ∀ i : grid0.Coords, EltTy.bits .f32 = 32 ∨ (Rect.block (s := S16x10) S16x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x512.size a ≤ S16x4096.size a
  hwx0_7 : ∀ i : grid0.Coords, EltTy.bits .f32 = 32 ∨ (Rect.block (s := S16x4096) S16x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S16x4096.size a
  hwx0_8 : ∀ i : grid0.Coords, EltTy.bits .bf16 = 32 ∨ (Rect.block (s := S16x4096) S16x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S16x4096.size a
  hwx1_0 : ∀ i : grid1.Coords, EltTy.bits .bf16 = 32 ∨ (Rect.block (s := S16x4096) S16x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .bf16 = 32 ∨ (Rect.block (s := S4096x4096) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x4096.size a
  hwx1_2 : ∀ i : grid1.Coords, EltTy.bits .f32 = 32 ∨ (Rect.block (s := S16x4096) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S16x512.size a ≤ S16x4096.size a
  hwx1_7 : ∀ i : grid1.Coords, EltTy.bits .f32 = 32 ∨ (Rect.block (s := S16x4096) S16x512.size (cc1_transform_7 i) (hinb1_7 i)).WholeWords (EltTy.packing .f32)

variable [Facts₀]

def gather_S16x5_S4096x1_S4096x5_1_0_n_n_0_1_15 : GatherDims S16x5 S4096x1 S4096x5 where
  offsetDims := [1]
  collapsedSliceDims := [0]
  operandBatchingDims := []
  startIndicesBatchingDims := []
  startIndexMap := [0]
  indexVectorDim := 1
  sliceSizes := ![1, 5]
  wf := gather_S16x5_S4096x1_S4096x5_1_0_n_n_0_1_15_wf
def scatter_S4096x5_S0_S4096x5_01_n_n_0 : ScatterDims S4096x5 S0 S4096x5 where
  updateWindowDims := [0, 1]
  insertedWindowDims := []
  scatterDimsToOperandDims := []
  indexVectorDim := 0
  wf := scatter_S4096x5_S0_S4096x5_01_n_n_0_wf
def scatter_S10x4096_S0_S10x4096_01_n_n_0 : ScatterDims S10x4096 S0 S10x4096 where
  updateWindowDims := [0, 1]
  insertedWindowDims := []
  scatterDimsToOperandDims := []
  indexVectorDim := 0
  wf := scatter_S10x4096_S0_S10x4096_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def dot_S16x10_S10x512_S16x512_1_0_0_1_n_n : DotDims S16x10 S10x512 S16x512 where
  lhsContracting := [1]
  rhsContracting := [0]
  lhsNonContracting := [0]
  rhsNonContracting := [1]
  lhsBatch := []
  rhsBatch := []
  wf := dot_S16x10_S10x512_S16x512_1_0_0_1_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_v20) S10x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S16x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S16x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25_1) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S16x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== Proof.KernelPieces.lean ====
import proofs.«145942_g2000600855469178_pallasbulk_547_29_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KVal

open Cert.KernelIdeal Cert.KernelIdeal.Gen

variable {F : FTy → Type} [FloatOps F]

/-! # What each case of the body leaves, as values

The body has two cases. At the first column of the grid (case A) it computes the node embedding
`hid = relu (W₁ · x + b₁)` and the message `msg = relu (W₃ · relu (W₂ · hid + b₂) + b₃)` for ALL nodes and stores
them whole in the two carried buffers; at every point it then computes one tile of the output from the message
buffer, the adjacency tile, the aggregation weights and the slice of `hid` under the tile. The lemmas below read
each covering store back as its payload. -/

theorem hz : (![0, 0] : Fin 2 → Nat) = fun _ => 0 := funext fun a => by fin_cases a <;> rfl

/-- The slice of a [16, 4096] buffer the body loads for the residual: 16 rows, the 512 columns of the point's tile. -/
abbrev hidSlice (i : grid0.Coords) (h : Vec F S16x4096 .f32) : Vec F S16x512 .f32 :=
  View.ld h (Rect.unit (s := S16x4096) (k0_off1 i) S16x512.size (k0_off1_inb i))

/-- Case A leaves the node embedding of all nodes in the first carried buffer. -/
theorem sout_A_0 (c : Dev nD) (i : grid0.Coords) (arg2 : Memref sig .tc .vmem S10x4096 .f32) (harg2 : arg2.IsWhole) (arg3 : Memref sig .tc .vmem S16x10 .f32) (harg3 : arg3.IsWhole) (arg4 : Memref sig .tc .vmem S16x1 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S32x16 .f32) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S512x4096 .f32) (harg13 : arg13.IsWhole) (arg14 : Memref sig .tc .vmem S16x512 .f32) (harg14 : arg14.IsWhole) (arg15 : Memref sig .tc .vmem S16x4096 .f32) (harg15 : arg15.IsWhole) (arg16 : Memref sig .tc .vmem S16x4096 .f32) (harg16 : arg16.IsWhole) (hc0 : cond0_0 i) (x0 : Vec F S10x4096 .f32) (x1 : Vec F S16x10 .f32) (x2 : Vec F S16x1 .f32) (x3 : Vec F S32x16 .f32) (x4 : Vec F S32x1 .f32) (x5 : Vec F S16x32 .f32) (x6 : Vec F S16x1 .f32) (x7 : Vec F S32x16 .f32) (x8 : Vec F S32x1 .f32) (x9 : Vec F S16x32 .f32) (x10 : Vec F S16x1 .f32) (x11 : Vec F S512x4096 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay2 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero hz]
  simp only [View.readAt_eq_ld, harg2.read_unread, harg3.read_unread, harg4.read_unread, View.ld_unit_zero (S := S10x4096) hz, View.ld_unit_zero (S := S16x10) hz, View.ld_unit_zero (S := S16x1) hz]

/-- Case A leaves the message of all nodes in the second carried buffer. -/
theorem sout_A_1 (c : Dev nD) (i : grid0.Coords) (arg2 : Memref sig .tc .vmem S10x4096 .f32) (harg2 : arg2.IsWhole) (arg3 : Memref sig .tc .vmem S16x10 .f32) (harg3 : arg3.IsWhole) (arg4 : Memref sig .tc .vmem S16x1 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S32x16 .f32) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S512x4096 .f32) (harg13 : arg13.IsWhole) (arg14 : Memref sig .tc .vmem S16x512 .f32) (harg14 : arg14.IsWhole) (arg15 : Memref sig .tc .vmem S16x4096 .f32) (harg15 : arg15.IsWhole) (arg16 : Memref sig .tc .vmem S16x4096 .f32) (harg16 : arg16.IsWhole) (hc0 : cond0_0 i) (x0 : Vec F S10x4096 .f32) (x1 : Vec F S16x10 .f32) (x2 : Vec F S16x1 .f32) (x3 : Vec F S32x16 .f32) (x4 : Vec F S32x1 .f32) (x5 : Vec F S16x32 .f32) (x6 : Vec F S16x1 .f32) (x7 : Vec F S32x16 .f32) (x8 : Vec F S32x1 .f32) (x9 : Vec F S16x32 .f32) (x10 : Vec F S16x1 .f32) (x11 : Vec F S512x4096 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay3 x0 x1 x2 x3 x4 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S10x4096) hz, View.ld_unit_zero (S := S16x10) hz, View.ld_unit_zero (S := S16x1) hz, View.ld_unit_zero (S := S32x16) hz, View.ld_unit_zero (S := S32x1) hz, View.ld_unit_zero (S := S16x32) hz]

/-- Case A's output tile: the aggregation of the message it has just stored, plus the slice of the embedding it
    has just stored. -/
theorem out_A (c : Dev nD) (i : grid0.Coords) (arg2 : Memref sig .tc .vmem S10x4096 .f32) (harg2 : arg2.IsWhole) (arg3 : Memref sig .tc .vmem S16x10 .f32) (harg3 : arg3.IsWhole) (arg4 : Memref sig .tc .vmem S16x1 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S32x16 .f32) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S512x4096 .f32) (harg13 : arg13.IsWhole) (arg14 : Memref sig .tc .vmem S16x512 .f32) (harg14 : arg14.IsWhole) (arg15 : Memref sig .tc .vmem S16x4096 .f32) (harg15 : arg15.IsWhole) (arg16 : Memref sig .tc .vmem S16x4096 .f32) (harg16 : arg16.IsWhole) (hc0 : cond0_0 i) (x0 : Vec F S10x4096 .f32) (x1 : Vec F S16x10 .f32) (x2 : Vec F S16x1 .f32) (x3 : Vec F S32x16 .f32) (x4 : Vec F S32x1 .f32) (x5 : Vec F S16x32 .f32) (x6 : Vec F S16x1 .f32) (x7 : Vec F S32x16 .f32) (x8 : Vec F S32x1 .f32) (x9 : Vec F S16x32 .f32) (x10 : Vec F S16x1 .f32) (x11 : Vec F S512x4096 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
      = k0_pay4 (k0_pay3 x0 x1 x2 x3 x4 x5 x6) x11 x7 x8 x9 x10 (hidSlice i (k0_pay2 x0 x1 x2)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero (S := S16x512) hz]
  rw [View.readCov_unit_zero (S := S16x4096) _ hz]
  have hcov : ∀ (w : Vec F S16x4096 .f32) (y : S16x4096.Idx),
      ∃ p ∈ [(⟨Rect.unit (s := S16x4096) ![0, 0] S16x4096.size inb_S16x4096_S16x4096_0_0, w⟩ : View.Piece (Elt F) S16x4096 .f32)], y ∈ p.1.set :=
    fun w y => ⟨_, List.mem_singleton_self _, View.mem_set_unit_zero (S := S16x4096) hz inb_S16x4096_S16x4096_0_0 y⟩
  rw [View.readAt_eq_ld arg15.view, View.read_writes_eq_canon _ _ _ (hcov _), View.canon_unit_zero (S := S16x4096) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S10x4096) hz, View.ld_unit_zero (S := S16x10) hz, View.ld_unit_zero (S := S16x1) hz, View.ld_unit_zero (S := S32x16) hz, View.ld_unit_zero (S := S32x1) hz, View.ld_unit_zero (S := S16x32) hz, View.ld_unit_zero (S := S512x4096) hz]
  rfl

/-- Case B's output tile: the same, of what the carried buffers hold. -/
theorem out_B (c : Dev nD) (i : grid0.Coords) (arg2 : Memref sig .tc .vmem S10x4096 .f32) (harg2 : arg2.IsWhole) (arg3 : Memref sig .tc .vmem S16x10 .f32) (harg3 : arg3.IsWhole) (arg4 : Memref sig .tc .vmem S16x1 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S32x16 .f32) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S512x4096 .f32) (harg13 : arg13.IsWhole) (arg14 : Memref sig .tc .vmem S16x512 .f32) (harg14 : arg14.IsWhole) (arg15 : Memref sig .tc .vmem S16x4096 .f32) (harg15 : arg15.IsWhole) (arg16 : Memref sig .tc .vmem S16x4096 .f32) (harg16 : arg16.IsWhole) (hc0 : ¬cond0_0 i) (x0 : Vec F S10x4096 .f32) (x1 : Vec F S16x10 .f32) (x2 : Vec F S16x1 .f32) (x3 : Vec F S32x16 .f32) (x4 : Vec F S32x1 .f32) (x5 : Vec F S16x32 .f32) (x6 : Vec F S16x1 .f32) (x7 : Vec F S32x16 .f32) (x8 : Vec F S32x1 .f32) (x9 : Vec F S16x32 .f32) (x10 : Vec F S16x1 .f32) (x11 : Vec F S512x4096 .f32) (xs0 xs1 : Vec F S16x4096 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1
      = k0_pay4 xs1 x11 x7 x8 x9 x10 (hidSlice i xs0) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1)]
  unfold kernelRun0_B
  dsimp only
  sl_unfold_words
  rw [View.canon_unit_zero (S := S16x512) hz]
  simp only [View.readAt_eq_ld, harg9.read_unread, harg10.read_unread, harg11.read_unread, harg12.read_unread, harg13.read_unread, harg15.read_unread, harg16.read_unread, View.ld_unit_zero (S := S16x4096) hz, View.ld_unit_zero (S := S16x1) hz, View.ld_unit_zero (S := S32x16) hz, View.ld_unit_zero (S := S32x1) hz, View.ld_unit_zero (S := S16x32) hz, View.ld_unit_zero (S := S512x4096) hz]
  rfl

end Cert.KernelIdeal.KVal

end
-- ==== Proof.KernelBlocks.lean ====
import proofs.«145942_g2000600855469178_pallasbulk_547_29_alg».proof.Proof.KernelPieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KVal

open Cert.KernelIdeal Cert.KernelIdeal.Gen

variable {F : FTy → Type} [FloatOps F]

/-! # The windows' blocks as functions of the arrays

Eleven of the twelve inputs (the transposed features and the ten weight arrays) have a constant block index: their
block is the whole array at every grid point. The adjacency's block at point `t` is its rows `512 t … 512 t + 511`;
the output's block at point `t` is columns `512 t … 512 t + 511`, which is also the slice of the embedding the body
reads for the residual. -/

variable (m : (ℓ : Loc nD τ sig) → Buf (Elt F) ℓ)

theorem lt8 (t : Fin cfg0.N) : t.val < 8 := lt_of_lt_of_eq t.isLt N_0

/-! ## The index maps, decided over the grid -/

theorem idx_0 : ∀ t : Fin cfg0.N, win0_0.index t = ![0, 0] :=
  (by decide +kernel : ∀ t : Fin grid0.N, win0_0.index t = ![0, 0])
theorem idx_1 : ∀ t : Fin cfg0.N, win0_1.index t = ![0, 0] :=
  (by decide +kernel : ∀ t : Fin grid0.N, win0_1.index t = ![0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0] :=
  (by decide +kernel : ∀ t : Fin grid0.N, win0_3.index t = ![0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0] :=
  (by decide +kernel : ∀ t : Fin grid0.N, win0_5.index t = ![0, 0])
theorem idx_6 : ∀ t : Fin cfg0.N, win0_6.index t = ![0, 0] :=
  (by decide +kernel : ∀ t : Fin grid0.N, win0_6.index t = ![0, 0])
theorem idx_7 : ∀ t : Fin cfg0.N, win0_7.index t = ![0, 0] :=
  (by decide +kernel : ∀ t : Fin grid0.N, win0_7.index t = ![0, 0])
theorem idx_8 : ∀ t : Fin cfg0.N, win0_8.index t = ![0, 0] :=
  (by decide +kernel : ∀ t : Fin grid0.N, win0_8.index t = ![0, 0])
theorem idx_9 : ∀ t : Fin cfg0.N, win0_9.index t = ![0, 0] :=
  (by decide +kernel : ∀ t : Fin grid0.N, win0_9.index t = ![0, 0])
theorem idx_10 : ∀ t : Fin cfg0.N, win0_10.index t = ![0, 0] :=
  (by decide +kernel : ∀ t : Fin grid0.N, win0_10.index t = ![0, 0])
theorem idx_11 : ∀ t : Fin cfg0.N, win0_11.index t = ![t.val, 0] :=
  (by decide +kernel : ∀ t : Fin grid0.N, win0_11.index t = ![t.val, 0])
theorem idx_12 : ∀ t : Fin cfg0.N, win0_12.index t = ![0, t.val] :=
  (by decide +kernel : ∀ t : Fin grid0.N, win0_12.index t = ![0, t.val])
/-- The residual's slice starts at column `512 t`. -/
theorem off_eq : ∀ t : Fin cfg0.N, k0_off1 (grid0.coords t) = ![0, 512 * t.val] :=
  (by decide +kernel : ∀ t : Fin grid0.N, k0_off1 (grid0.coords t) = ![0, 512 * t.val])

/-! ## Whole-array windows -/

/-- Window 0's block is its whole array at every point. -/
theorem iblk_0 (c : Dev nD) (t : Fin cfg0.N) : (iblk m c 0 t : Vec F S10x4096 .f32) = V m c main_v16 := by
  have h0 : win0_0.index t 0 = 0 := congrFun (idx_0 t) 0
  have h1 : win0_0.index t 1 = 0 := congrFun (idx_0 t) 1
  funext j
  unfold iblk
  rw [View.read_apply]
  show V m c main_v16 _ = V m c main_v16 j
  congr 1
  funext a
  apply Fin.ext
  match a with
  | ⟨0, _⟩ => show win0_0.index t 0 * 10 + 1 * (j 0).val = (j 0).val; rw [h0]; omega
  | ⟨1, _⟩ => show win0_0.index t 1 * 4096 + 1 * (j 1).val = (j 1).val; rw [h1]; omega

/-- Window 1's block is its whole array at every point. -/
theorem iblk_1 (c : Dev nD) (t : Fin cfg0.N) : (iblk m c 1 t : Vec F S16x10 .f32) = V m c main_arg3 := by
  have h0 : win0_1.index t 0 = 0 := congrFun (idx_1 t) 0
  have h1 : win0_1.index t 1 = 0 := congrFun (idx_1 t) 1
  funext j
  unfold iblk
  rw [View.read_apply]
  show V m c main_arg3 _ = V m c main_arg3 j
  congr 1
  funext a
  apply Fin.ext
  match a with
  | ⟨0, _⟩ => show win0_1.index t 0 * 16 + 1 * (j 0).val = (j 0).val; rw [h0]; omega
  | ⟨1, _⟩ => show win0_1.index t 1 * 10 + 1 * (j 1).val = (j 1).val; rw [h1]; omega

/-- Window 2's block is its whole array at every point. -/
theorem iblk_2 (c : Dev nD) (t : Fin cfg0.N) : (iblk m c 2 t : Vec F S16x1 .f32) = V m c main_arg4 := by
  have h0 : win0_2.index t 0 = 0 := congrFun (idx_2 t) 0
  have h1 : win0_2.index t 1 = 0 := congrFun (idx_2 t) 1
  funext j
  unfold iblk
  rw [View.read_apply]
  show V m c main_arg4 _ = V m c main_arg4 j
  congr 1
  funext a
  apply Fin.ext
  match a with
  | ⟨0, _⟩ => show win0_2.index t 0 * 16 + 1 * (j 0).val = (j 0).val; rw [h0]; omega
  | ⟨1, _⟩ => show win0_2.index t 1 * 1 + 1 * (j 1).val = (j 1).val; rw [h1]; omega

/-- Window 3's block is its whole array at every point. -/
theorem iblk_3 (c : Dev nD) (t : Fin cfg0.N) : (iblk m c 3 t : Vec F S32x16 .f32) = V m c main_arg5 := by
  have h0 : win0_3.index t 0 = 0 := congrFun (idx_3 t) 0
  have h1 : win0_3.index t 1 = 0 := congrFun (idx_3 t) 1
  funext j
  unfold iblk
  rw [View.read_apply]
  show V m c main_arg5 _ = V m c main_arg5 j
  congr 1
  funext a
  apply Fin.ext
  match a with
  | ⟨0, _⟩ => show win0_3.index t 0 * 32 + 1 * (j 0).val = (j 0).val; rw [h0]; omega
  | ⟨1, _⟩ => show win0_3.index t 1 * 16 + 1 * (j 1).val = (j 1).val; rw [h1]; omega

/-- Window 4's block is its whole array at every point. -/
theorem iblk_4 (c : Dev nD) (t : Fin cfg0.N) : (iblk m c 4 t : Vec F S32x1 .f32) = V m c main_arg6 := by
  have h0 : win0_4.index t 0 = 0 := congrFun (idx_4 t) 0
  have h1 : win0_4.index t 1 = 0 := congrFun (idx_4 t) 1
  funext j
  unfold iblk
  rw [View.read_apply]
  show V m c main_arg6 _ = V m c main_arg6 j
  congr 1
  funext a
  apply Fin.ext
  match a with
  | ⟨0, _⟩ => show win0_4.index t 0 * 32 + 1 * (j 0).val = (j 0).val; rw [h0]; omega
  | ⟨1, _⟩ => show win0_4.index t 1 * 1 + 1 * (j 1).val = (j 1).val; rw [h1]; omega

/-- Window 5's block is its whole array at every point. -/
theorem iblk_5 (c : Dev nD) (t : Fin cfg0.N) : (iblk m c 5 t : Vec F S16x32 .f32) = V m c main_arg7 := by
  have h0 : win0_5.index t 0 = 0 := congrFun (idx_5 t) 0
  have h1 : win0_5.index t 1 = 0 := congrFun (idx_5 t) 1
  funext j
  unfold iblk
  rw [View.read_apply]
  show V m c main_arg7 _ = V m c main_arg7 j
  congr 1
  funext a
  apply Fin.ext
  match a with
  | ⟨0, _⟩ => show win0_5.index t 0 * 16 + 1 * (j 0).val = (j 0).val; rw [h0]; omega
  | ⟨1, _⟩ => show win0_5.index t 1 * 32 + 1 * (j 1).val = (j 1).val; rw [h1]; omega

/-- Window 6's block is its whole array at every point. -/
theorem iblk_6 (c : Dev nD) (t : Fin cfg0.N) : (iblk m c 6 t : Vec F S16x1 .f32) = V m c main_arg8 := by
  have h0 : win0_6.index t 0 = 0 := congrFun (idx_6 t) 0
  have h1 : win0_6.index t 1 = 0 := congrFun (idx_6 t) 1
  funext j
  unfold iblk
  rw [View.read_apply]
  show V m c main_arg8 _ = V m c main_arg8 j
  congr 1
  funext a
  apply Fin.ext
  match a with
  | ⟨0, _⟩ => show win0_6.index t 0 * 16 + 1 * (j 0).val = (j 0).val; rw [h0]; omega
  | ⟨1, _⟩ => show win0_6.index t 1 * 1 + 1 * (j 1).val = (j 1).val; rw [h1]; omega

/-- Window 7's block is its whole array at every point. -/
theorem iblk_7 (c : Dev nD) (t : Fin cfg0.N) : (iblk m c 7 t : Vec F S32x16 .f32) = V m c main_arg9 := by
  have h0 : win0_7.index t 0 = 0 := congrFun (idx_7 t) 0
  have h1 : win0_7.index t 1 = 0 := congrFun (idx_7 t) 1
  funext j
  unfold iblk
  rw [View.read_apply]
  show V m c main_arg9 _ = V m c main_arg9 j
  congr 1
  funext a
  apply Fin.ext
  match a with
  | ⟨0, _⟩ => show win0_7.index t 0 * 32 + 1 * (j 0).val = (j 0).val; rw [h0]; omega
  | ⟨1, _⟩ => show win0_7.index t 1 * 16 + 1 * (j 1).val = (j 1).val; rw [h1]; omega

/-- Window 8's block is its whole array at every point. -/
theorem iblk_8 (c : Dev nD) (t : Fin cfg0.N) : (iblk m c 8 t : Vec F S32x1 .f32) = V m c main_arg10 := by
  have h0 : win0_8.index t 0 = 0 := congrFun (idx_8 t) 0
  have h1 : win0_8.index t 1 = 0 := congrFun (idx_8 t) 1
  funext j
  unfold iblk
  rw [View.read_apply]
  show V m c main_arg10 _ = V m c main_arg10 j
  congr 1
  funext a
  apply Fin.ext
  match a with
  | ⟨0, _⟩ => show win0_8.index t 0 * 32 + 1 * (j 0).val = (j 0).val; rw [h0]; omega
  | ⟨1, _⟩ => show win0_8.index t 1 * 1 + 1 * (j 1).val = (j 1).val; rw [h1]; omega

/-- Window 9's block is its whole array at every point. -/
theorem iblk_9 (c : Dev nD) (t : Fin cfg0.N) : (iblk m c 9 t : Vec F S16x32 .f32) = V m c main_arg11 := by
  have h0 : win0_9.index t 0 = 0 := congrFun (idx_9 t) 0
  have h1 : win0_9.index t 1 = 0 := congrFun (idx_9 t) 1
  funext j
  unfold iblk
  rw [View.read_apply]
  show V m c main_arg11 _ = V m c main_arg11 j
  congr 1
  funext a
  apply Fin.ext
  match a with
  | ⟨0, _⟩ => show win0_9.index t 0 * 16 + 1 * (j 0).val = (j 0).val; rw [h0]; omega
  | ⟨1, _⟩ => show win0_9.index t 1 * 32 + 1 * (j 1).val = (j 1).val; rw [h1]; omega

/-- Window 10's block is its whole array at every point. -/
theorem iblk_10 (c : Dev nD) (t : Fin cfg0.N) : (iblk m c 10 t : Vec F S16x1 .f32) = V m c main_arg12 := by
  have h0 : win0_10.index t 0 = 0 := congrFun (idx_10 t) 0
  have h1 : win0_10.index t 1 = 0 := congrFun (idx_10 t) 1
  funext j
  unfold iblk
  rw [View.read_apply]
  show V m c main_arg12 _ = V m c main_arg12 j
  congr 1
  funext a
  apply Fin.ext
  match a with
  | ⟨0, _⟩ => show win0_10.index t 0 * 16 + 1 * (j 0).val = (j 0).val; rw [h0]; omega
  | ⟨1, _⟩ => show win0_10.index t 1 * 1 + 1 * (j 1).val = (j 1).val; rw [h1]; omega

/-! ## The adjacency's row tile and the embedding's column tile -/

/-- Rows `512 t … 512 t + 511` of the adjacency as the region finds it. -/
def adjTile (c : Dev nD) (t : Fin cfg0.N) : Vec F S512x4096 .f32 := fun y =>
  V m c main_arg0 (ValueIdx.ix2 (n0 := 4096) (n1 := 4096) ⟨512 * t.val + (y 0).val, by have := lt8 t; have := ValueIdx.idx2_lt0 y; omega⟩ (y 1))

theorem iblk_11 (c : Dev nD) (t : Fin cfg0.N) : (iblk m c 11 t : Vec F S512x4096 .f32) = adjTile m c t := by
  have h0 : win0_11.index t 0 = t.val := congrFun (idx_11 t) 0
  have h1 : win0_11.index t 1 = 0 := congrFun (idx_11 t) 1
  funext j
  unfold iblk adjTile
  rw [View.read_apply]
  show V m c main_arg0 _ = V m c main_arg0 _
  congr 1
  funext a
  apply Fin.ext
  match a with
  | ⟨0, _⟩ => show win0_11.index t 0 * 512 + 1 * (j 0).val = 512 * t.val + (j 0).val; rw [h0]; omega
  | ⟨1, _⟩ => show win0_11.index t 1 * 4096 + 1 * (j 1).val = (j 1).val; rw [h1]; omega

/-- Columns `512 t … 512 t + 511` of a [16, 4096] array. -/
def colTile (h : Vec F S16x4096 .f32) (t : Fin cfg0.N) : Vec F S16x512 .f32 := fun y =>
  h (ValueIdx.ix2 (n0 := 16) (n1 := 4096) (y 0) ⟨512 * t.val + (y 1).val, by have := lt8 t; have := ValueIdx.idx2_lt1 y; omega⟩)

/-- The slice the body loads for the residual at point `t` is that column tile. -/
theorem hidSlice_eq (h : Vec F S16x4096 .f32) (t : Fin cfg0.N) : hidSlice (grid0.coords t) h = colTile h t := by
  have e0 : k0_off1 (grid0.coords t) 0 = 0 := congrFun (off_eq t) 0
  have e1 : k0_off1 (grid0.coords t) 1 = 512 * t.val := congrFun (off_eq t) 1
  funext y
  unfold hidSlice colTile
  show h _ = h _
  congr 1
  funext a
  apply Fin.ext
  match a with
  | ⟨0, _⟩ => show k0_off1 (grid0.coords t) 0 + 1 * (y 0).val = (y 0).val; rw [e0]; omega
  | ⟨1, _⟩ => show k0_off1 (grid0.coords t) 1 + 1 * (y 1).val = 512 * t.val + (y 1).val; rw [e1]; omega

end Cert.KernelIdeal.KVal

end
-- ==== Proof.KernelPoints.lean ====
import proofs.«145942_g2000600855469178_pallasbulk_547_29_alg».proof.Proof.KernelBlocks
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KVal

open Cert.KernelIdeal Cert.KernelIdeal.Gen

variable {F : FTy → Type} [FloatOps F]

/-! # What the buffers hold after each grid point

After every point the two carried buffers hold the embedding and the message of ALL nodes (computed at the first
column of each grid row from the same whole arrays, kept in between), and the output's staging buffer holds the
tile of the result under the point. By induction on the point. -/

variable (m : (ℓ : Loc nD τ sig) → Buf (Elt F) ℓ)

/-- The node embedding of all nodes, `relu (W₁ · xᵀ + b₁)`, of the arrays as the region finds them. -/
def hid (c : Dev nD) : Vec F S16x4096 .f32 := k0_pay2 (V m c main_v16) (V m c main_arg3) (V m c main_arg4)

/-- The message of all nodes, `relu (W₃ · relu (W₂ · hid + b₂) + b₃)`. -/
def msg (c : Dev nD) : Vec F S16x4096 .f32 :=
  k0_pay3 (V m c main_v16) (V m c main_arg3) (V m c main_arg4) (V m c main_arg5) (V m c main_arg6) (V m c main_arg7) (V m c main_arg8)

/-- The output tile of point `t`: the messages aggregated over the adjacency's rows `512 t …`, through the second
    MLP, plus the embedding's columns `512 t …`. -/
def blockVal (c : Dev nD) (t : Fin cfg0.N) : Vec F S16x512 .f32 :=
  k0_pay4 (msg m c) (adjTile m c t) (V m c main_arg9) (V m c main_arg10) (V m c main_arg11) (V m c main_arg12) (colTile (hid m c) t)

/-- A point of the first column: the body recomputes both carried buffers and the tile. -/
theorem caseA (c : Dev nD) (t : Fin cfg0.N) (h0 : t.val % 4 = 0) :
    outsAt0 m c t.val t.isLt = (blockVal m c t, hid m c, msg m c) := by
  rw [outsAt0_A m c t h0]
  refine congrArg₂ Prod.mk ?_ (congrArg₂ Prod.mk ?_ ?_)
  · refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).trans ?_
    unfold blockVal hid msg
    rw [hidSlice_eq, iblk_0 m c t, iblk_1 m c t, iblk_2 m c t, iblk_3 m c t, iblk_4 m c t, iblk_5 m c t, iblk_6 m c t, iblk_7 m c t, iblk_8 m c t, iblk_9 m c t, iblk_10 m c t, iblk_11 m c t]
  · refine (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).trans ?_
    unfold hid
    rw [iblk_0 m c t, iblk_1 m c t, iblk_2 m c t]
  · refine (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).trans ?_
    unfold msg
    rw [iblk_0 m c t, iblk_1 m c t, iblk_2 m c t, iblk_3 m c t, iblk_4 m c t, iblk_5 m c t, iblk_6 m c t]

/-- Any other point: the carried buffers are kept, the tile is computed from them. -/
theorem caseB (c : Dev nD) (t : Fin cfg0.N) (h0 : ¬t.val % 4 = 0)
    (ih0 : (outsAt0 m c (t.val - 1) (Nat.lt_of_le_of_lt (Nat.sub_le _ _) t.isLt)).2.1 = hid m c)
    (ih1 : (outsAt0 m c (t.val - 1) (Nat.lt_of_le_of_lt (Nat.sub_le _ _) t.isLt)).2.2 = msg m c) :
    outsAt0 m c t.val t.isLt = (blockVal m c t, hid m c, msg m c) := by
  rw [outsAt0_B m c t h0, ih0, ih1]
  refine congrArg₂ Prod.mk ?_ (congrArg₂ Prod.mk rfl rfl)
  refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (hid m c) (msg m c)).trans ?_
  unfold blockVal
  rw [hidSlice_eq, iblk_7 m c t, iblk_8 m c t, iblk_9 m c t, iblk_10 m c t, iblk_11 m c t]

/-- THE INVARIANT, by induction on the point. -/
theorem outsAt_eq (c : Dev nD) : ∀ (n : ℕ) (h : n < cfg0.N), outsAt0 m c n h = (blockVal m c ⟨n, h⟩, hid m c, msg m c)
  | 0, h => caseA m c ⟨0, h⟩ rfl
  | n + 1, h => by
    by_cases h0 : (n + 1) % 4 = 0
    · exact caseA m c ⟨n + 1, h⟩ h0
    · exact caseB m c ⟨n + 1, h⟩ h0 (congrArg (fun p => p.2.1) (outsAt_eq c n (Nat.lt_of_succ_lt h)))
        (congrArg (fun p => p.2.2) (outsAt_eq c n (Nat.lt_of_succ_lt h)))

end Cert.KernelIdeal.KVal

end
-- ==== Proof.KernelArray.lean ====
import proofs.«145942_g2000600855469178_pallasbulk_547_29_alg».proof.Proof.KernelPoints
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KVal

open Cert.KernelIdeal Cert.KernelIdeal.Gen

variable {F : FTy → Type} [FloatOps F]

/-! # The result array

The output window's block at point `t` is columns `512 t … 512 t + 511` of the [16, 4096] result, written back at
every point; the eight blocks tile the array. So the array ends holding, at column `j`, tile `j / 512` at lane
`j % 512`. -/

variable (m : (ℓ : Loc nD τ sig) → Buf (Elt F) ℓ)

/-- The kernel's [16, 4096] result as one function of the arrays the region finds. -/
def outArr (c : Dev nD) : Vec F S16x4096 .f32 := fun i =>
  blockVal m c ⟨(i 1).val / 512, by have := ValueIdx.idx2_lt1 i; rw [show cfg0.N = 8 from N_0]; omega⟩
    (ValueIdx.ix2 (n0 := 16) (n1 := 512) (i 0) ⟨(i 1).val % 512, Nat.mod_lt _ (by decide)⟩)

theorem blockVal_congr (c : Dev nD) {t t' : Fin cfg0.N} (ht : t = t') {y y' : S16x512.Idx} (hy : y = y') :
    blockVal m c t y = blockVal m c t' y' := by subst ht; subst hy; rfl

/-- At row `y 0` and column `512 t + y 1` the array reads tile `t` at `y`. -/
theorem outArr_tile (c : Dev nD) (t : Fin cfg0.N) (y : S16x512.Idx) (h : 512 * t.val + (y 1).val < 4096) :
    outArr m c (ValueIdx.ix2 (n0 := 16) (n1 := 4096) (y 0) ⟨512 * t.val + (y 1).val, h⟩) = blockVal m c t y := by
  have hy : (y 1).val < 512 := ValueIdx.idx2_lt1 y
  have e1 : (512 * t.val + (y 1).val) / 512 = t.val := by omega
  have e2 : (512 * t.val + (y 1).val) % 512 = (y 1).val := by omega
  unfold outArr
  exact blockVal_congr m c (Fin.ext e1) (by
    funext a
    match a with
    | ⟨0, _⟩ => rfl
    | ⟨1, _⟩ => exact Fin.ext e2)

/-- What point `t` writes back is block `t` of that array. -/
theorem flushed_eq (c : Dev nD) (t : Fin cfg0.N) (hf : (cfg0.win 12).flush t = true) :
    (dats m 0 c).flushed 12 t = ((cfg0.win 12).blk t).view.read (Elt F) (outArr m c) := by
  have h0 : win0_12.index t 0 = 0 := congrFun (idx_12 t) 0
  have h1 : win0_12.index t 1 = t.val := congrFun (idx_12 t) 1
  have ht := lt8 t
  show (cfg0.win 12).cut (grid0.coords t) ((dats m 0 c).after 12 t) = _
  rw [after0_12, outsAt_eq]
  funext y
  rw [View.read_apply]
  have hy : (y 1).val < 512 := ValueIdx.idx2_lt1 y
  have e : ((cfg0.win 12).blk t).view.emb y = ValueIdx.ix2 (n0 := 16) (n1 := 4096) (y 0) ⟨512 * t.val + (y 1).val, by omega⟩ := by
    funext a
    apply Fin.ext
    match a with
    | ⟨0, _⟩ => show win0_12.index t 0 * 16 + 1 * (y 0).val = (y 0).val; rw [h0]; omega
    | ⟨1, _⟩ => show win0_12.index t 1 * 512 + 1 * (y 1).val = 512 * t.val + (y 1).val; rw [h1]; omega
  rw [e]
  exact (outArr_tile m c t y _).symm

/-- An index of the array is in point `t`'s block iff each coordinate is in the block's range on its axis. -/
theorem mem_blk (t : Fin cfg0.N) (i : S16x4096.Idx) :
    i ∈ ((cfg0.win 12).blk t).view.set ↔ ∀ a : Fin 2, win0_12.index t a * S16x512.size a ≤ (i a).val ∧ (i a).val < win0_12.index t a * S16x512.size a + S16x512.size a := by
  show i ∈ ((View.whole main_v17).slice (win0_12.rect t)).set ↔ _
  rw [View.set_slice_whole, Rect.mem_set_unit]
  exact Iff.rfl

/-- Every index of the array is in the block of the point its column's tile names. -/
theorem cover (i : S16x4096.Idx) :
    ∃ t : Fin cfg0.N, (cfg0.win 12).flush t = true ∧ i ∈ ((cfg0.win 12).blk t).view.set := by
  have hi0 : (i 0).val < 16 := ValueIdx.idx2_lt0 i
  have hi1 : (i 1).val < 4096 := ValueIdx.idx2_lt1 i
  have hT : (i 1).val / 512 < cfg0.N := by rw [show cfg0.N = 8 from N_0]; omega
  refine ⟨⟨(i 1).val / 512, hT⟩, flush0_12 _, ?_⟩
  have h0 : win0_12.index ⟨(i 1).val / 512, hT⟩ 0 = 0 := congrFun (idx_12 _) 0
  have h1 : win0_12.index ⟨(i 1).val / 512, hT⟩ 1 = (i 1).val / 512 := congrFun (idx_12 _) 1
  rw [mem_blk]
  intro a
  match a with
  | ⟨0, _⟩ =>
    show win0_12.index ⟨(i 1).val / 512, hT⟩ 0 * 16 ≤ (i 0).val ∧ (i 0).val < win0_12.index ⟨(i 1).val / 512, hT⟩ 0 * 16 + 16
    rw [h0]; omega
  | ⟨1, _⟩ =>
    show win0_12.index ⟨(i 1).val / 512, hT⟩ 1 * 512 ≤ (i 1).val ∧ (i 1).val < win0_12.index ⟨(i 1).val / 512, hT⟩ 1 * 512 + 512
    rw [h1]; omega

/-- So the result array ends holding `outArr`. -/
theorem final (c : Dev nD) : (dats m 0 c).arrAt 12 cfg0.N = outArr m c :=
  (dats m 0 c).arrAt_eq_of_cover 12 (outArr m c) (flushed_eq m c) fun i => cover i

end Cert.KernelIdeal.KVal

end
-- ==== Proof.KernelRun.lean ====
import proofs.«145942_g2000600855469178_pallasbulk_547_29_alg».proof.Proof.KernelArray
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KVal

open Cert.KernelIdeal Cert.KernelIdeal.Gen

variable {F : FTy → Type} [FloatOps F]

/-! # The run, read

After the region one host operation transposes the [16, 4096] result to [4096, 16]. -/

variable (m : (ℓ : Loc nD τ sig) → Buf (Elt F) ℓ) (ρ : Dev nD → PrngReg)

/-- The value the program returns: the transpose of the result array. -/
def result (c : Dev nD) : Buf (Elt F) ((c.tc : Thread nD τ).loc main_v18) :=
  transpose S4096x16 [1, 0] (outArr m c) transposes_S16x4096_S4096x16_1_0

/-- What the host tail leaves in the returned buffer. -/
theorem tail_eq (c : Dev nD) :
    Pipeline.afterTail₀ cfgs (dats m) 0 (V0 m) [hostOps1] c main_v18 = result m c := by
  unfold Pipeline.afterTail₀
  show StableHlo.after hostOps1 _ (Proc.devRef .tc main_v18) = _
  after_results
  rw [(Pipeline.withArrays_arr spec0 launch0.win.arr_inj c _ _ 12).trans (final m c)]
  rfl

/-- THE RUN: every weakly fair execution of the program terminates with the returned buffer at the transpose of
    `outArr` and the fourteen arguments as launched. -/
theorem run : θ_run (defs (F := F)) (onTc (τ := τ) (main (F := F))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).2 main_v18 (Pipeline.mem_restRefs_of main_v18 (by decide) (by decide))).trans (tail_eq m c),
      ((h c).1 11).trans (((dats m 0 c).arrAt_in 11 rfl _).trans ((A_eq m c 11).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).1 9).trans (((dats m 0 c).arrAt_in 9 rfl _).trans ((A_eq m c 9).trans (V_main_arg11 m c))),
      ((h c).1 10).trans (((dats m 0 c).arrAt_in 10 rfl _).trans ((A_eq m c 10).trans (V_main_arg12 m c))),
      (((h c).2 main_arg13 (Pipeline.mem_restRefs_of main_arg13 (by decide) (by decide))).trans (W_main_arg13 m (dats m) c))⟩)
    (run_main m ρ)

end Cert.KernelIdeal.KVal

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.GcnSpec.lean ====
/-
  The graph network of this certificate as plain functions of indices over the extended reals.

  Every dense layer acts on the columns of a features-by-nodes matrix: entry (o, n) of a layer is the positive part of
  the sum over k of W (o, k) · X (k, n), plus the bias b o. A column of a layer therefore depends only on the same column
  of its input, so a block of columns of a layer is the layer of the block of columns. The aggregation sums, for a
  destination node n, the messages of all source nodes s weighted by the adjacency entry (n, s). The 4096 nodes are
  eight consecutive tiles of 512; a sum over the nodes is the sum over the tiles of the sums within a tile, and an
  accumulator that starts at zero and adds one tile's sum per step ends at the whole sum. Only the commutative monoid
  structure of the extended reals under addition is used: no cancellation, no distributivity, no finiteness.
-/
import Idealize.ShloMosaic.PureOps.Ideal
import Mathlib.Algebra.BigOperators.Fin
import Mathlib.Logic.Equiv.Fin.Basic

open scoped BigOperators

noncomputable section

namespace Cert.GcnSpec

/-- A dense layer on columns, with the positive part taken. -/
def layer {A K N : ℕ} (W : Fin A → Fin K → EReal) (b : Fin A → EReal) (X : Fin K → Fin N → EReal)
    (o : Fin A) (n : Fin N) : EReal :=
  max ((∑ k : Fin K, W o k * X k n) + b o) 0

/-- The messages of all source nodes, weighted by a destination node's row of the adjacency matrix. -/
def agg {A N S : ℕ} (msg : Fin A → Fin S → EReal) (adj : Fin N → Fin S → EReal) (o : Fin A) (n : Fin N) : EReal :=
  ∑ s : Fin S, msg o s * adj n s

/-- Node `q` of tile `j`. -/
def node (j : Fin 8) (q : Fin 512) : Fin 4096 := ⟨512 * j.val + q.val, by omega⟩

theorem node_val (j : Fin 8) (q : Fin 512) : (node j q).val = 512 * j.val + q.val := rfl

/-- Every node is a node of its tile. -/
theorem node_div_mod (n : Fin 4096) :
    node ⟨n.val / 512, by omega⟩ ⟨n.val % 512, Nat.mod_lt _ (by decide)⟩ = n :=
  Fin.ext (by rw [node_val]; exact Nat.div_add_mod n.val 512)

/-- The columns of tile `j`. -/
def tile {K : ℕ} (j : Fin 8) (X : Fin K → Fin 4096 → EReal) : Fin K → Fin 512 → EReal := fun k q => X k (node j q)

/-- A tile of a layer is the layer of the tile. -/
theorem layer_tile {A K : ℕ} (W : Fin A → Fin K → EReal) (b : Fin A → EReal) (X : Fin K → Fin 4096 → EReal)
    (j : Fin 8) (o : Fin A) (q : Fin 512) : layer W b (tile j X) o q = layer W b X o (node j q) := rfl

/-- A sum over the nodes, tile by tile. -/
theorem sum_nodes {M : Type*} [AddCommMonoid M] (f : Fin 4096 → M) :
    ∑ s : Fin 4096, f s = ∑ j : Fin 8, ∑ q : Fin 512, f (node j q) := by
  rw [← Fintype.sum_prod_type']
  refine (Fintype.sum_equiv (finProdFinEquiv (m := 8) (n := 512)) (fun p => f (node p.1 p.2)) f (fun p => ?_)).symm
  refine congrArg f (Fin.ext ?_)
  simp only [node_val, finProdFinEquiv_apply_val]
  omega

/-- An accumulator that is reset to zero and then adds one term per step holds, after the last of `N` steps, the sum
    of all terms. -/
theorem acc_total {M : Type*} [AddCommMonoid M] {N : ℕ} (s : Fin (N + 1) → M) (acc : (n : ℕ) → n < N + 1 → M)
    (h0 : acc 0 (Nat.succ_pos N) = 0 + s 0)
    (hs : ∀ (n : ℕ) (h : n + 1 < N + 1), acc (n + 1) h = acc n (Nat.lt_of_succ_lt h) + s ⟨n + 1, h⟩) :
    acc N (Nat.lt_succ_self N) = ∑ i : Fin (N + 1), s i := by
  have key : ∀ (n : ℕ) (h : n < N + 1), acc n h = ∑ i : Fin (n + 1), s ⟨i.val, lt_of_lt_of_le i.isLt h⟩ := by
    intro n
    induction n with
    | zero => intro h; rw [h0, zero_add]; simp
    | succ n ih =>
      intro h
      rw [hs n h, ih (Nat.lt_of_succ_lt h), Fin.sum_univ_castSucc (n := n + 1)]
      rfl
  exact key N _

/-- The whole network at output feature `o` and node `n`: hidden features, messages, aggregation over the sources, two
    layers on the aggregate, and the hidden features added back. -/
def network (x : Fin 10 → Fin 4096 → EReal) (wh : Fin 16 → Fin 10 → EReal) (bh : Fin 16 → EReal)
    (w1 : Fin 32 → Fin 16 → EReal) (b1 : Fin 32 → EReal) (w2 : Fin 16 → Fin 32 → EReal) (b2 : Fin 16 → EReal)
    (wa1 : Fin 32 → Fin 16 → EReal) (ba1 : Fin 32 → EReal) (wa2 : Fin 16 → Fin 32 → EReal) (ba2 : Fin 16 → EReal)
    (adj : Fin 4096 → Fin 4096 → EReal) (o : Fin 16) (n : Fin 4096) : EReal :=
  layer wa2 ba2 (layer wa1 ba1 (agg (layer w2 b2 (layer w1 b1 (layer wh bh x))) adj)) o n + layer wh bh x o n

/-- A tile of the network from the aggregate taken over all sources at once for the tile's destinations. -/
theorem network_tile_whole (x : Fin 10 → Fin 4096 → EReal) (wh : Fin 16 → Fin 10 → EReal) (bh : Fin 16 → EReal)
    (w1 : Fin 32 → Fin 16 → EReal) (b1 : Fin 32 → EReal) (w2 : Fin 16 → Fin 32 → EReal) (b2 : Fin 16 → EReal)
    (wa1 : Fin 32 → Fin 16 → EReal) (ba1 : Fin 32 → EReal) (wa2 : Fin 16 → Fin 32 → EReal) (ba2 : Fin 16 → EReal)
    (adj : Fin 4096 → Fin 4096 → EReal) (t : Fin 8) (o : Fin 16) (q : Fin 512) :
    layer wa2 ba2 (layer wa1 ba1
        (agg (layer w2 b2 (layer w1 b1 (layer wh bh x))) (fun q' s => adj (node t q') s))) o q + layer wh bh x o (node t q)
      = network x wh bh w1 b1 w2 b2 wa1 ba1 wa2 ba2 adj o (node t q) := rfl

/-- A tile of the network from an accumulator holding, for the tile's destinations, the sum over the source tiles of the
    sums within each source tile. -/
theorem network_tile_acc (x : Fin 10 → Fin 4096 → EReal) (wh : Fin 16 → Fin 10 → EReal) (bh : Fin 16 → EReal)
    (w1 : Fin 32 → Fin 16 → EReal) (b1 : Fin 32 → EReal) (w2 : Fin 16 → Fin 32 → EReal) (b2 : Fin 16 → EReal)
    (wa1 : Fin 32 → Fin 16 → EReal) (ba1 : Fin 32 → EReal) (wa2 : Fin 16 → Fin 32 → EReal) (ba2 : Fin 16 → EReal)
    (adj : Fin 4096 → Fin 4096 → EReal) (i : Fin 8) (acc : Fin 16 → Fin 512 → EReal)
    (hacc : ∀ o' q', acc o' q' = ∑ j : Fin 8, ∑ k : Fin 512,
      layer w2 b2 (layer w1 b1 (layer wh bh x)) o' (node j k) * adj (node i q') (node j k))
    (o : Fin 16) (q : Fin 512) :
    layer wa2 ba2 (layer wa1 ba1 acc) o q + layer wh bh x o (node i q)
      = network x wh bh w1 b1 w2 b2 wa1 ba1 wa2 ba2 adj o (node i q) := by
  have e : acc = fun o' q' => agg (layer w2 b2 (layer w1 b1 (layer wh bh x))) adj o' (node i q') :=
    funext fun o' => funext fun q' => (hacc o' q').trans
      (sum_nodes (fun s => layer w2 b2 (layer w1 b1 (layer wh bh x)) o' s * adj (node i q') s)).symm
  rw [e]
  rfl

end Cert.GcnSpec

end
-- ==== Proof.LibColumnLayer.lean ====
/-
  A dense layer on columns, read at an entry.

  A weight matrix W [A, K] times a features-by-nodes matrix X [K, N], plus a bias column b [A, 1] spread along the
  columns, with the positive part taken against a zero splat: at the ideal values entry (o, n) is
  max (Σ_k W (o, k) · X (k, n) + b (o, 0)) 0. Stated over arbitrary extents, for the matrix unit's product into a zero
  accumulator.
-/
import proofs.«145942_g2000600855469178_pallasbulk_547_29_alg».proof.Proof.LibPlainDot
import proofs.«145942_g2000600855469178_pallasbulk_547_29_alg».proof.Proof.LibColBroadcast
import proofs.«145942_g2000600855469178_pallasbulk_547_29_alg».proof.Proof.GcnSpec
import Idealize.ShloMosaic.PureOps.Ideal.Laws
import Idealize.ShloMosaic.Lib.ValueIdx
import Idealize.ShloMosaic.Lib.Pipeline.Value

open scoped BigOperators

noncomputable section

namespace Cert.Lib.ColumnLayer

open Idealize.ShloMosaic Idealize.ShloMosaic.ValueIdx Cert.GcnSpec

/-- The zero word of f32 is the real zero. -/
theorem zero_word : (Scalar.ofBits (F := Ideal) .f32 0x00000000#32 : Ideal .f32) = 0 := Ideal.ofBits_zero_f32

/-- Entry (o, n) of W·X + b (the bias spread along the columns), positive part. -/
theorem layer_apply {A K N : ℕ} (W : FVec Ideal ⟨2, ![A, K]⟩ .f32) (b : FVec Ideal ⟨2, ![A, 1]⟩ .f32)
    (X : FVec Ideal ⟨2, ![K, N]⟩ .f32) (hb : (⟨2, ![A, 1]⟩ : Shape).Broadcasts ⟨2, ![A, N]⟩) (o : Fin A) (n : Fin N) :
    maximumf (addf (matmul (DotDims.plain A K N) none W X (constant (F := Ideal) ⟨2, ![A, N]⟩ .f32 0x00000000#32))
        (broadcastTo ⟨2, ![A, N]⟩ b hb))
      (broadcast ⟨2, ![A, N]⟩ (Scalar.ofBits (F := Ideal) .f32 0x00000000#32)) (ix2 o n)
      = layer (fun o k => W (ix2 o k)) (fun o => b (ix2 o (0 : Fin 1))) (fun k n => X (ix2 k n)) o n := by
  rw [maximumf_apply, addf_apply, broadcast_apply, zero_word,
    Cert.Lib.ColBroadcast.broadcastTo_a1_ab_apply b hb o n]
  refine congrArg (fun z => max (z + b (ix2 o (0 : Fin 1))) 0) ?_
  exact Cert.Lib.PlainDot.matmul_zero_apply A K N none W X (ix2 o n)

end Cert.Lib.ColumnLayer

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.KernelReads.lean ====
/-
  The fused kernel's arithmetic, read at an entry over the extended reals.

  Each value the body stores is a composition of dense layers on columns: the hidden features are one layer of the
  input features, the messages two more layers of the hidden features (the round trip through the narrower float format
  is the identity here), and an output tile is two layers of the aggregated messages — entry (o, q) of which is the sum
  over all source nodes s of msg (o, s) · adj (q, s), the contraction running over the last axis of both operands —
  plus the hidden features' tile.
-/
import proofs.«145942_g2000600855469178_pallasbulk_547_29_alg».proof.Proof.Gen.KernelIdeal.Skeleton
import proofs.«145942_g2000600855469178_pallasbulk_547_29_alg».proof.Proof.LibColumnLayer
import proofs.«145942_g2000600855469178_pallasbulk_547_29_alg».proof.Proof.LibDotNT
import Idealize.ShloMosaic.Lib.Pipeline.Value

open scoped BigOperators

noncomputable section

namespace Cert.KernelIdeal.Reads

open Idealize.ShloMosaic Idealize.ShloMosaic.ValueIdx Cert.GcnSpec
open Cert.KernelIdeal Cert.KernelIdeal.Gen

/-- A matrix as a function of its two coordinates. -/
abbrev mat {A B : ℕ} (v : (⟨2, ![A, B]⟩ : Shape).Idx → EReal) : Fin A → Fin B → EReal := fun a b => v (ix2 a b)
/-- A column as a function of its row. -/
abbrev col {A : ℕ} (v : (⟨2, ![A, 1]⟩ : Shape).Idx → EReal) : Fin A → EReal := fun a => v (ix2 a (0 : Fin 1))

/-- The hidden features: one layer of the input features. -/
theorem pay1_apply (x : Vec Ideal S10x4096 .f32) (w : Vec Ideal S16x10 .f32) (b : Vec Ideal S16x1 .f32) (o : Fin 16) (n : Fin 4096) :
    k0_pay1 (F := Ideal) x w b (ix2 o n) = layer (mat w) (col b) (mat x) o n := by
  unfold k0_pay1
  simp only [shapeCast_self]
  exact Cert.Lib.ColumnLayer.layer_apply w b x _ o n

/-- What is kept of them between grid points is the same array. -/
theorem pay2_eq (x : Vec Ideal S10x4096 .f32) (w : Vec Ideal S16x10 .f32) (b : Vec Ideal S16x1 .f32) :
    k0_pay2 (F := Ideal) x w b = k0_pay1 (F := Ideal) x w b := by
  unfold k0_pay2
  simp only [shapeCast_self]

/-- The messages: two more layers. -/
theorem pay3_apply (x : Vec Ideal S10x4096 .f32) (w : Vec Ideal S16x10 .f32) (b : Vec Ideal S16x1 .f32)
    (w1 : Vec Ideal S32x16 .f32) (b1 : Vec Ideal S32x1 .f32) (w2 : Vec Ideal S16x32 .f32) (b2 : Vec Ideal S16x1 .f32)
    (o : Fin 16) (n : Fin 4096) :
    k0_pay3 (F := Ideal) x w b w1 b1 w2 b2 (ix2 o n)
      = layer (mat w2) (col b2) (layer (mat w1) (col b1) (layer (mat w) (col b) (mat x))) o n := by
  unfold k0_pay3
  simp only [shapeCast_self]
  refine (Cert.Lib.ColumnLayer.layer_apply w2 b2 _ _ o n).trans ?_
  refine congrArg (fun X => layer (mat w2) (col b2) X o n) (funext fun k => funext fun n' => ?_)
  refine (Cert.Lib.ColumnLayer.layer_apply w1 b1 _ _ k n').trans ?_
  refine congrArg (fun X => layer (mat w1) (col b1) X k n') (funext fun k' => funext fun n'' => ?_)
  exact pay1_apply x w b k' n''

/-- An output tile: two layers of the aggregated messages, plus the hidden features' tile. -/
theorem pay4_apply (msg : Vec Ideal S16x4096 .f32) (adj : Vec Ideal S512x4096 .f32) (w1 : Vec Ideal S32x16 .f32)
    (b1 : Vec Ideal S32x1 .f32) (w2 : Vec Ideal S16x32 .f32) (b2 : Vec Ideal S16x1 .f32) (hid : Vec Ideal S16x512 .f32)
    (o : Fin 16) (q : Fin 512) :
    k0_pay4 (F := Ideal) msg adj w1 b1 w2 b2 hid (ix2 o q)
      = layer (mat w2) (col b2) (layer (mat w1) (col b1) (agg (mat msg) (mat adj))) o q + hid (ix2 o q) := by
  unfold k0_pay4
  rw [addf_apply]
  refine congrArg (fun z => z + hid (ix2 o q)) ?_
  refine (Cert.Lib.ColumnLayer.layer_apply w2 b2 _ _ o q).trans ?_
  refine congrArg (fun X => layer (mat w2) (col b2) X o q) (funext fun k => funext fun q' => ?_)
  refine (Cert.Lib.ColumnLayer.layer_apply w1 b1 _ _ k q').trans ?_
  refine congrArg (fun X => layer (mat w1) (col b1) X k q') (funext fun k' => funext fun q'' => ?_)
  exact Cert.Lib.DotNT.matmul_zero_apply none msg adj k' q''

end Cert.KernelIdeal.Reads

end
-- ==== Proof.KernelValue.lean ====
/-
  The fused kernel's result array is the network, entry by entry.

  Tile t of the result is two dense layers of the messages aggregated along rows 512 t … 512 t + 511 of the adjacency
  matrix, plus the same columns of the hidden features; the messages and hidden features are layers of the whole
  transposed feature matrix. Since every layer acts column by column, entry (o, 512 t + q) of the result is the
  network's value at output feature o and node 512 t + q.
-/
import proofs.«145942_g2000600855469178_pallasbulk_547_29_alg».proof.Proof.KernelRun
import proofs.«145942_g2000600855469178_pallasbulk_547_29_alg».proof.Proof.KernelReads

open scoped BigOperators

noncomputable section

namespace Cert.KernelIdeal.KValue

open Idealize.ShloMosaic Idealize.ShloMosaic.ValueIdx Cert.GcnSpec Cert.KernelIdeal Cert.KernelIdeal.Gen
open Cert.KernelIdeal.KVal Cert.KernelIdeal.Reads

variable (m : (ℓ : Loc nD τ sig) → Buf (Elt Ideal) ℓ) (c : Dev nD)

/-- The network over the arrays the region finds. -/
def net (o : Fin 16) (n : Fin 4096) : EReal :=
  network (mat (V m c main_v16 : S10x4096.Idx → EReal)) (mat (V m c main_arg3 : S16x10.Idx → EReal)) (col (V m c main_arg4 : S16x1.Idx → EReal))
    (mat (V m c main_arg5 : S32x16.Idx → EReal)) (col (V m c main_arg6 : S32x1.Idx → EReal))
    (mat (V m c main_arg7 : S16x32.Idx → EReal)) (col (V m c main_arg8 : S16x1.Idx → EReal))
    (mat (V m c main_arg9 : S32x16.Idx → EReal)) (col (V m c main_arg10 : S32x1.Idx → EReal))
    (mat (V m c main_arg11 : S16x32.Idx → EReal)) (col (V m c main_arg12 : S16x1.Idx → EReal))
    (mat (V m c main_arg0 : S4096x4096.Idx → EReal)) o n

/-- Tile `t` of the result at (o, q) is the network at node `512 t + q`. -/
theorem blockVal_apply (t : Fin cfg0.N) (o : Fin 16) (q : Fin 512) :
    blockVal (F := Ideal) m c t (ix2 o q) = net m c o (node ⟨t.val, lt8 t⟩ q) := by
  unfold blockVal
  rw [pay4_apply]
  have hmsg : mat (msg (F := Ideal) m c : S16x4096.Idx → EReal)
      = layer (mat (V m c main_arg7 : S16x32.Idx → EReal)) (col (V m c main_arg8 : S16x1.Idx → EReal))
          (layer (mat (V m c main_arg5 : S32x16.Idx → EReal)) (col (V m c main_arg6 : S32x1.Idx → EReal))
            (layer (mat (V m c main_arg3 : S16x10.Idx → EReal)) (col (V m c main_arg4 : S16x1.Idx → EReal))
              (mat (V m c main_v16 : S10x4096.Idx → EReal)))) :=
    funext fun o' => funext fun s => pay3_apply _ _ _ _ _ _ _ o' s
  have hadj : mat (adjTile (F := Ideal) m c t : S512x4096.Idx → EReal)
      = fun q' s => mat (V m c main_arg0 : S4096x4096.Idx → EReal) (node ⟨t.val, lt8 t⟩ q') s := rfl
  have hhid : colTile (hid (F := Ideal) m c) t (ix2 o q)
      = layer (mat (V m c main_arg3 : S16x10.Idx → EReal)) (col (V m c main_arg4 : S16x1.Idx → EReal))
          (mat (V m c main_v16 : S10x4096.Idx → EReal)) o (node ⟨t.val, lt8 t⟩ q) := by
    show hid (F := Ideal) m c (ix2 o (node ⟨t.val, lt8 t⟩ q)) = _
    unfold hid
    rw [pay2_eq]
    exact pay1_apply _ _ _ o _
  rw [hmsg, hadj, hhid]
  exact network_tile_whole _ _ _ _ _ _ _ _ _ _ _ _ ⟨t.val, lt8 t⟩ o q

/-- The result array at (o, n) is the network at node `n`. -/
theorem outArr_apply (o : Fin 16) (n : Fin 4096) : outArr (F := Ideal) m c (ix2 o n) = net m c o n := by
  have h := blockVal_apply m c ⟨n.val / 512, by rw [show cfg0.N = 8 from N_0]; omega⟩ o ⟨n.val % 512, Nat.mod_lt _ (by decide)⟩
  rw [show node ⟨n.val / 512, _⟩ ⟨n.val % 512, _⟩ = n from node_div_mod n] at h
  exact h

end Cert.KernelIdeal.KValue

end
-- ==== Proof.RefMlpRegion.lean ====
import proofs.«145942_g2000600855469178_pallasbulk_547_29_alg».proof.Proof.Gen.ReferenceIdeal.Launch
import proofs.«145942_g2000600855469178_pallasbulk_547_29_alg».proof.Proof.Gen.ReferenceIdeal.Skeleton
import proofs.«145942_g2000600855469178_pallasbulk_547_29_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# The node MLP region of the reference network

The first of the reference's two kernels runs over eight tiles of 512 nodes. At each tile it reads the
transposed feature block and six weight and bias arrays, and writes two blocks: the hidden activations
`relu(W₁·x + b₁)` in f32, and the messages `relu(W₃·relu(W₂·h + b₂) + b₃)` rounded to bf16. Nothing is
carried from one tile to the next, and each output block is written whole, once.

This module states what one tile leaves in its two output blocks as functions of the input blocks alone, and
discharges the per-tile obligation of the pipelined run from that.
-/

set_option maxRecDepth 16384

noncomputable section

namespace Cert.ReferenceIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

section Region
-- what the core's buffers hold when the region is entered
variable (V : (c : Dev nD) → (b : Ref sig .tc) → Buf (Elt F) ((c : Thread nD τ).loc b))

/-! ## Blocks -/

/-- The block of window `w` at tile `t`, read off the window's array as it stands on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## A single whole store -/

/-- The zero offset of a rank-two rectangle. -/
theorem zero_off : (![0, 0] : Fin 2 → Nat) = fun _ => 0 := funext fun a => by fin_cases a <;> rfl

/-- A load of a whole buffer reads what the buffer's view reads. -/
theorem load_all {κ : Kind} {sp : Space} {S : Shape} {e : EltTy} (v : View sig κ sp S e) (f : v.ty.Contents (Elt F))
    {off : Fin S.rank → Nat} (inb : ∀ a, off a + S.size a ≤ S.size a) (h : off = fun _ => 0) :
    v.readAt (Elt F) (Rect.unit off S.size inb).toLoadRect f = v.read (Elt F) f :=
  View.ld_unit_zero h inb _

/-- One store over a whole buffer leaves the stored value there, whatever was there before: the single piece
    covers every index, so the buffer reads as the piece's payload. -/
theorem store_all {κ : Kind} {sp : Space} {S : Shape} {e : EltTy} (v : View sig κ sp S e) (f : v.ty.Contents (Elt F))
    {off : Fin S.rank → Nat} (inb : ∀ a, off a + S.size a ≤ S.size a) (h : off = fun _ => 0) (p : S.Idx → Elt F e) :
    v.read (Elt F) (v.writes (Elt F) f [⟨Rect.unit off S.size inb, p⟩]) = p :=
  (View.read_writes_eq_canon v f _ (fun y => ⟨_, List.mem_singleton_self _, View.mem_set_unit_zero h inb y⟩)).trans
    (View.canon_unit_zero h inb p)

/-! ## One tile of the kernel -/

set_option maxHeartbeats 1000000 in
/-- The kernel on nine whole buffers. The seven inputs hold `x0 … x6` and are handed back unchanged; the two
    outputs may hold anything on entry (the kernel reads them and discards what it read) and are handed back
    holding the hidden activations of `x0, x1, x2` and the bf16 messages of all seven. Each output is stored
    whole, once, so what it holds afterwards is exactly the stored value (`store_all`), and each load of a
    whole input reads the input (`load_all`). -/
theorem tile_run (c : Dev nD) (E : Set ℕ) (i : grid0.Coords)
    (a0 : Memref sig .tc .vmem S10x512 .f32) (h0 : a0.IsWhole) (a1 : Memref sig .tc .vmem S16x10 .f32) (h1 : a1.IsWhole)
    (a2 : Memref sig .tc .vmem S16x1 .f32) (h2 : a2.IsWhole) (a3 : Memref sig .tc .vmem S32x16 .f32) (h3 : a3.IsWhole)
    (a4 : Memref sig .tc .vmem S32x1 .f32) (h4 : a4.IsWhole) (a5 : Memref sig .tc .vmem S16x32 .f32) (h5 : a5.IsWhole)
    (a6 : Memref sig .tc .vmem S16x1 .f32) (h6 : a6.IsWhole) (a7 : Memref sig .tc .vmem S16x512 .f32) (h7 : a7.IsWhole)
    (a8 : Memref sig .tc .vmem S16x512 .bf16) (h8 : a8.IsWhole)
    (x0 : Vec F S10x512 .f32) (x1 : Vec F S16x10 .f32) (x2 : Vec F S16x1 .f32) (x3 : Vec F S32x16 .f32)
    (x4 : Vec F S32x1 .f32) (x5 : Vec F S16x32 .f32) (x6 : Vec F S16x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6
            ∗ owns (c : Thread nD τ) a7 fullShare (k0_pay1 x0 x1 x2)
            ∗ owns (c : Thread nD τ) a8 fullShare (k0_pay2 x0 x1 x2 x3 x4 x5 x6)) -∗ K ⟨⟩))
      ⊢ wp frame (wpE (defs₀ (F := F)) Variants.none c none) E (cc0_node_mlp_kernel i a0 h0 a1 h1 a2 h2 a3 h3 a4 h4 a5 h5 a6 h6 a7 h7 a8 h8) K := by
  simp only [cc0_node_mlp_kernel_eq_skeleton]; unfold cc0_node_mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e0 e1 e2 e3 e4 e5 e6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    refine (store_all a7.view f7 inb_S16x512_S16x512_0_0 zero_off _).trans ?_
    rw [load_all a0.view f0 inb_S10x512_S10x512_0_0 zero_off, load_all a1.view f1 inb_S16x10_S16x10_0_0 zero_off,
      load_all a2.view f2 inb_S16x1_S16x1_0_0 zero_off]
  iexists _; isplitr
  swap; · iexact H8
  ipureintro
  refine (store_all a8.view f8 inb_S16x512_S16x512_0_0 zero_off _).trans ?_
  rw [load_all a0.view f0 inb_S10x512_S10x512_0_0 zero_off, load_all a1.view f1 inb_S16x10_S16x10_0_0 zero_off,
    load_all a2.view f2 inb_S16x1_S16x1_0_0 zero_off, load_all a3.view f3 inb_S32x16_S32x16_0_0 zero_off,
    load_all a4.view f4 inb_S32x1_S32x1_0_0 zero_off, load_all a5.view f5 inb_S16x32_S16x32_0_0 zero_off,
    load_all a6.view f6 inb_S16x1_S16x1_0_0 zero_off]

/-! ## What an input window's staging buffer holds when the tile starts -/

/-- An input window is never written by the kernel, so its current staging buffer holds the window's block of the
    entry contents at every tile, whether the block was fetched at this tile or carried from an earlier one (the
    weights and biases are fetched once; their block index never moves). Stated for any proof data over the
    entry contents that leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before_in5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before_in6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data of the region -/

/-- The region's data on core `c`: every window's array as found on entry; after tile `t` each input's buffer
    still at its block, the f32 output's at the hidden activations of the feature block under the first
    layer, and the bf16 output's at the messages of the feature block under all three layers; the invariant is
    the untouched remainder of the core; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay1 (iblk0 V c 0 t) (iblk0 V c 1 t) (iblk0 V c 2 t)
    | ⟨8, _⟩ => k0_pay2 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- After a tile, each input's buffer is at its block, -/
theorem after0_in0 (c : Dev nD) (t : Fin cfg0.N) : (dat0 V c).after 0 t = iblk0 V c 0 t := by dsimp only [dat0]
theorem after0_in1 (c : Dev nD) (t : Fin cfg0.N) : (dat0 V c).after 1 t = iblk0 V c 1 t := by dsimp only [dat0]
theorem after0_in2 (c : Dev nD) (t : Fin cfg0.N) : (dat0 V c).after 2 t = iblk0 V c 2 t := by dsimp only [dat0]
theorem after0_in3 (c : Dev nD) (t : Fin cfg0.N) : (dat0 V c).after 3 t = iblk0 V c 3 t := by dsimp only [dat0]
theorem after0_in4 (c : Dev nD) (t : Fin cfg0.N) : (dat0 V c).after 4 t = iblk0 V c 4 t := by dsimp only [dat0]
theorem after0_in5 (c : Dev nD) (t : Fin cfg0.N) : (dat0 V c).after 5 t = iblk0 V c 5 t := by dsimp only [dat0]
theorem after0_in6 (c : Dev nD) (t : Fin cfg0.N) : (dat0 V c).after 6 t = iblk0 V c 6 t := by dsimp only [dat0]
/-- the f32 output's buffer is at `relu(W₁·x + b₁)` of the tile's blocks, -/
theorem after0_7 (c : Dev nD) (t : Fin cfg0.N) :
    (dat0 V c).after 7 t = k0_pay1 (iblk0 V c 0 t) (iblk0 V c 1 t) (iblk0 V c 2 t) := by dsimp only [dat0]
/-- and the bf16 output's at the rounded `relu(W₃·relu(W₂·h + b₂) + b₃)`, `h` the hidden activations. -/
theorem after0_8 (c : Dev nD) (t : Fin cfg0.N) :
    (dat0 V c).after 8 t = k0_pay2 (iblk0 V c 0 t) (iblk0 V c 1 t) (iblk0 V c 2 t) (iblk0 V c 3 t) (iblk0 V c 4 t) (iblk0 V c 5 t) (iblk0 V c 6 t) := by
  dsimp only [dat0]

/-- Before a tile, each input's current staging buffer is at its block. -/
theorem before0_in0 (c : Dev nD) (t : Fin cfg0.N) (d) : (dat0 V c).before 0 t d = iblk0 V c 0 t :=
  before_in0_of V (dat0 V c) (A_eq0 V c 0) (after0_in0 V c) t d
theorem before0_in1 (c : Dev nD) (t : Fin cfg0.N) (d) : (dat0 V c).before 1 t d = iblk0 V c 1 t :=
  before_in1_of V (dat0 V c) (A_eq0 V c 1) (after0_in1 V c) t d
theorem before0_in2 (c : Dev nD) (t : Fin cfg0.N) (d) : (dat0 V c).before 2 t d = iblk0 V c 2 t :=
  before_in2_of V (dat0 V c) (A_eq0 V c 2) (after0_in2 V c) t d
theorem before0_in3 (c : Dev nD) (t : Fin cfg0.N) (d) : (dat0 V c).before 3 t d = iblk0 V c 3 t :=
  before_in3_of V (dat0 V c) (A_eq0 V c 3) (after0_in3 V c) t d
theorem before0_in4 (c : Dev nD) (t : Fin cfg0.N) (d) : (dat0 V c).before 4 t d = iblk0 V c 4 t :=
  before_in4_of V (dat0 V c) (A_eq0 V c 4) (after0_in4 V c) t d
theorem before0_in5 (c : Dev nD) (t : Fin cfg0.N) (d) : (dat0 V c).before 5 t d = iblk0 V c 5 t :=
  before_in5_of V (dat0 V c) (A_eq0 V c 5) (after0_in5 V c) t d
theorem before0_in6 (c : Dev nD) (t : Fin cfg0.N) (d) : (dat0 V c).before 6 t d = iblk0 V c 6 t :=
  before_in6_of V (dat0 V c) (A_eq0 V c 6) (after0_in6 V c) t d

/-! ## The per-tile obligation -/

/-- What the kernel is entered with at tile `t`: the invariant, the core's debts, and each window's current staging
    buffer at its contents before the tile. -/
def tilePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same, each buffer at its contents after the tile. -/
def tilePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The kernel at any tile: the inputs' buffers hold their blocks (`before0_inW`), so `tile_run` applies at those
    blocks; the invariant and the debts are not touched. -/
theorem tile_sound (c : Dev nD) (t : Fin cfg0.N) :
    tilePre V c t ⊢ wp frame (wpE (defs₀ (F := F)) Variants.none c none) Set.univ (bodyAt0 t) (fun _ => tilePost V c t) := by
  unfold tilePre tilePost bodyAt0
  simp only [before0_in0, before0_in1, before0_in2, before0_in3, before0_in4, before0_in5, before0_in6]
  rw [show (dat0 V c).Φ t.succ = (dat0 V c).Φ t.castSucc from rfl,
    show (dat0 V c).owesAt () t.succ = (dat0 V c).owesAt () t.castSucc from rfl,
    after0_in0, after0_in1, after0_in2, after0_in3, after0_in4, after0_in5, after0_in6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (tile_run c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipelined run, at every tile. -/
theorem body_obligation0 (c : Dev nD) : BodyObligation (dat0 (F := F) V c) (defs₀ (F := F)) Variants.none () Set.univ := fun t => by
  rw [bigSep_W0, bigSep_W0]
  exact tile_sound V c t

end Region
end Cert.ReferenceIdeal.Mlp
end
-- ==== Proof.RefRun.lean ====
import proofs.«145942_g2000600855469178_pallasbulk_547_29_alg».proof.Proof.RefMlpRegion
import proofs.«145942_g2000600855469178_pallasbulk_547_29_alg».proof.Proof.Gen.ReferenceIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The reference network's run, boundary by boundary

The reference program is four stretches in a row: host operations that build the transposed feature matrix and
the bf16 adjacency; the node MLP kernel; the aggregation kernel; one host transpose of the result. This module
names what every unscoped buffer holds at each of the five boundaries, as a fold from the launch memory, and
proves that every fair execution from the launch ends with the buffers at the last of these.

The second kernel's proof data enter as a parameter `dat1` with the six facts the assembly uses
(`Region1Facts`), so that nothing here depends on how that kernel is analysed.
-/

set_option maxRecDepth 16384

noncomputable section

namespace Cert.ReferenceIdeal.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-- What the assembly needs of the second kernel's proof data, at any entry contents `V`: its arrays are `V`'s, its
    shares are full, it owes nothing and bounds the waits recorded before its first point by nothing, its body obligation holds, and its invariant at the first and the last
    grid point is interchangeable with the untouched remainder of the core. -/
structure Region1Facts (dat1 : (((c : Dev nD) → (b : Ref sig .tc) → Buf (Elt F) ((c : Thread nD τ).loc b)) → (c : Dev nD) → Dat τ (Elt F) Unit ℕ (UR sig nD τ) ℕ cfg1 c)) : Prop where
  hA : ∀ V c w, (dat1 V c).A w = V c (Pipeline.arrRef spec1 w)
  hq : ∀ V c w, (dat1 V c).q w = fullShare
  hO : ∀ V c t, (dat1 V c).owed t = 0
  hrec : ∀ V c, (dat1 V c).recorded 0 = Set.univ
  hbody : ∀ V c, BodyObligation (dat1 V c) (defs₀ (F := F)) Variants.none () Set.univ
  hin : ∀ V c, (Pipeline.ΦA (U := UR sig nD τ) (Val := Elt F) spec1 c : sProp 𝕄) ⊢ (dat1 V c).Φ 0
  hout : ∀ V c, (dat1 V c).Φ (Fin.last cfg1.N) ⊢ (Pipeline.ΦA (U := UR sig nD τ) (Val := Elt F) spec1 c : sProp 𝕄)

variable (m : (ℓ : Loc nD τ sig) → Buf (Elt F) ℓ)
variable (dat1 : (((c : Dev nD) → (b : Ref sig .tc) → Buf (Elt F) ((c : Thread nD τ).loc b)) → (c : Dev nD) → Dat τ (Elt F) Unit ℕ (UR sig nD τ) ℕ cfg1 c))

/-! ## The contents at the five boundaries -/

/-- At launch. -/
abbrev W0 : Dev nD → Valuation τ sig (Elt F) := fun c b => m (c, b)
/-- After the first host stretch: what the first kernel is entered with. -/
abbrev W1 : Dev nD → Valuation τ sig (Elt F) := fun c => StableHlo.after hostOps0 (W0 m c)
/-- The same, read at the core's references. -/
abbrev V1 : ((c : Dev nD) → (b : Ref sig .tc) → Buf (Elt F) ((c : Thread nD τ).loc b)) := fun c b => W1 m c b
/-- After the first kernel: its arrays at what its write-backs leave, every other buffer unchanged. -/
def W2 (c : Dev nD) : Valuation τ sig (Elt F) :=
  Pipeline.withArrays spec0 c (W1 m c) fun w => (Mlp.dat0 (V1 m) c).arrAt w cfg0.N
theorem W2_arr (c : Dev nD) (w : Fin cfg0.W) :
    W2 m c (Proc.devRef .tc (Pipeline.arrRef spec0 w)) = (Mlp.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's references: what the second kernel is entered with. -/
abbrev V2 : ((c : Dev nD) → (b : Ref sig .tc) → Buf (Elt F) ((c : Thread nD τ).loc b)) := fun c b => W2 m c b
theorem hF0 (c : Dev nD) (w : Fin cfg0.W) : (Mlp.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel, likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m dat1 c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m dat1 c (Proc.devRef .tc b) = W2 m c (Proc.devRef .tc b) := by
  unfold W3; exact Pipeline.withArrays_of_ne spec1 c _ _ b hb
abbrev V3 : ((c : Dev nD) → (b : Ref sig .tc) → Buf (Elt F) ((c : Thread nD τ).loc b)) := fun c b => W3 m dat1 c b
theorem hF1 (c : Dev nD) (w : Fin cfg1.W) : (dat1 (V2 m) c).arrAt w cfg1.N = V3 m dat1 c (Pipeline.arrRef spec1 w) :=
  (W3_arr m dat1 c w).symm
theorem hrest1 (c : Dev nD) : ∀ b, b ∉ Finset.univ.image (Pipeline.arrRef spec1) → V3 m dat1 c b = V2 m c b :=
  fun b hb => W3_of_ne m dat1 c b fun w e => hb (Finset.mem_image.mpr ⟨w, Finset.mem_univ _, e⟩)

/-- After the closing host transpose: the end. -/
abbrev W4 : Dev nD → Valuation τ sig (Elt F) := fun c => StableHlo.after hostOps2 (W3 m dat1 c)

/-! ## What the host stretches write, and what an input window keeps -/

/-- The first host stretch allocates nothing, -/
theorem hostOps0_fresh : (hostOps0 : List (HloOp τ sig (Elt F))).Forall fun op => op.fresh = ∅ := by
  simp only [List.Forall]; repeat' constructor
/-- nor does the last. -/
theorem hostOps2_fresh : (hostOps2 : List (HloOp τ sig (Elt F))).Forall fun op => op.fresh = ∅ := by
  simp only [List.Forall]; repeat' constructor

/-- The buffers the first host stretch writes: one per operation, its result. -/
abbrev wr0 : List (Ref sig .tc) := [main_c, main_c_0, main_c_1, main_v0, main_cst, main_v1, main_v2, main_cst_2, main_v3, main_v4, main_v5, main_v6, main_cst_3, main_v7, main_v8, main_c_4, main_v9, main_v10, main_c_5, main_v11, main_v12, main_v13, main_v14, main_v15, main_v16, main_v17, main_cst_6, main_v18, main_v19, main_v20, main_cst_7, main_v21, main_v22, main_v23, main_v24]
theorem hostOps0_writes : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The last writes the transposed result only. -/
theorem hostOps2_writes : (hostOps2 : List (HloOp τ sig (Elt F))).Forall fun op => op.writes ⊆ (([main_v27] : List (Ref sig .tc)).map (Proc.devRef (τ := τ) .tc)).toFinset := by
  simp only [List.Forall, StableHlo.unary_writes, Finset.singleton_subset_iff, List.mem_toFinset]
  exact List.mem_map_of_mem (by decide)

/-- A buffer the first host stretch does not write is as launched after it. -/
theorem W1_keep (c : Dev nD) (r : Ref sig .tc) (h : r ∉ wr0) : W1 m c (Proc.devRef .tc r) = W0 m c (Proc.devRef .tc r) :=
  StableHlo.after_of_writes_sub hostOps0 _ hostOps0_writes h
/-- A buffer other than the transposed result is unchanged by the last host stretch. -/
theorem W4_keep (c : Dev nD) (r : Ref sig .tc) (h : r ∉ ([main_v27] : List (Ref sig .tc))) :
    W4 m dat1 c (Proc.devRef .tc r) = W3 m dat1 c (Proc.devRef .tc r) :=
  StableHlo.after_of_writes_sub hostOps2 _ hostOps2_writes h
/-- An input window's array leaves the first kernel as it entered: nothing is written back to it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Mlp.dat0 (V1 m) c).arrAt_in w hw _).trans (Mlp.A_eq0 (V1 m) c w))
/-- The same of the second kernel. -/
theorem W3_in (h1 : Region1Facts dat1) (c : Dev nD) (w : Fin cfg1.W) (hw : (cfg1.win w).isOut = false) :
    W3 m dat1 c (Proc.devRef .tc (Pipeline.arrRef spec1 w)) = W2 m c (Proc.devRef .tc (Pipeline.arrRef spec1 w)) :=
  (W3_arr m dat1 c w).trans (((dat1 (V2 m) c).arrAt_in w hw _).trans (h1.hA (V2 m) c w))

/-! ## Reading the end contents back

Every argument ends as launched: no host operation writes one, and a kernel either reads it through an input
window or does not touch it. -/

variable (h1 : Region1Facts dat1)
include h1
theorem W4_main_arg0 (c : Dev nD) : W4 m dat1 c (Proc.devRef .tc main_arg0) = m ((c : Thread nD τ).loc main_arg0) :=
  (W4_keep m dat1 c main_arg0 (by decide)).trans <| (W3_of_ne m dat1 c main_arg0 (by decide)).trans <| (W2_of_ne m c main_arg0 (by decide)).trans <| (W1_keep m c main_arg0 (by decide)).trans rfl
theorem W4_main_arg1 (c : Dev nD) : W4 m dat1 c (Proc.devRef .tc main_arg1) = m ((c : Thread nD τ).loc main_arg1) :=
  (W4_keep m dat1 c main_arg1 (by decide)).trans <| (W3_of_ne m dat1 c main_arg1 (by decide)).trans <| (W2_of_ne m c main_arg1 (by decide)).trans <| (W1_keep m c main_arg1 (by decide)).trans rfl
theorem W4_main_arg2 (c : Dev nD) : W4 m dat1 c (Proc.devRef .tc main_arg2) = m ((c : Thread nD τ).loc main_arg2) :=
  (W4_keep m dat1 c main_arg2 (by decide)).trans <| (W3_of_ne m dat1 c main_arg2 (by decide)).trans <| (W2_of_ne m c main_arg2 (by decide)).trans <| (W1_keep m c main_arg2 (by decide)).trans rfl
theorem W4_main_arg3 (c : Dev nD) : W4 m dat1 c (Proc.devRef .tc main_arg3) = m ((c : Thread nD τ).loc main_arg3) :=
  (W4_keep m dat1 c main_arg3 (by decide)).trans <| (W3_of_ne m dat1 c main_arg3 (by decide)).trans <| (W2_in m c 1 rfl).trans <| (W1_keep m c main_arg3 (by decide)).trans rfl
theorem W4_main_arg4 (c : Dev nD) : W4 m dat1 c (Proc.devRef .tc main_arg4) = m ((c : Thread nD τ).loc main_arg4) :=
  (W4_keep m dat1 c main_arg4 (by decide)).trans <| (W3_of_ne m dat1 c main_arg4 (by decide)).trans <| (W2_in m c 2 rfl).trans <| (W1_keep m c main_arg4 (by decide)).trans rfl
theorem W4_main_arg5 (c : Dev nD) : W4 m dat1 c (Proc.devRef .tc main_arg5) = m ((c : Thread nD τ).loc main_arg5) :=
  (W4_keep m dat1 c main_arg5 (by decide)).trans <| (W3_of_ne m dat1 c main_arg5 (by decide)).trans <| (W2_in m c 3 rfl).trans <| (W1_keep m c main_arg5 (by decide)).trans rfl
theorem W4_main_arg6 (c : Dev nD) : W4 m dat1 c (Proc.devRef .tc main_arg6) = m ((c : Thread nD τ).loc main_arg6) :=
  (W4_keep m dat1 c main_arg6 (by decide)).trans <| (W3_of_ne m dat1 c main_arg6 (by decide)).trans <| (W2_in m c 4 rfl).trans <| (W1_keep m c main_arg6 (by decide)).trans rfl
theorem W4_main_arg7 (c : Dev nD) : W4 m dat1 c (Proc.devRef .tc main_arg7) = m ((c : Thread nD τ).loc main_arg7) :=
  (W4_keep m dat1 c main_arg7 (by decide)).trans <| (W3_of_ne m dat1 c main_arg7 (by decide)).trans <| (W2_in m c 5 rfl).trans <| (W1_keep m c main_arg7 (by decide)).trans rfl
theorem W4_main_arg8 (c : Dev nD) : W4 m dat1 c (Proc.devRef .tc main_arg8) = m ((c : Thread nD τ).loc main_arg8) :=
  (W4_keep m dat1 c main_arg8 (by decide)).trans <| (W3_of_ne m dat1 c main_arg8 (by decide)).trans <| (W2_in m c 6 rfl).trans <| (W1_keep m c main_arg8 (by decide)).trans rfl
theorem W4_main_arg9 (c : Dev nD) : W4 m dat1 c (Proc.devRef .tc main_arg9) = m ((c : Thread nD τ).loc main_arg9) :=
  (W4_keep m dat1 c main_arg9 (by decide)).trans <| (W3_in m dat1 h1 c 3 rfl).trans <| (W2_of_ne m c main_arg9 (by decide)).trans <| (W1_keep m c main_arg9 (by decide)).trans rfl
theorem W4_main_arg10 (c : Dev nD) : W4 m dat1 c (Proc.devRef .tc main_arg10) = m ((c : Thread nD τ).loc main_arg10) :=
  (W4_keep m dat1 c main_arg10 (by decide)).trans <| (W3_in m dat1 h1 c 4 rfl).trans <| (W2_of_ne m c main_arg10 (by decide)).trans <| (W1_keep m c main_arg10 (by decide)).trans rfl
theorem W4_main_arg11 (c : Dev nD) : W4 m dat1 c (Proc.devRef .tc main_arg11) = m ((c : Thread nD τ).loc main_arg11) :=
  (W4_keep m dat1 c main_arg11 (by decide)).trans <| (W3_in m dat1 h1 c 5 rfl).trans <| (W2_of_ne m c main_arg11 (by decide)).trans <| (W1_keep m c main_arg11 (by decide)).trans rfl
theorem W4_main_arg12 (c : Dev nD) : W4 m dat1 c (Proc.devRef .tc main_arg12) = m ((c : Thread nD τ).loc main_arg12) :=
  (W4_keep m dat1 c main_arg12 (by decide)).trans <| (W3_in m dat1 h1 c 6 rfl).trans <| (W2_of_ne m c main_arg12 (by decide)).trans <| (W1_keep m c main_arg12 (by decide)).trans rfl
theorem W4_main_arg13 (c : Dev nD) : W4 m dat1 c (Proc.devRef .tc main_arg13) = m ((c : Thread nD τ).loc main_arg13) :=
  (W4_keep m dat1 c main_arg13 (by decide)).trans <| (W3_of_ne m dat1 c main_arg13 (by decide)).trans <| (W2_of_ne m c main_arg13 (by decide)).trans <| (W1_keep m c main_arg13 (by decide)).trans rfl
omit h1

/-- The program's result is the transpose of what the second kernel leaves in its output array, -/
theorem W4_main_v27 (c : Dev nD) :
    W4 m dat1 c (Proc.devRef .tc main_v27) = transpose S4096x16 [1, 0] (W3 m dat1 c (Proc.devRef .tc main_v26)) transposes_S16x4096_S4096x16_1_0 :=
  by
  show StableHlo.after hostOps2 (W3 m dat1 c) (Proc.devRef .tc main_v27) = _
  after_results
/-- which is the fold of that kernel's write-backs over all its grid points. -/
theorem W3_main_v26 (c : Dev nD) : W3 m dat1 c (Proc.devRef .tc main_v26) = (dat1 (V2 m) c).arrAt 7 cfg1.N :=
  W3_arr m dat1 c 7
/-- The second kernel is entered with the first kernel's two outputs as the first left them, -/
theorem V2_main_v25_1 (c : Dev nD) : V2 m c main_v25_1 = (Mlp.dat0 (V1 m) c).arrAt 8 cfg0.N := W2_arr m c 8
theorem V2_main_v25_0 (c : Dev nD) : V2 m c main_v25_0 = (Mlp.dat0 (V1 m) c).arrAt 7 cfg0.N := W2_arr m c 7
/-- and with the adjacency and its own weights as the first kernel was. -/
theorem V2_main_v24 (c : Dev nD) : V2 m c main_v24 = V1 m c main_v24 := W2_of_ne m c main_v24 (by decide)
theorem V2_main_arg9 (c : Dev nD) : V2 m c main_arg9 = V1 m c main_arg9 := W2_of_ne m c main_arg9 (by decide)
theorem V2_main_arg10 (c : Dev nD) : V2 m c main_arg10 = V1 m c main_arg10 := W2_of_ne m c main_arg10 (by decide)
theorem V2_main_arg11 (c : Dev nD) : V2 m c main_arg11 = V1 m c main_arg11 := W2_of_ne m c main_arg11 (by decide)
theorem V2_main_arg12 (c : Dev nD) : V2 m c main_arg12 = V1 m c main_arg12 := W2_of_ne m c main_arg12 (by decide)

/-! ## The proof data and what rides beside the buffers -/

/-- Neither kernel has a prefetched table. -/
abbrev adm : (p : Fin 2) → (pcfgs (F := F) p).Adm := fun p => (cfgs p).toPCfg_adm
/-- Both kernels' proof data, each at the contents its kernel is entered with. -/
def pdats : (p : Fin 2) → (c : Dev nD) → Dat τ (Elt F) Unit ℕ (UR sig nD τ) ℕ (Pipeline.pin (pcfgs (F := F)) adm p) c
  | ⟨0, _⟩ => fun c => Mlp.dat0 (V1 m) c
  | ⟨1, _⟩ => fun c => dat1 (V2 m) c
abbrev 𝒱₀ : Variants := Variants.none
/-- No core waits on another. -/
abbrev L : GSem nD τ sig → Finset Unit := fun _ => ∅
abbrev lv : GSem nD τ sig → Unit → ℕ := fun _ _ => 0
/-- Beside the buffers, through every stretch: the core's generator register at some state, and the core owing
    nothing. -/
abbrev R (c : Dev nD) : sProp 𝕄 := iprop((∃ r, prngReg c r) ∗ ∃ W, owes (c : Thread nD τ) (0 : CellTallies nD τ sig Unit) W)
/-- A host stretch as a segment of the run: from every unscoped buffer at `W` to every unscoped buffer at `W` after
    the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The end state without the core's debts: every unscoped buffer at the end contents, the generator register. -/
abbrev Tₙ (c : Dev nD) : sProp 𝕄 := iprop(StableHlo.held (c : Thread nD τ) (Pipeline.ucRefs τ sig) (W4 m dat1 c) ∗ ∃ r, prngReg c r)

/-! ## The two kernels as segments -/

-- the library states its entry and exit lemmas over a configuration picked out of the family by index; matching them
-- with the printed configuration needs definitions unfolded inside types
set_option backward.isDefEq.respectTransparency.types false in
/-- The first kernel: entered from every unscoped buffer at `W1`, left at `W2`. Its arrays are split out of the
    unscoped buffers on entry and put back at their exit contents; the generator register goes into the invariant
    and comes back; nothing is owed. -/
def reg0 : Pipeline.RegionSeg (pcfgs (F := F)) adm (pdats m dat1) () defs₀ 𝒱₀ L lv 0 where
  win := launch0.win.to₀
  block_pos := launch0.block_pos
  stage_whole := launch0.stage_whole
  K := PEmpty
  osem k := k.elim
  ho := Pipeline.OwnSemFacts.none _
  hbody c := (Mlp.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m dat1) launch0.win launch0.arr_whole c
      ((pdats m dat1 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m dat1) ((pdats m dat1 0 c).share_full fun _ => rfl)
      (V1 m c) (V2 m c) ((pdats m dat1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as for the first kernel's record
set_option backward.isDefEq.respectTransparency.types false in
/-- The second kernel: entered from every unscoped buffer at `W2`, left at `W3`, in the same way; what the first
    kernel's record takes from its data by computation, this one takes from `Region1Facts`. -/
def reg1 (h1 : Region1Facts dat1) : Pipeline.RegionSeg (pcfgs (F := F)) adm (pdats m dat1) () defs₀ 𝒱₀ L lv 1 where
  win := launch1.win.to₀
  block_pos := launch1.block_pos
  stage_whole := launch1.stage_whole
  K := PEmpty
  osem k := k.elim
  ho := Pipeline.OwnSemFacts.none _
  hbody c := (h1.hbody (V2 m) c).loose
  hwaits := Pipeline.hwaits_of_owed_zero _ _ _ _ L lv 1 fun c t => h1.hO (V2 m) c t
  pre c := iprop(StableHlo.held (c : Thread nD τ) (Pipeline.ucRefs τ sig) (W2 m c) ∗ R c)
  post c := iprop(StableHlo.held (c : Thread nD τ) (Pipeline.ucRefs τ sig) (W3 m dat1 c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m dat1) launch1.win launch1.arr_whole c
      ((pdats m dat1 1 c).share_full fun w => h1.hq (V2 m) c w) (V2 m c) fun w => h1.hA (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat1 1 c).owed 0 = 0 from h1.hO (V2 m) c 0]
      icases HO with ⟨%W, HO⟩; iexists W; isplitr
      · ipureintro; intro x _
        exact Or.inl (by rw [show (pdats m dat1 1 c).recorded 0 = Set.univ from h1.hrec (V2 m) c]; trivial)
      iexact HO
    isplitl [Hp]; · iexact Hp
    iexact Hrest
  hin c := by
    refine BIBase.Entails.trans ?_ (h1.hin (V2 m) c)
    unfold Pipeline.ΦA
    iintro ⟨Hp, -, Hr⟩
    isplitl [Hr]; · iexact Hr
    iexact Hp
  hout c := by
    refine BIBase.Entails.trans (h1.hout (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m dat1) ((pdats m dat1 1 c).share_full fun w => h1.hq (V2 m) c w)
      (V2 m c) (V3 m dat1 c) ((pdats m dat1 1 c).arrAt · cfg1.N) (hF1 m dat1 c) (hrest1 m dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat1 1 c).owed (Fin.last _) = 0 from h1.hO (V2 m) c _]
    icases HO with ⟨%W, -, HO⟩; iexists W; iexact HO

/-! ## The program as its four segments, and the run -/

/-- Host stretch, kernel, kernel, host stretch, each host stretch from its boundary's contents. -/
abbrev segs (h1 : Region1Facts dat1) : List (Pipeline.Seg (pcfgs (F := F)) adm (pdats m dat1) () defs₀ 𝒱₀ L lv) :=
  [ .host (hseg hostOps0 hostOps0_sub hostOps0_fresh (W0 m)),
    .region (reg0 m dat1),
    .region (reg1 m dat1 h1),
    .host (hseg hostOps2 hostOps2_sub hostOps2_fresh (W3 m dat1)) ]
/-- The last stretch's end state regrouped: the buffers and the generator register on one side, the core's debts
    (none) on the other. -/
theorem last_link (c : Dev nD) :
    iprop(StableHlo.held (c : Thread nD τ) (Pipeline.ucRefs τ sig) (W4 m dat1 c) ∗ R (F := F) c)
      ⊢ iprop(Tₙ m dat1 c ∗ ∃ W, owes (c : Thread nD τ) (0 : CellTallies nD τ sig Unit) W) := by
  iintro ⟨Hh, Hp, HO⟩
  isplitr [HO]
  · isplitl [Hh]; · iexact Hh
    iexact Hp
  iexact HO
/-- The program is the run of these segments. -/
theorem main_run (h1 : Region1Facts dat1) (c : Dev nD) : main (F := F) c = Pipeline.Seg.run (segs m dat1 h1) :=
  (main_chain c).trans (by chain_rfl)

-- the run theorem's implicit arguments are found by matching its conclusion with this one, which again needs
-- definitions unfolded inside types
set_option backward.isDefEq.respectTransparency.types false in
/-- From any launch memory `m` with every semaphore at zero, every weakly fair execution of the program terminates
    without fault, and in every final state each unscoped buffer of each core holds `W4` of the launch memory. -/
theorem run_of (h1 : Region1Facts dat1) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m dat1 c b) :=
  Pipeline.θ_run_regions_kit (pcfgs (F := F)) adm (pdats m dat1) () cellOf_inj emb₁ defs₀ 𝒱₀ L lv m ρ main (segs m dat1 h1)
    (fun c Q => by rw [main_run m dat1 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat1)
    (hch := ⟨fun _ => .rfl, fun _ => .rfl, fun _ => .rfl, fun _ => .rfl, fun c => last_link m dat1 c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m dat1 c) s')
      isplitl [Hh] <;> iassumption)
    (hQ := fun s h => h)

/-- In particular the program's result buffer ends at the transpose of the fold of the second kernel's write-backs,
    that kernel having been entered with `V2`. -/
theorem run_result_of (h1 : Region1Facts dat1) (ρ : Dev nD → PrngReg) :
    θ_run defs (onTc (τ := τ) (main (F := F))) ⟨m, fun _ => 0, ρ⟩ (fun r => ∀ c : Dev nD,
      r.2.mem ((c : Thread nD τ).loc main_v27)
        = transpose S4096x16 [1, 0] ((dat1 (V2 m) c).arrAt 7 cfg1.N) transposes_S16x4096_S4096x16_1_0) :=
  (θ_run defs _ _).mono (fun r h c =>
    (h c _ (mem_uc main_v27 (by decide))).trans ((W4_main_v27 m dat1 c).trans (by rw [W3_main_v26]))) (run_of m dat1 h1 ρ)

end Cert.ReferenceIdeal.RefRun

end
-- ==== Proof.RefAggRuns.lean ====
/-
  The aggregation region of the reference (its second kernel, grid 8 x 8, point t = 8 i + j): what the case runs and
  the region's proof data share. The body adds, at every point, the product of the message block j and the adjacency
  block (j, i) to a carried accumulator, which it first clears when j = 0, and when j = 7 applies the two-layer
  update and the residual to it and stores the result into output block i. Everything is stated at a parameter V:
  the contents of the core's buffers when the region is entered.
-/
import proofs.«145942_g2000600855469178_pallasbulk_547_29_alg».proof.Proof.Gen.ReferenceIdeal.Launch
import proofs.«145942_g2000600855469178_pallasbulk_547_29_alg».proof.Proof.Gen.ReferenceIdeal.Skeleton
import proofs.«145942_g2000600855469178_pallasbulk_547_29_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Agg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is V's and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is V's and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is V's and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is V's and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is V's and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- j = 0: the accumulator is cleared first. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- j = 7: the output block is computed and stored. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
/-- Away from j = 7 nothing is stored into the output window and its block is not written back. -/
theorem idle1_7 : ∀ t : Fin cfg1.N, ¬isLast (grid1.coords t) → cfg1.idle 7 (grid1.coords t) = true := by decide +kernel
theorem noFlush1_7 : ∀ t : Fin cfg1.N, ¬isLast (grid1.coords t) → (cfg1.win 7).flush t = false := by decide +kernel
/-- At j = 7 the output window is live. -/
theorem live1_7 : ∀ t : Fin cfg1.N, isLast (grid1.coords t) → cfg1.idle 7 (grid1.coords t) = false := by decide +kernel

/-! ## The memrefs the body is called with -/

/-- One staging buffer of the output window, through which its contents are stated. -/
abbrev VO1 : View sig .tc .vmem S16x512 .f32 := (Memref.whole cc1_stg7_0 : Memref sig .tc .vmem S16x512 .f32).view
abbrev ms1_0 (t : Fin cfg1.N) : Memref sig .tc .vmem S16x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S16x512 .f32 := win1_7.stage (cfg1.slots t 7)
abbrev hs1_7 (t : Fin cfg1.N) : (ms1_7 t).IsWhole := hstage1_7 ((cfg1.slots t 7).cast nbuf1_7)
/-- The accumulator: a whole scoped buffer of the kernel's own, carried from point to point. -/
abbrev scM1 : Memref sig .tc .vmem S16x512 .f32 := Memref.whole cc1_scratch0
abbrev VS1 : View sig .tc .vmem S16x512 .f32 := scM1.view

theorem hz2 : (![0, 0] : Fin 2 → Nat) = fun _ => 0 := funext fun a => by fin_cases a <;> rfl

/-! ## The region invariant, opened at the accumulator -/

/-- The staging buffers of the other kernel, at anything: carried along unopened. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The class invariant hands out the accumulator at some contents, -/
theorem PhiA1_open (c : Dev nD) :
    (Pipeline.ΦA spec1 c : sProp 𝕄) ⊢ iprop(stgRest (F := F) c ∗ (∃ d, owns (c : Thread nD τ) scM1 fullShare d) ∗ (∃ r, prngReg c r)) := by
  unfold Pipeline.ΦA stgRest; rw [scopedRest1_eq]; simp only [scM1, owns_whole]
  iintro ⟨⟨R0, R1, R2, R3, R4, R5, R6, R7, R8, R9, R10, R11, HS⟩, Hg⟩
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HS]; · iexact HS
  iexact Hg

/-- and takes it back at any. -/
theorem PhiA1_close (c : Dev nD) :
    iprop(stgRest (F := F) c ∗ (∃ d, owns (c : Thread nD τ) scM1 fullShare d) ∗ (∃ r, prngReg c r)) ⊢ (Pipeline.ΦA spec1 c : sProp 𝕄) := by
  unfold Pipeline.ΦA stgRest; rw [scopedRest1_eq]; simp only [scM1, owns_whole]
  iintro ⟨⟨R0, R1, R2, R3, R4, R5, R6, R7, R8, R9, R10, R11⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

end Cert.ReferenceIdeal.Agg

end
-- ==== Proof.RefAggFirst.lean ====
/-
  The aggregation body at a point with j = 0 (and j ≠ 7): the accumulator, found at anything, is cleared, then the
  product of the two input blocks is added to it; the output window is handed back untouched.
-/
import proofs.«145942_g2000600855469178_pallasbulk_547_29_alg».proof.Proof.RefAggRuns

set_option maxRecDepth 16384

noncomputable section

namespace Cert.ReferenceIdeal.Agg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the stores leave in the accumulator (last first), with the proof that the body, on whole staging memrefs
    holding the inputs' blocks, the output's buffer at any contents xi7 and the accumulator at anything, runs to a
    continuation that holds the inputs and the output's buffer as they were and the accumulator with those pieces
    written. -/
noncomputable def runFirst (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : isFirst i) (hc1 : ¬isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) :
    { LS : List (View.Piece (Elt F) S16x512 .f32) //
      ∀ (xi7 : Vec F S16x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1_aggregate_kernel i arg2 harg2 arg3 harg3 arg4 harg4 arg5 harg5 arg6 harg6 arg7 harg7 arg8 harg8 arg9 harg9 arg10 harg10) K } := by
  refine ⟨?_, fun xi7 E K => ?run⟩
  case run =>
    simp only [cc1_aggregate_kernel_eq_skeleton]; unfold cc1_aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.ReferenceIdeal.Agg

end
-- ==== Proof.RefAggMid.lean ====
/-
  The aggregation body at a point with 0 < j < 7: the product of the two input blocks is added to the accumulator the
  point before left; the output window is handed back untouched.
-/
import proofs.«145942_g2000600855469178_pallasbulk_547_29_alg».proof.Proof.RefAggFirst

set_option maxRecDepth 16384

noncomputable section

namespace Cert.ReferenceIdeal.Agg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As runFirst, the accumulator found at the contents xs. -/
noncomputable def runMid (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : ¬isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) :
    { LS : List (View.Piece (Elt F) S16x512 .f32) //
      ∀ (xi7 : Vec F S16x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1_aggregate_kernel i arg2 harg2 arg3 harg3 arg4 harg4 arg5 harg5 arg6 harg6 arg7 harg7 arg8 harg8 arg9 harg9 arg10 harg10) K } := by
  refine ⟨?_, fun xi7 E K => ?run⟩
  case run =>
    simp only [cc1_aggregate_kernel_eq_skeleton]; unfold cc1_aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.ReferenceIdeal.Agg

end
-- ==== Proof.RefAggLast.lean ====
/-
  The aggregation body at a point with j = 7: the last product is added to the accumulator, and the two-layer update of
  the sum plus the residual block is stored into the output window.
-/
import proofs.«145942_g2000600855469178_pallasbulk_547_29_alg».proof.Proof.RefAggMid

set_option maxRecDepth 16384

noncomputable section

namespace Cert.ReferenceIdeal.Agg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the stores leave in the output's buffer and in the accumulator, with the proof that the body runs to a
    continuation holding the inputs as they were and both with their pieces written. -/
noncomputable def runLast (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) :
    Σ' (L7 : List (View.Piece (Elt F) S16x512 .f32)), { LS : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1_aggregate_kernel i arg2 harg2 arg3 harg3 arg4 harg4 arg5 harg5 arg6 harg6 arg7 harg7 arg8 harg8 arg9 harg9 arg10 harg10) K } := by
  refine ⟨?_, ?_, fun E K => ?run⟩
  case run =>
    simp only [cc1_aggregate_kernel_eq_skeleton]; unfold cc1_aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.ReferenceIdeal.Agg

end
-- ==== Proof.RefAggVals.lean ====
/-
  What the case runs' stores leave, as values: each case's pieces cover the buffer they are written into, and read
  back they are the body's arithmetic on the blocks — the accumulator ends at (cleared or found) + message · adjacency,
  the output at the update of that sum plus the residual.
-/
import proofs.«145942_g2000600855469178_pallasbulk_547_29_alg».proof.Proof.RefAggLast
import Idealize.ShloMosaic.Lib.Pipeline.Value

set_option maxRecDepth 16384

noncomputable section

namespace Cert.ReferenceIdeal.Agg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces cover -/

theorem scoverFirst (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : isFirst i) (hc1 : ¬isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (y : S16x512.Idx) :
    ∃ pc ∈ (runFirst c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5 x6).1 S16x512.size (by sl_kernel_rfl) y

theorem scoverMid (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : ¬isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) (y : S16x512.Idx) :
    ∃ pc ∈ (runMid c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 x6 xs).1 S16x512.size (by sl_kernel_rfl) y

theorem scoverLast (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) (y : S16x512.Idx) :
    ∃ pc ∈ (runLast c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 x6 xs).2.1 S16x512.size (by sl_kernel_rfl) y

theorem ocoverLast (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) (y : S16x512.Idx) :
    ∃ pc ∈ (runLast c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 x6 xs).1 S16x512.size (by sl_kernel_rfl) y

/-! ## Their values -/

/-- j = 0: the accumulator ends at 0 + message · adjacency (the clearing store read back, then the sum stored). -/
theorem canonFirst (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : isFirst i) (hc1 : ¬isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) :
    View.canon (runFirst c i arg2 harg2 arg3 harg3 arg4 harg4 arg5 harg5 arg6 harg6 arg7 harg7 arg8 harg8 arg9 harg9 arg10 harg10 hc0 hc1 x0 x1 x2 x3 x4 x5 x6).1 = k1_pay2 (k1_pay1 (F := F)) x0 x1 := by
  unfold runFirst
  dsimp only
  sl_unfold_words
  refine (View.canon_cons_unit_zero (S := S16x512) hz2 _ _ _).trans ?_
  rw [View.readCov_unit_zero (S := S16x512) _ hz2]
  simp only [View.readAt_eq_ld, harg2.read_unread, harg3.read_unread, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

/-- 0 < j < 7: the accumulator ends at what it held + message · adjacency. -/
theorem canonMid (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : ¬isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) :
    View.canon (runMid c i arg2 harg2 arg3 harg3 arg4 harg4 arg5 harg5 arg6 harg6 arg7 harg7 arg8 harg8 arg9 harg9 arg10 harg10 hc0 hc1 x0 x1 x2 x3 x4 x5 x6 xs).1 = k1_pay2 xs x0 x1 := by
  unfold runMid
  dsimp only
  sl_unfold_words
  refine (View.canon_unit_zero (S := S16x512) hz2 _ _).trans ?_
  simp only [View.readAt_eq_ld, harg10.read_unread, harg2.read_unread, harg3.read_unread, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

/-- j = 7: the accumulator likewise, -/
theorem canonLastS (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) :
    View.canon (runLast c i arg2 harg2 arg3 harg3 arg4 harg4 arg5 harg5 arg6 harg6 arg7 harg7 arg8 harg8 arg9 harg9 arg10 harg10 hc0 hc1 x0 x1 x2 x3 x4 x5 x6 xs).2.1 = k1_pay2 xs x0 x1 := by
  unfold runLast
  dsimp only
  sl_unfold_words
  refine (View.canon_unit_zero (S := S16x512) hz2 _ _).trans ?_
  simp only [View.readAt_eq_ld, harg10.read_unread, harg2.read_unread, harg3.read_unread, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

/-- and the output block is the update of that sum plus the residual block. -/
theorem canonLastO (c : Dev nD) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole) (hc0 : ¬isFirst i) (hc1 : isLast i)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) :
    View.canon (runLast c i arg2 harg2 arg3 harg3 arg4 harg4 arg5 harg5 arg6 harg6 arg7 harg7 arg8 harg8 arg9 harg9 arg10 harg10 hc0 hc1 x0 x1 x2 x3 x4 x5 x6 xs).1 = k1_pay3 (k1_pay2 xs x0 x1) x3 x4 x5 x6 x2 := by
  unfold runLast
  dsimp only
  sl_unfold_words
  refine (View.canon_unit_zero (S := S16x512) hz2 _ _).trans ?_
  rw [View.readCov_unit_zero (S := S16x512) _ hz2]
  simp only [View.readAt_eq_ld, harg10.read_unread, harg2.read_unread, harg3.read_unread, harg4.read_unread, harg5.read_unread, harg6.read_unread, harg7.read_unread, harg8.read_unread, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

end Cert.ReferenceIdeal.Agg

end
-- ==== Proof.RefAggRegion.lean ====
/-
  The aggregation region's proof data and its body obligation, at a parameter V (the buffers' contents when the
  region is entered). The accumulator after point t = 8 i + j is the sum over the source tiles 0..j of
  message block · adjacency block (j', i), started from zero at j = 0; at j = 7 the output's staging buffer holds the
  two-layer update of that sum plus residual block i, and the pipeline writes it back as output block i.
-/
import proofs.«145942_g2000600855469178_pallasbulk_547_29_alg».proof.Proof.RefAggVals

set_option maxRecDepth 16384

noncomputable section

namespace Cert.ReferenceIdeal.Agg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator and the output's buffer hold after each point -/

/-- The accumulator after point n: cleared at the points ≡ 0 (mod 8), then the product of the point's two blocks added. -/
def sAt (c : Dev nD) : (n : ℕ) → n < cfg1.N → Vec F S16x512 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (sAt c n (Nat.lt_of_succ_lt hn)) (iblk1 V c 0 ⟨n + 1, hn⟩) (iblk1 V c 1 ⟨n + 1, hn⟩)

/-- After point n: (the update of the accumulator plus the residual block — what the output's staging buffer holds when
    n ≡ 7 (mod 8), the points at which it is stored and written back; elsewhere a name nothing consults —, the accumulator). -/
def accAt (c : Dev nD) (n : ℕ) (hn : n < cfg1.N) : Vec F S16x512 .f32 × Vec F S16x512 .f32 :=
  (k1_pay3 (sAt V c n hn) (iblk1 V c 3 ⟨n, hn⟩) (iblk1 V c 4 ⟨n, hn⟩) (iblk1 V c 5 ⟨n, hn⟩) (iblk1 V c 6 ⟨n, hn⟩) (iblk1 V c 2 ⟨n, hn⟩), sAt V c n hn)

/-- At j = 0 the accumulator restarts from zero. -/
theorem accAt_first (c : Dev nD) (t : Fin cfg1.N) (h : t.val % 8 = 0) :
    (accAt V c t.val t.isLt).2 = k1_pay2 (k1_pay1 (F := F)) (iblk1 V c 0 t) (iblk1 V c 1 t) := by
  obtain ⟨n, hn⟩ := t
  cases n with
  | zero => rfl
  | succ n => exact if_pos h

/-- At j ≠ 0 it adds to what the point before left. -/
theorem accAt_step (c : Dev nD) (t : Fin cfg1.N) (h : t.val % 8 ≠ 0) :
    (accAt V c t.val t.isLt).2 = k1_pay2 (accAt V c (t.val - 1) (Nat.lt_of_le_of_lt (Nat.sub_le _ _) t.isLt)).2 (iblk1 V c 0 t) (iblk1 V c 1 t) := by
  obtain ⟨n, hn⟩ := t
  cases n with
  | zero => exact absurd (Nat.zero_mod _) h
  | succ n => exact if_neg h

/-- The output's component is the update of the accumulator's plus the residual block (at every point; it is what the
    buffer holds at j = 7). -/
theorem accAt_out (c : Dev nD) (t : Fin cfg1.N) :
    (accAt V c t.val t.isLt).1 = k1_pay3 (accAt V c t.val t.isLt).2 (iblk1 V c 3 t) (iblk1 V c 4 t) (iblk1 V c 5 t) (iblk1 V c 6 t) (iblk1 V c 2 t) := rfl

/-- In particular at j = 7, where the buffer is stored and written back. -/
theorem accAt_last (c : Dev nD) (t : Fin cfg1.N) (_h : t.val % 8 = 7) :
    (accAt V c t.val t.isLt).1 = k1_pay3 (accAt V c t.val t.isLt).2 (iblk1 V c 3 t) (iblk1 V c 4 t) (iblk1 V c 5 t) (iblk1 V c 6 t) (iblk1 V c 2 t) := rfl

/-! ## The invariant: the accumulator at what the point before left -/

def PhiS (c : Dev nD) : (n : ℕ) → n ≤ cfg1.N → sProp 𝕄
  | 0, _ => Pipeline.ΦA spec1 c
  | n + 1, hn => iprop(stgRest (F := F) c ∗ owns (c : Thread nD τ) scM1 fullShare ((accAt V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(stgRest (F := F) c ∗ owns (c : Thread nD τ) scM1 fullShare ((accAt V c n hn).2) ∗ (∃ r, prngReg c r)) := rfl

theorem PhiS_pos (c : Dev nD) (n : ℕ) (h : n ≤ cfg1.N) (hz : n ≠ 0) :
    PhiS V c n h = iprop(stgRest (F := F) c ∗ owns (c : Thread nD τ) scM1 fullShare ((accAt V c (n - 1) (by omega)).2) ∗ (∃ r, prngReg c r)) := by
  cases n with
  | zero => exact absurd rfl hz
  | succ n => rfl

/-! ## The proof data -/

/-- The region's proof data on core c: the arrays as the region finds them; after the body at point t each input's
    buffer at its block and the output's at accAt's first component; the invariant PhiS; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (accAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (accAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' buffers hold their blocks; the closed forms say which case the point is in; the
    case's run applies, the invariant handing it the accumulator at what the point before left (at anything at the first
    point) and taking it back at this point's sum; away from j = 7 the output's buffer goes back untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  rw [show (dat1 V c).leavesExact 6 t = owns (c : Thread nD τ) (ms1_6 t) fullShare ((dat1 V c).after 6 t) from by
    unfold Dat.leavesExact; rw [live1_6 t], after1_6]
  by_cases h0 : t.val % 8 = 0
  · by_cases h1 : t.val % 8 = 7
    · exfalso; omega
    · rw [Dat.leavesExact_idle (dat1 V c) 7 t (idle1_7 t (fun h => h1 ((isLast_iff t).mp h))) (noFlush1_7 t (fun h => h1 ((isLast_iff t).mp h)))]
      rw [accAt_first V c t h0]
      by_cases hz : t.val = 0
      · rw [PhiS_castSucc V c t, PhiS_zero V c _ _ hz]
        refine (sep_mono (PhiA1_open c) .rfl).trans ?_
        iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runFirst c (grid1.coords t) _ _ _ _ _ _ _ _ _ _ _ _ _ _ _ _ _ _ ((isFirst_iff t).mpr h0) (fun h => h1 ((isLast_iff t).mp h)) (iblk1 V c 0 t) (iblk1 V c 1 t) (iblk1 V c 2 t) (iblk1 V c 3 t) (iblk1 V c 4 t) (iblk1 V c 5 t) (iblk1 V c 6 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HR HS Hg]
        · isplitl [HR]; · iexact HR
          isplitl [HS]
          · unfold owns; iexists _; isplitr
            swap; · iexact HS
            ipureintro; exact (View.read_writes_eq_canon _ _ _ (scoverFirst c _ _ _ _ _ _ _ _ _ _ _ _ _ _ _ _ _ _ _ _ _ _ _ _ _ _ _ _)).trans (canonFirst c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc V c t, PhiS_pos V c _ _ hz]
        iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runFirst c (grid1.coords t) _ _ _ _ _ _ _ _ _ _ _ _ _ _ _ _ _ _ ((isFirst_iff t).mpr h0) (fun h => h1 ((isLast_iff t).mp h)) (iblk1 V c 0 t) (iblk1 V c 1 t) (iblk1 V c 2 t) (iblk1 V c 3 t) (iblk1 V c 4 t) (iblk1 V c 5 t) (iblk1 V c 6 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HR HS Hg]
        · isplitl [HR]; · iexact HR
          isplitl [HS]
          · unfold owns; iexists _; isplitr
            swap; · iexact HS
            ipureintro; exact (View.read_writes_eq_canon _ _ _ (scoverFirst c _ _ _ _ _ _ _ _ _ _ _ _ _ _ _ _ _ _ _ _ _ _ _ _ _ _ _ _)).trans (canonFirst c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun hz => h0 (by rw [hz])
    rw [PhiS_castSucc V c t, PhiS_pos V c _ _ hz]
    by_cases h1 : t.val % 8 = 7
    · rw [show (dat1 V c).leavesExact 7 t = owns (c : Thread nD τ) (ms1_7 t) fullShare ((dat1 V c).after 7 t) from by
        unfold Dat.leavesExact; rw [live1_7 t ((isLast_iff t).mpr h1)], after1_7, accAt_out V c t]
      rw [accAt_step V c t h0]
      iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ (fun h => h0 ((isFirst_iff t).mp h)) ((isLast_iff t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HR HS Hg]
      · isplitl [HR]; · iexact HR
        isplitl [HS]
        · unfold owns; iexists _; isplitr
          swap; · iexact HS
          ipureintro; exact (View.read_writes_eq_canon _ _ _ (scoverLast c _ _ _ _ _ _ _ _ _ _ _ _ _ _ _ _ _ _ _ _ _ _ _ _ _ _ _ _ _)).trans (canonLastS c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact (View.read_writes_eq_canon _ _ _ (ocoverLast c _ _ _ _ _ _ _ _ _ _ _ _ _ _ _ _ _ _ _ _ _ _ _ _ _ _ _ _ _)).trans (canonLastO c _ _ _ _ _ _ _ _ _ _ _ _ _ _ _ _ _ _ _ _ _ _ _ _ _ _ _ _ _)
    · rw [Dat.leavesExact_idle (dat1 V c) 7 t (idle1_7 t (fun h => h1 ((isLast_iff t).mp h))) (noFlush1_7 t (fun h => h1 ((isLast_iff t).mp h)))]
      rw [accAt_step V c t h0]
      iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ (fun h => h0 ((isFirst_iff t).mp h)) (fun h => h1 ((isLast_iff t).mp h)) (iblk1 V c 0 t) (iblk1 V c 1 t) (iblk1 V c 2 t) (iblk1 V c 3 t) (iblk1 V c 4 t) (iblk1 V c 5 t) (iblk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HR HS Hg]
      · isplitl [HR]; · iexact HR
        isplitl [HS]
        · unfold owns; iexists _; isplitr
          swap; · iexact HS
          ipureintro; exact (View.read_writes_eq_canon _ _ _ (scoverMid c _ _ _ _ _ _ _ _ _ _ _ _ _ _ _ _ _ _ _ _ _ _ _ _ _ _ _ _ _)).trans (canonMid c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_close c)
  iintro ⟨HR, HS, Hg⟩
  isplitl [HR]; · iexact HR
  isplitl [HS]; · iexists _; iexact HS
  iexact Hg

theorem hout1 (c : Dev nD) : (dat1 V c).Φ (Fin.last cfg1.N) ⊢ Pipeline.ΦA spec1 c :=
  Phi_out1 V c _ (by rw [Fin.val_last]; have : cfg1.N = 64 := N_1; omega)

/-! ## What is written back -/

/-- The block the pipeline writes back at point t (it does at the points ≡ 7 (mod 8): Gen.flush1_7) is the update of the
    accumulated sum plus the residual block, cut to the part of the array the block covers. -/
theorem flushed1_7 (c : Dev nD) (t : Fin cfg1.N) :
    (dat1 V c).flushed 7 t = (cfg1.win 7).cut (grid1.coords t) (k1_pay3 (accAt V c t.val t.isLt).2 (iblk1 V c 3 t) (iblk1 V c 4 t) (iblk1 V c 5 t) (iblk1 V c 6 t) (iblk1 V c 2 t)) := by
  show (cfg1.win 7).cut (grid1.coords t) ((dat1 V c).after 7 t) = _
  rw [after1_7, accAt_out]

end Cert.ReferenceIdeal.Agg

end
-- ==== Proof.RefRunInst.lean ====
import proofs.«145942_g2000600855469178_pallasbulk_547_29_alg».proof.Proof.RefRun
import proofs.«145942_g2000600855469178_pallasbulk_547_29_alg».proof.Proof.RefAggRegion

/-!
# The reference network's run, closed

The run of the reference program with the aggregation kernel's proof data put in: one statement with no
hypothesis left, and the end contents read back at the arguments, at the result, and at what each kernel is
entered with.
-/

noncomputable section

namespace Cert.ReferenceIdeal.RefRun

open Idealize.ShloMosaic Idealize.ShloMosaic.TcCoe
open Idealize.SL Idealize.SL.BI
open scoped Idealize.SL.BI
open Idealize.ShloMosaic.Pipeline (Dat BodyObligation)
open Cert.ReferenceIdeal.Gen

variable {F : FTy → Type} [FloatOps F]

/-- The aggregation kernel's proof data have what the assembly asks: arrays read off the entry contents, full
    shares, nothing owed, no bound on earlier waits, the body obligation, and the invariant at both ends. -/
theorem aggFacts : Region1Facts (F := F) Agg.dat1 where
  hA := fun V c w => Agg.A_eq1 V c w
  hq := fun _ _ _ => rfl
  hO := fun _ _ _ => rfl
  hrec := fun _ _ => rfl
  hbody := fun V c => Agg.body_obligation1 V c
  hin := fun V c => Agg.hin1 V c
  hout := fun V c => Agg.hout1 V c

variable (m : (ℓ : Loc nD τ sig) → Buf (Elt F) ℓ)

/-- The contents after the aggregation kernel, -/
abbrev X3 : Dev nD → Valuation τ sig (Elt F) := W3 m Agg.dat1
/-- and at the end. -/
abbrev X4 : Dev nD → Valuation τ sig (Elt F) := W4 m Agg.dat1

/-- From any launch memory `m` with every semaphore at zero, every weakly fair execution of the reference program
    terminates without fault, and in every final state each unscoped buffer of each core holds `X4 m`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = X4 m c b) :=
  run_of m Agg.dat1 aggFacts ρ

/-- The result buffer ends at the transpose of the fold of the aggregation kernel's write-backs. -/
theorem run_result (ρ : Dev nD → PrngReg) :
    θ_run defs (onTc (τ := τ) (main (F := F))) ⟨m, fun _ => 0, ρ⟩ (fun r => ∀ c : Dev nD,
      r.2.mem ((c : Thread nD τ).loc main_v27)
        = transpose S4096x16 [1, 0] ((Agg.dat1 (V2 m) c).arrAt 7 cfg1.N) transposes_S16x4096_S4096x16_1_0) :=
  run_result_of m Agg.dat1 aggFacts ρ

/-! ## The end contents read back -/

/-- Every argument ends as launched. -/
theorem X4_main_arg0 (c : Dev nD) : X4 m c (Proc.devRef .tc main_arg0) = m ((c : Thread nD τ).loc main_arg0) :=
  W4_main_arg0 m Agg.dat1 aggFacts c
theorem X4_main_arg1 (c : Dev nD) : X4 m c (Proc.devRef .tc main_arg1) = m ((c : Thread nD τ).loc main_arg1) :=
  W4_main_arg1 m Agg.dat1 aggFacts c
theorem X4_main_arg2 (c : Dev nD) : X4 m c (Proc.devRef .tc main_arg2) = m ((c : Thread nD τ).loc main_arg2) :=
  W4_main_arg2 m Agg.dat1 aggFacts c
theorem X4_main_arg3 (c : Dev nD) : X4 m c (Proc.devRef .tc main_arg3) = m ((c : Thread nD τ).loc main_arg3) :=
  W4_main_arg3 m Agg.dat1 aggFacts c
theorem X4_main_arg4 (c : Dev nD) : X4 m c (Proc.devRef .tc main_arg4) = m ((c : Thread nD τ).loc main_arg4) :=
  W4_main_arg4 m Agg.dat1 aggFacts c
theorem X4_main_arg5 (c : Dev nD) : X4 m c (Proc.devRef .tc main_arg5) = m ((c : Thread nD τ).loc main_arg5) :=
  W4_main_arg5 m Agg.dat1 aggFacts c
theorem X4_main_arg6 (c : Dev nD) : X4 m c (Proc.devRef .tc main_arg6) = m ((c : Thread nD τ).loc main_arg6) :=
  W4_main_arg6 m Agg.dat1 aggFacts c
theorem X4_main_arg7 (c : Dev nD) : X4 m c (Proc.devRef .tc main_arg7) = m ((c : Thread nD τ).loc main_arg7) :=
  W4_main_arg7 m Agg.dat1 aggFacts c
theorem X4_main_arg8 (c : Dev nD) : X4 m c (Proc.devRef .tc main_arg8) = m ((c : Thread nD τ).loc main_arg8) :=
  W4_main_arg8 m Agg.dat1 aggFacts c
theorem X4_main_arg9 (c : Dev nD) : X4 m c (Proc.devRef .tc main_arg9) = m ((c : Thread nD τ).loc main_arg9) :=
  W4_main_arg9 m Agg.dat1 aggFacts c
theorem X4_main_arg10 (c : Dev nD) : X4 m c (Proc.devRef .tc main_arg10) = m ((c : Thread nD τ).loc main_arg10) :=
  W4_main_arg10 m Agg.dat1 aggFacts c
theorem X4_main_arg11 (c : Dev nD) : X4 m c (Proc.devRef .tc main_arg11) = m ((c : Thread nD τ).loc main_arg11) :=
  W4_main_arg11 m Agg.dat1 aggFacts c
theorem X4_main_arg12 (c : Dev nD) : X4 m c (Proc.devRef .tc main_arg12) = m ((c : Thread nD τ).loc main_arg12) :=
  W4_main_arg12 m Agg.dat1 aggFacts c
theorem X4_main_arg13 (c : Dev nD) : X4 m c (Proc.devRef .tc main_arg13) = m ((c : Thread nD τ).loc main_arg13) :=
  W4_main_arg13 m Agg.dat1 aggFacts c

/-- The result is the transpose of the aggregation kernel's output array, -/
theorem X4_main_v27 (c : Dev nD) :
    X4 m c (Proc.devRef .tc main_v27) = transpose S4096x16 [1, 0] (X3 m c (Proc.devRef .tc main_v26)) transposes_S16x4096_S4096x16_1_0 :=
  W4_main_v27 m Agg.dat1 c
/-- which holds the fold of that kernel's write-backs, the kernel entered with `V2 m`. -/
theorem X3_main_v26 (c : Dev nD) : X3 m c (Proc.devRef .tc main_v26) = (Agg.dat1 (V2 m) c).arrAt 7 cfg1.N :=
  W3_main_v26 m Agg.dat1 c

end Cert.ReferenceIdeal.RefRun

end
-- ==== Proof.RefReads.lean ====
/-
  The two reference kernels' arithmetic, read at an entry over the extended reals.

  The node kernel computes, for one tile of 512 nodes, the hidden features (one dense layer on columns) and the messages
  (two more; the change to the narrower float format is the identity here). The aggregation kernel keeps an accumulator
  tile: it is reset to zero, at every step the product of a tile of messages with a tile of the transposed adjacency is
  added to it, and at the last step two more layers of it plus the hidden features' tile are written out.
-/
import proofs.«145942_g2000600855469178_pallasbulk_547_29_alg».proof.Proof.Gen.ReferenceIdeal.Skeleton
import proofs.«145942_g2000600855469178_pallasbulk_547_29_alg».proof.Proof.LibColumnLayer
import Idealize.ShloMosaic.Lib.Pipeline.Value

open scoped BigOperators

noncomputable section

namespace Cert.ReferenceIdeal.Reads

open Idealize.ShloMosaic Idealize.ShloMosaic.ValueIdx Cert.GcnSpec
open Cert.ReferenceIdeal Cert.ReferenceIdeal.Gen

/-- A matrix as a function of its two coordinates. -/
abbrev mat {A B : ℕ} (v : (⟨2, ![A, B]⟩ : Shape).Idx → EReal) : Fin A → Fin B → EReal := fun a b => v (ix2 a b)
/-- A column as a function of its row. -/
abbrev col {A : ℕ} (v : (⟨2, ![A, 1]⟩ : Shape).Idx → EReal) : Fin A → EReal := fun a => v (ix2 a (0 : Fin 1))

/-- A tile of hidden features: one layer of the tile of input features. -/
theorem hid_apply (x : Vec Ideal S10x512 .f32) (w : Vec Ideal S16x10 .f32) (b : Vec Ideal S16x1 .f32) (o : Fin 16) (q : Fin 512) :
    k0_pay1 (F := Ideal) x w b (ix2 o q) = layer (mat w) (col b) (mat x) o q := by
  unfold k0_pay1
  simp only [shapeCast_self]
  exact Cert.Lib.ColumnLayer.layer_apply w b x _ o q

/-- A tile of messages: two more layers. -/
theorem msg_apply (x : Vec Ideal S10x512 .f32) (w : Vec Ideal S16x10 .f32) (b : Vec Ideal S16x1 .f32)
    (w1 : Vec Ideal S32x16 .f32) (b1 : Vec Ideal S32x1 .f32) (w2 : Vec Ideal S16x32 .f32) (b2 : Vec Ideal S16x1 .f32)
    (o : Fin 16) (q : Fin 512) :
    k0_pay2 (F := Ideal) x w b w1 b1 w2 b2 (ix2 o q)
      = layer (mat w2) (col b2) (layer (mat w1) (col b1) (layer (mat w) (col b) (mat x))) o q := by
  unfold k0_pay2
  rw [truncf_apply]
  refine (Cert.Lib.ColumnLayer.layer_apply w2 b2 _ _ o q).trans ?_
  refine congrArg (fun X => layer (mat w2) (col b2) X o q) (funext fun k => funext fun q' => ?_)
  refine (Cert.Lib.ColumnLayer.layer_apply w1 b1 _ _ k q').trans ?_
  refine congrArg (fun X => layer (mat w1) (col b1) X k q') (funext fun k' => funext fun q'' => ?_)
  exact hid_apply x w b k' q''

/-- The accumulator is reset to zero. -/
theorem reset_apply (o : Fin 16) (q : Fin 512) : k1_pay1 (F := Ideal) (ix2 o q) = 0 := by
  unfold k1_pay1
  simp only [shapeCast_self]
  exact Cert.Lib.ColumnLayer.zero_word

/-- One step adds the product of a tile of messages with a tile of the transposed adjacency. -/
theorem step_apply (acc : Vec Ideal S16x512 .f32) (msg : Vec Ideal S16x512 .bf16) (adjT : Vec Ideal S512x512 .bf16)
    (o : Fin 16) (q : Fin 512) :
    k1_pay2 (F := Ideal) acc msg adjT (ix2 o q) = acc (ix2 o q) + ∑ k : Fin 512, msg (ix2 o k) * adjT (ix2 k q) := by
  unfold k1_pay2
  simp only [shapeCast_self]
  rw [addf_apply]
  exact congrArg (fun z => acc (ix2 o q) + z) (Cert.Lib.PlainDot.matmul_zero_apply 16 512 512 none msg adjT (ix2 o q))

/-- The last step writes two layers of the accumulator plus the hidden features' tile. -/
theorem out_apply (acc : Vec Ideal S16x512 .f32) (w1 : Vec Ideal S32x16 .f32) (b1 : Vec Ideal S32x1 .f32)
    (w2 : Vec Ideal S16x32 .f32) (b2 : Vec Ideal S16x1 .f32) (hid : Vec Ideal S16x512 .f32) (o : Fin 16) (q : Fin 512) :
    k1_pay3 (F := Ideal) acc w1 b1 w2 b2 hid (ix2 o q)
      = layer (mat w2) (col b2) (layer (mat w1) (col b1) (mat acc)) o q + hid (ix2 o q) := by
  unfold k1_pay3
  simp only [shapeCast_self]
  rw [addf_apply]
  refine congrArg (fun z => z + hid (ix2 o q)) ?_
  refine (Cert.Lib.ColumnLayer.layer_apply w2 b2 _ _ o q).trans ?_
  refine congrArg (fun X => layer (mat w2) (col b2) X o q) (funext fun k => funext fun q' => ?_)
  exact Cert.Lib.ColumnLayer.layer_apply w1 b1 acc _ k q'

end Cert.ReferenceIdeal.Reads

end
-- ==== Proof.RefAccum.lean ====
/-
  The aggregation kernel's accumulator over the eight source tiles of one destination tile.

  Grid point 8 i + j handles destination tile i and source tile j. The accumulator is reset and receives the first
  product at j = 0 and one more product at each later j; after j = 7 entry (o, q) holds the sum over the source tiles j of
  the sums over the sources k within the tile of msg_j (o, k) · adjT_j (k, q).
-/
import proofs.«145942_g2000600855469178_pallasbulk_547_29_alg».proof.Proof.RefReads
import proofs.«145942_g2000600855469178_pallasbulk_547_29_alg».proof.Proof.Gen.ReferenceIdeal.Launch

open scoped BigOperators

noncomputable section

namespace Cert.ReferenceIdeal.Accum

open Idealize.ShloMosaic Idealize.ShloMosaic.ValueIdx Cert.GcnSpec Cert.ReferenceIdeal Cert.ReferenceIdeal.Gen Cert.ReferenceIdeal.Reads

/-- The aggregation kernel's grid has 64 points. -/
theorem points_eq : cfg1.N = 64 := N_1

theorem lt64 (t : Fin cfg1.N) : t.val < 64 := lt_of_lt_of_eq t.isLt points_eq

/-- Grid point `8 i + j`. -/
def point (i j : Fin 8) : Fin cfg1.N := ⟨8 * i.val + j.val, lt_of_lt_of_eq (by omega : 8 * i.val + j.val < 64) points_eq.symm⟩

theorem point_val (i j : Fin 8) : (point i j).val = 8 * i.val + j.val := rfl

theorem acc_last (acc : (n : ℕ) → n < cfg1.N → Vec Ideal S16x512 .f32)
    (msgb : Fin cfg1.N → Vec Ideal S16x512 .bf16) (adjb : Fin cfg1.N → Vec Ideal S512x512 .bf16)
    (hfirst : ∀ t : Fin cfg1.N, t.val % 8 = 0 → acc t.val t.isLt = k1_pay2 (F := Ideal) (k1_pay1 (F := Ideal)) (msgb t) (adjb t))
    (hnext : ∀ t : Fin cfg1.N, t.val % 8 ≠ 0 →
      acc t.val t.isLt = k1_pay2 (F := Ideal) (acc (t.val - 1) (Nat.lt_of_le_of_lt (Nat.sub_le _ _) t.isLt)) (msgb t) (adjb t))
    (i : Fin 8) (o : Fin 16) (q : Fin 512) :
    acc (point i 7).val (point i 7).isLt (ix2 o q)
      = ∑ j : Fin 8, ∑ k : Fin 512, msgb (point i j) (ix2 o k) * adjb (point i j) (ix2 k q) := by
  have h := acc_total (N := 7) (fun j : Fin 8 => ∑ k : Fin 512, msgb (point i j) (ix2 o k) * adjb (point i j) (ix2 k q))
    (fun n hn => acc (8 * i.val + n) (lt_of_lt_of_eq (by omega : 8 * i.val + n < 64) points_eq.symm) (ix2 o q))
    (by
      show acc (8 * i.val + 0) _ (ix2 o q) = _
      have := hfirst (point i 0) (by show (8 * i.val + 0) % 8 = 0; omega)
      rw [show acc (8 * i.val + 0) _ = acc (point i 0).val (point i 0).isLt from rfl, this, step_apply, reset_apply])
    (fun n hn => by
      show acc (8 * i.val + (n + 1)) _ (ix2 o q) = acc (8 * i.val + n) _ (ix2 o q) + _
      have := hnext (point i ⟨n + 1, hn⟩) (by show (8 * i.val + (n + 1)) % 8 ≠ 0; omega)
      rw [show acc (8 * i.val + (n + 1)) _ = acc (point i ⟨n + 1, hn⟩).val (point i ⟨n + 1, hn⟩).isLt from rfl, this, step_apply]
      rfl)
  exact h

/-- What the aggregation kernel writes for destination tile `i`, given that its message tiles are tiles of the messages
    of all nodes, its adjacency tiles are tiles of the transposed adjacency, and its hidden-feature tile is a tile of the
    hidden features: the network at the tile's nodes. -/
theorem out_tile (x : Fin 10 → Fin 4096 → EReal) (wh : Fin 16 → Fin 10 → EReal) (bh : Fin 16 → EReal)
    (w1 : Fin 32 → Fin 16 → EReal) (b1 : Fin 32 → EReal) (w2 : Fin 16 → Fin 32 → EReal) (b2 : Fin 16 → EReal)
    (adj : Fin 4096 → Fin 4096 → EReal)
    (acc : (n : ℕ) → n < cfg1.N → Vec Ideal S16x512 .f32)
    (msgb : Fin cfg1.N → Vec Ideal S16x512 .bf16) (adjb : Fin cfg1.N → Vec Ideal S512x512 .bf16)
    (hfirst : ∀ t : Fin cfg1.N, t.val % 8 = 0 → acc t.val t.isLt = k1_pay2 (F := Ideal) (k1_pay1 (F := Ideal)) (msgb t) (adjb t))
    (hnext : ∀ t : Fin cfg1.N, t.val % 8 ≠ 0 →
      acc t.val t.isLt = k1_pay2 (F := Ideal) (acc (t.val - 1) (Nat.lt_of_le_of_lt (Nat.sub_le _ _) t.isLt)) (msgb t) (adjb t))
    (i : Fin 8)
    (hmsgb : ∀ (j : Fin 8) (o : Fin 16) (k : Fin 512),
      msgb (point i j) (ix2 o k) = layer w2 b2 (layer w1 b1 (layer wh bh x)) o (node j k))
    (hadjb : ∀ (j : Fin 8) (k q : Fin 512), adjb (point i j) (ix2 k q) = adj (node i q) (node j k))
    (wa1 : Vec Ideal S32x16 .f32) (ba1 : Vec Ideal S32x1 .f32) (wa2 : Vec Ideal S16x32 .f32) (ba2 : Vec Ideal S16x1 .f32)
    (hidb : Vec Ideal S16x512 .f32) (hhid : ∀ (o : Fin 16) (q : Fin 512), hidb (ix2 o q) = layer wh bh x o (node i q))
    (o : Fin 16) (q : Fin 512) :
    k1_pay3 (F := Ideal) (acc (point i 7).val (point i 7).isLt) wa1 ba1 wa2 ba2 hidb (ix2 o q)
      = network x wh bh w1 b1 w2 b2 (mat wa1) (col ba1) (mat wa2) (col ba2) adj o (node i q) := by
  rw [out_apply, hhid]
  refine network_tile_acc x wh bh w1 b1 w2 b2 (mat wa1) (col ba1) (mat wa2) (col ba2) adj i _ (fun o' q' => ?_) o q
  show acc (point i 7).val (point i 7).isLt (ix2 o' q') = _
  rw [acc_last acc msgb adjb hfirst hnext i o' q']
  refine Finset.sum_congr rfl fun j _ => Finset.sum_congr rfl fun k _ => ?_
  rw [hmsgb, hadjb]

end Cert.ReferenceIdeal.Accum

end
-- ==== Proof.RefMlpArray.lean ====
import proofs.«145942_g2000600855469178_pallasbulk_547_29_alg».proof.Proof.RefMlpRegion
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.ReferenceIdeal.RefArr

open Cert.ReferenceIdeal Cert.ReferenceIdeal.Gen

variable {F : FTy → Type} [FloatOps F]

/-! # The node MLP region: its blocks and its two result arrays

The region runs over eight tiles of 512 nodes. The transposed feature array is read by column tiles, the six weight
and bias arrays whole at every tile, and each of the two outputs is written by column tiles, once per tile. So each
output array ends holding, at column `j`, what tile `j / 512` left at lane `j % 512`. -/

variable (V : (c : Dev nD) → (b : Ref sig .tc) → Buf (Elt F) ((c : Thread nD τ).loc b))

theorem lt8 (t : Fin cfg0.N) : t.val < 8 := lt_of_lt_of_eq t.isLt N_0

/-- Column `512 t + k` of a tile is a column of the 4096-wide array. -/
theorem tile_lt {t k : ℕ} (ht : t < 8) (hk : k < 512) : 512 * t + k < 4096 := by omega

/-- Equal tiles and equal indices read equal values. -/
theorem blk_congr {α : Type} {N : ℕ} {S : Shape} (f : Fin N → S.Idx → α) {t t' : Fin N} (ht : t = t') {y y' : S.Idx} (hy : y = y') :
    f t y = f t' y' := by subst ht; subst hy; rfl

/-! ## The index maps, decided over the grid -/

theorem idx0_0 : ∀ t : Fin cfg0.N, win0_0.index t = ![0, t.val] :=
  (by decide +kernel : ∀ t : Fin grid0.N, win0_0.index t = ![0, t.val])
theorem idx0_1 : ∀ t : Fin cfg0.N, win0_1.index t = ![0, 0] :=
  (by decide +kernel : ∀ t : Fin grid0.N, win0_1.index t = ![0, 0])
theorem idx0_2 : ∀ t : Fin cfg0.N, win0_2.index t = ![0, 0] :=
  (by decide +kernel : ∀ t : Fin grid0.N, win0_2.index t = ![0, 0])
theorem idx0_3 : ∀ t : Fin cfg0.N, win0_3.index t = ![0, 0] :=
  (by decide +kernel : ∀ t : Fin grid0.N, win0_3.index t = ![0, 0])
theorem idx0_4 : ∀ t : Fin cfg0.N, win0_4.index t = ![0, 0] :=
  (by decide +kernel : ∀ t : Fin grid0.N, win0_4.index t = ![0, 0])
theorem idx0_5 : ∀ t : Fin cfg0.N, win0_5.index t = ![0, 0] :=
  (by decide +kernel : ∀ t : Fin grid0.N, win0_5.index t = ![0, 0])
theorem idx0_6 : ∀ t : Fin cfg0.N, win0_6.index t = ![0, 0] :=
  (by decide +kernel : ∀ t : Fin grid0.N, win0_6.index t = ![0, 0])
theorem idx0_7 : ∀ t : Fin cfg0.N, win0_7.index t = ![0, t.val] :=
  (by decide +kernel : ∀ t : Fin grid0.N, win0_7.index t = ![0, t.val])
theorem idx0_8 : ∀ t : Fin cfg0.N, win0_8.index t = ![0, t.val] :=
  (by decide +kernel : ∀ t : Fin grid0.N, win0_8.index t = ![0, t.val])

/-! ## The input blocks -/

/-- The feature block of tile `t`: columns `512 t … 512 t + 511` of the transposed features. -/
theorem iblk0_0 (c : Dev nD) (t : Fin cfg0.N) : (Mlp.iblk0 V c 0 t : Vec F S10x512 .f32)
    = fun (y : S10x512.Idx) => V c main_v20 (ValueIdx.ix2 (n0 := 10) (n1 := 4096) (y 0) ⟨512 * t.val + (y 1).val, tile_lt (lt8 t) (ValueIdx.idx2_lt1 y)⟩) := by
  have h0 : win0_0.index t 0 = 0 := congrFun (idx0_0 t) 0
  have h1 : win0_0.index t 1 = t.val := congrFun (idx0_0 t) 1
  funext j
  unfold Mlp.iblk0
  rw [View.read_apply]
  show V c main_v20 _ = V c main_v20 _
  congr 1
  funext a
  apply Fin.ext
  match a with
  | ⟨0, _⟩ => show win0_0.index t 0 * 10 + 1 * (j 0).val = (j 0).val; rw [h0]; omega
  | ⟨1, _⟩ => show win0_0.index t 1 * 512 + 1 * (j 1).val = 512 * t.val + (j 1).val; rw [h1]; omega

/-- Window 1's block is its whole array at every tile. -/
theorem iblk0_1 (c : Dev nD) (t : Fin cfg0.N) : (Mlp.iblk0 V c 1 t : Vec F S16x10 .f32) = V c main_arg3 := by
  have h0 : win0_1.index t 0 = 0 := congrFun (idx0_1 t) 0
  have h1 : win0_1.index t 1 = 0 := congrFun (idx0_1 t) 1
  funext j
  unfold Mlp.iblk0
  rw [View.read_apply]
  show V c main_arg3 _ = V c main_arg3 j
  congr 1
  funext a
  apply Fin.ext
  match a with
  | ⟨0, _⟩ => show win0_1.index t 0 * 16 + 1 * (j 0).val = (j 0).val; rw [h0]; omega
  | ⟨1, _⟩ => show win0_1.index t 1 * 10 + 1 * (j 1).val = (j 1).val; rw [h1]; omega

/-- Window 2's block is its whole array at every tile. -/
theorem iblk0_2 (c : Dev nD) (t : Fin cfg0.N) : (Mlp.iblk0 V c 2 t : Vec F S16x1 .f32) = V c main_arg4 := by
  have h0 : win0_2.index t 0 = 0 := congrFun (idx0_2 t) 0
  have h1 : win0_2.index t 1 = 0 := congrFun (idx0_2 t) 1
  funext j
  unfold Mlp.iblk0
  rw [View.read_apply]
  show V c main_arg4 _ = V c main_arg4 j
  congr 1
  funext a
  apply Fin.ext
  match a with
  | ⟨0, _⟩ => show win0_2.index t 0 * 16 + 1 * (j 0).val = (j 0).val; rw [h0]; omega
  | ⟨1, _⟩ => show win0_2.index t 1 * 1 + 1 * (j 1).val = (j 1).val; rw [h1]; omega

/-- Window 3's block is its whole array at every tile. -/
theorem iblk0_3 (c : Dev nD) (t : Fin cfg0.N) : (Mlp.iblk0 V c 3 t : Vec F S32x16 .f32) = V c main_arg5 := by
  have h0 : win0_3.index t 0 = 0 := congrFun (idx0_3 t) 0
  have h1 : win0_3.index t 1 = 0 := congrFun (idx0_3 t) 1
  funext j
  unfold Mlp.iblk0
  rw [View.read_apply]
  show V c main_arg5 _ = V c main_arg5 j
  congr 1
  funext a
  apply Fin.ext
  match a with
  | ⟨0, _⟩ => show win0_3.index t 0 * 32 + 1 * (j 0).val = (j 0).val; rw [h0]; omega
  | ⟨1, _⟩ => show win0_3.index t 1 * 16 + 1 * (j 1).val = (j 1).val; rw [h1]; omega

/-- Window 4's block is its whole array at every tile. -/
theorem iblk0_4 (c : Dev nD) (t : Fin cfg0.N) : (Mlp.iblk0 V c 4 t : Vec F S32x1 .f32) = V c main_arg6 := by
  have h0 : win0_4.index t 0 = 0 := congrFun (idx0_4 t) 0
  have h1 : win0_4.index t 1 = 0 := congrFun (idx0_4 t) 1
  funext j
  unfold Mlp.iblk0
  rw [View.read_apply]
  show V c main_arg6 _ = V c main_arg6 j
  congr 1
  funext a
  apply Fin.ext
  match a with
  | ⟨0, _⟩ => show win0_4.index t 0 * 32 + 1 * (j 0).val = (j 0).val; rw [h0]; omega
  | ⟨1, _⟩ => show win0_4.index t 1 * 1 + 1 * (j 1).val = (j 1).val; rw [h1]; omega

/-- Window 5's block is its whole array at every tile. -/
theorem iblk0_5 (c : Dev nD) (t : Fin cfg0.N) : (Mlp.iblk0 V c 5 t : Vec F S16x32 .f32) = V c main_arg7 := by
  have h0 : win0_5.index t 0 = 0 := congrFun (idx0_5 t) 0
  have h1 : win0_5.index t 1 = 0 := congrFun (idx0_5 t) 1
  funext j
  unfold Mlp.iblk0
  rw [View.read_apply]
  show V c main_arg7 _ = V c main_arg7 j
  congr 1
  funext a
  apply Fin.ext
  match a with
  | ⟨0, _⟩ => show win0_5.index t 0 * 16 + 1 * (j 0).val = (j 0).val; rw [h0]; omega
  | ⟨1, _⟩ => show win0_5.index t 1 * 32 + 1 * (j 1).val = (j 1).val; rw [h1]; omega

/-- Window 6's block is its whole array at every tile. -/
theorem iblk0_6 (c : Dev nD) (t : Fin cfg0.N) : (Mlp.iblk0 V c 6 t : Vec F S16x1 .f32) = V c main_arg8 := by
  have h0 : win0_6.index t 0 = 0 := congrFun (idx0_6 t) 0
  have h1 : win0_6.index t 1 = 0 := congrFun (idx0_6 t) 1
  funext j
  unfold Mlp.iblk0
  rw [View.read_apply]
  show V c main_arg8 _ = V c main_arg8 j
  congr 1
  funext a
  apply Fin.ext
  match a with
  | ⟨0, _⟩ => show win0_6.index t 0 * 16 + 1 * (j 0).val = (j 0).val; rw [h0]; omega
  | ⟨1, _⟩ => show win0_6.index t 1 * 1 + 1 * (j 1).val = (j 1).val; rw [h1]; omega

/-! ## Output window 7: the hidden activations -/

/-- What tile `t` leaves in output window 7's block. -/
abbrev hidBlk (c : Dev nD) (t : Fin cfg0.N) : Vec F S16x512 .f32 := (Mlp.dat0 V c).after 7 t

/-- The [16, 4096] array the eight blocks make: column `j` is tile `j / 512` at lane `j % 512`. -/
def hidArr (c : Dev nD) : Vec F S16x4096 .f32 := fun i =>
  hidBlk V c ⟨(i 1).val / 512, by have := ValueIdx.idx2_lt1 i; rw [show cfg0.N = 8 from N_0]; omega⟩
    (ValueIdx.ix2 (n0 := 16) (n1 := 512) (i 0) ⟨(i 1).val % 512, Nat.mod_lt _ (by decide)⟩)

/-- At row `y 0` and column `512 t + y 1` the array reads tile `t` at `y`. -/
theorem hidArr_tile (c : Dev nD) (t : Fin cfg0.N) (y : S16x512.Idx) (h : 512 * t.val + (y 1).val < 4096) :
    hidArr V c (ValueIdx.ix2 (n0 := 16) (n1 := 4096) (y 0) ⟨512 * t.val + (y 1).val, h⟩) = (Mlp.dat0 V c).after 7 t y := by
  have hy : (y 1).val < 512 := ValueIdx.idx2_lt1 y
  have e1 : (512 * t.val + (y 1).val) / 512 = t.val := by omega
  have e2 : (512 * t.val + (y 1).val) % 512 = (y 1).val := by omega
  unfold hidArr
  exact blk_congr (hidBlk V c) (Fin.ext e1) (by
    funext a
    match a with
    | ⟨0, _⟩ => rfl
    | ⟨1, _⟩ => exact Fin.ext e2)

/-- What tile `t` writes back is block `t` of that array. -/
theorem flushed7_eq (c : Dev nD) (t : Fin cfg0.N) (hf : (cfg0.win 7).flush t = true) :
    (Mlp.dat0 V c).flushed 7 t = ((cfg0.win 7).blk t).view.read (Elt F) (hidArr V c) := by
  have h0 : win0_7.index t 0 = 0 := congrFun (idx0_7 t) 0
  have h1 : win0_7.index t 1 = t.val := congrFun (idx0_7 t) 1
  have ht := lt8 t
  show (cfg0.win 7).cut (grid0.coords t) ((Mlp.dat0 V c).after 7 t) = _
  funext y
  rw [View.read_apply]
  have hy : (y 1).val < 512 := ValueIdx.idx2_lt1 y
  have e : ((cfg0.win 7).blk t).view.emb y = ValueIdx.ix2 (n0 := 16) (n1 := 4096) (y 0) ⟨512 * t.val + (y 1).val, by omega⟩ := by
    funext a
    apply Fin.ext
    match a with
    | ⟨0, _⟩ => show win0_7.index t 0 * 16 + 1 * (y 0).val = (y 0).val; rw [h0]; omega
    | ⟨1, _⟩ => show win0_7.index t 1 * 512 + 1 * (y 1).val = 512 * t.val + (y 1).val; rw [h1]; omega
  rw [e]
  exact (hidArr_tile V c t y _).symm

/-- An index of the array is in tile `t`'s block iff each coordinate is in the block's range on its axis. -/
theorem mem_blk7 (t : Fin cfg0.N) (i : S16x4096.Idx) :
    i ∈ ((cfg0.win 7).blk t).view.set ↔ ∀ a : Fin 2, win0_7.index t a * S16x512.size a ≤ (i a).val ∧ (i a).val < win0_7.index t a * S16x512.size a + S16x512.size a := by
  show i ∈ ((View.whole main_v25_0).slice (win0_7.rect t)).set ↔ _
  rw [View.set_slice_whole, Rect.mem_set_unit]
  exact Iff.rfl

/-- Every index of the array is in the block of the tile its column names. -/
theorem cover7 (i : S16x4096.Idx) :
    ∃ t : Fin cfg0.N, (cfg0.win 7).flush t = true ∧ i ∈ ((cfg0.win 7).blk t).view.set := by
  have hi0 : (i 0).val < 16 := ValueIdx.idx2_lt0 i
  have hi1 : (i 1).val < 4096 := ValueIdx.idx2_lt1 i
  have hT : (i 1).val / 512 < cfg0.N := by rw [show cfg0.N = 8 from N_0]; omega
  refine ⟨⟨(i 1).val / 512, hT⟩, flush0_7 _, ?_⟩
  have h0 : win0_7.index ⟨(i 1).val / 512, hT⟩ 0 = 0 := congrFun (idx0_7 _) 0
  have h1 : win0_7.index ⟨(i 1).val / 512, hT⟩ 1 = (i 1).val / 512 := congrFun (idx0_7 _) 1
  rw [mem_blk7]
  intro a
  match a with
  | ⟨0, _⟩ =>
    show win0_7.index ⟨(i 1).val / 512, hT⟩ 0 * 16 ≤ (i 0).val ∧ (i 0).val < win0_7.index ⟨(i 1).val / 512, hT⟩ 0 * 16 + 16
    rw [h0]; omega
  | ⟨1, _⟩ =>
    show win0_7.index ⟨(i 1).val / 512, hT⟩ 1 * 512 ≤ (i 1).val ∧ (i 1).val < win0_7.index ⟨(i 1).val / 512, hT⟩ 1 * 512 + 512
    rw [h1]; omega

/-- So the array of window 7 ends holding `hidArr`. -/
theorem final7 (c : Dev nD) : (Mlp.dat0 V c).arrAt 7 cfg0.N = hidArr V c :=
  (Mlp.dat0 V c).arrAt_eq_of_cover 7 (hidArr V c) (flushed7_eq V c) fun i => cover7 i

/-! ## Output window 8: the messages -/

/-- What tile `t` leaves in output window 8's block. -/
abbrev msgBlk (c : Dev nD) (t : Fin cfg0.N) : Vec F S16x512 .bf16 := (Mlp.dat0 V c).after 8 t

/-- The [16, 4096] array the eight blocks make: column `j` is tile `j / 512` at lane `j % 512`. -/
def msgArr (c : Dev nD) : Vec F S16x4096 .bf16 := fun i =>
  msgBlk V c ⟨(i 1).val / 512, by have := ValueIdx.idx2_lt1 i; rw [show cfg0.N = 8 from N_0]; omega⟩
    (ValueIdx.ix2 (n0 := 16) (n1 := 512) (i 0) ⟨(i 1).val % 512, Nat.mod_lt _ (by decide)⟩)

/-- At row `y 0` and column `512 t + y 1` the array reads tile `t` at `y`. -/
theorem msgArr_tile (c : Dev nD) (t : Fin cfg0.N) (y : S16x512.Idx) (h : 512 * t.val + (y 1).val < 4096) :
    msgArr V c (ValueIdx.ix2 (n0 := 16) (n1 := 4096) (y 0) ⟨512 * t.val + (y 1).val, h⟩) = (Mlp.dat0 V c).after 8 t y := by
  have hy : (y 1).val < 512 := ValueIdx.idx2_lt1 y
  have e1 : (512 * t.val + (y 1).val) / 512 = t.val := by omega
  have e2 : (512 * t.val + (y 1).val) % 512 = (y 1).val := by omega
  unfold msgArr
  exact blk_congr (msgBlk V c) (Fin.ext e1) (by
    funext a
    match a with
    | ⟨0, _⟩ => rfl
    | ⟨1, _⟩ => exact Fin.ext e2)

/-- What tile `t` writes back is block `t` of that array. -/
theorem flushed8_eq (c : Dev nD) (t : Fin cfg0.N) (hf : (cfg0.win 8).flush t = true) :
    (Mlp.dat0 V c).flushed 8 t = ((cfg0.win 8).blk t).view.read (Elt F) (msgArr V c) := by
  have h0 : win0_8.index t 0 = 0 := congrFun (idx0_8 t) 0
  have h1 : win0_8.index t 1 = t.val := congrFun (idx0_8 t) 1
  have ht := lt8 t
  show (cfg0.win 8).cut (grid0.coords t) ((Mlp.dat0 V c).after 8 t) = _
  funext y
  rw [View.read_apply]
  have hy : (y 1).val < 512 := ValueIdx.idx2_lt1 y
  have e : ((cfg0.win 8).blk t).view.emb y = ValueIdx.ix2 (n0 := 16) (n1 := 4096) (y 0) ⟨512 * t.val + (y 1).val, by omega⟩ := by
    funext a
    apply Fin.ext
    match a with
    | ⟨0, _⟩ => show win0_8.index t 0 * 16 + 1 * (y 0).val = (y 0).val; rw [h0]; omega
    | ⟨1, _⟩ => show win0_8.index t 1 * 512 + 1 * (y 1).val = 512 * t.val + (y 1).val; rw [h1]; omega
  rw [e]
  exact (msgArr_tile V c t y _).symm

/-- An index of the array is in tile `t`'s block iff each coordinate is in the block's range on its axis. -/
theorem mem_blk8 (t : Fin cfg0.N) (i : S16x4096.Idx) :
    i ∈ ((cfg0.win 8).blk t).view.set ↔ ∀ a : Fin 2, win0_8.index t a * S16x512.size a ≤ (i a).val ∧ (i a).val < win0_8.index t a * S16x512.size a + S16x512.size a := by
  show i ∈ ((View.whole main_v25_1).slice (win0_8.rect t)).set ↔ _
  rw [View.set_slice_whole, Rect.mem_set_unit]
  exact Iff.rfl

/-- Every index of the array is in the block of the tile its column names. -/
theorem cover8 (i : S16x4096.Idx) :
    ∃ t : Fin cfg0.N, (cfg0.win 8).flush t = true ∧ i ∈ ((cfg0.win 8).blk t).view.set := by
  have hi0 : (i 0).val < 16 := ValueIdx.idx2_lt0 i
  have hi1 : (i 1).val < 4096 := ValueIdx.idx2_lt1 i
  have hT : (i 1).val / 512 < cfg0.N := by rw [show cfg0.N = 8 from N_0]; omega
  refine ⟨⟨(i 1).val / 512, hT⟩, flush0_8 _, ?_⟩
  have h0 : win0_8.index ⟨(i 1).val / 512, hT⟩ 0 = 0 := congrFun (idx0_8 _) 0
  have h1 : win0_8.index ⟨(i 1).val / 512, hT⟩ 1 = (i 1).val / 512 := congrFun (idx0_8 _) 1
  rw [mem_blk8]
  intro a
  match a with
  | ⟨0, _⟩ =>
    show win0_8.index ⟨(i 1).val / 512, hT⟩ 0 * 16 ≤ (i 0).val ∧ (i 0).val < win0_8.index ⟨(i 1).val / 512, hT⟩ 0 * 16 + 16
    rw [h0]; omega
  | ⟨1, _⟩ =>
    show win0_8.index ⟨(i 1).val / 512, hT⟩ 1 * 512 ≤ (i 1).val ∧ (i 1).val < win0_8.index ⟨(i 1).val / 512, hT⟩ 1 * 512 + 512
    rw [h1]; omega

/-- So the array of window 8 ends holding `msgArr`. -/
theorem final8 (c : Dev nD) : (Mlp.dat0 V c).arrAt 8 cfg0.N = msgArr V c :=
  (Mlp.dat0 V c).arrAt_eq_of_cover 8 (msgArr V c) (flushed8_eq V c) fun i => cover8 i

end Cert.ReferenceIdeal.RefArr

end
-- ==== Proof.RefAggArray.lean ====
import proofs.«145942_g2000600855469178_pallasbulk_547_29_alg».proof.Proof.RefAggRuns
import proofs.«145942_g2000600855469178_pallasbulk_547_29_alg».proof.Proof.RefMlpArray
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.ReferenceIdeal.RefArr

open Cert.ReferenceIdeal Cert.ReferenceIdeal.Gen

variable {F : FTy → Type} [FloatOps F]

/-! # The aggregation region: its blocks and its result array

The region runs over an 8 × 8 grid; point `t = 8 i + j` is destination tile `i = t / 8` and source tile
`j = t % 8`. It reads the message tile `j`, the tile `(j, i)` of the transposed adjacency, the hidden tile `i`
and four whole weight and bias arrays; the output's block `i` does not move while `j` runs and is written back after
the last source tile only. -/

variable (V : (c : Dev nD) → (b : Ref sig .tc) → Buf (Elt F) ((c : Thread nD τ).loc b))

theorem lt64 (t : Fin cfg1.N) : t.val < 64 := lt_of_lt_of_eq t.isLt N_1
theorem div8_lt (t : Fin cfg1.N) : t.val / 8 < 8 := by have := lt64 t; omega
theorem mod8_lt (t : Fin cfg1.N) : t.val % 8 < 8 := Nat.mod_lt _ (by decide)

/-! ## The index maps, decided over the grid -/

theorem idx1_0 : ∀ t : Fin cfg1.N, win1_0.index t = ![0, t.val % 8] :=
  (by decide +kernel : ∀ t : Fin grid1.N, win1_0.index t = ![0, t.val % 8])
theorem idx1_1 : ∀ t : Fin cfg1.N, win1_1.index t = ![t.val % 8, t.val / 8] :=
  (by decide +kernel : ∀ t : Fin grid1.N, win1_1.index t = ![t.val % 8, t.val / 8])
theorem idx1_2 : ∀ t : Fin cfg1.N, win1_2.index t = ![0, t.val / 8] :=
  (by decide +kernel : ∀ t : Fin grid1.N, win1_2.index t = ![0, t.val / 8])
theorem idx1_3 : ∀ t : Fin cfg1.N, win1_3.index t = ![0, 0] :=
  (by decide +kernel : ∀ t : Fin grid1.N, win1_3.index t = ![0, 0])
theorem idx1_4 : ∀ t : Fin cfg1.N, win1_4.index t = ![0, 0] :=
  (by decide +kernel : ∀ t : Fin grid1.N, win1_4.index t = ![0, 0])
theorem idx1_5 : ∀ t : Fin cfg1.N, win1_5.index t = ![0, 0] :=
  (by decide +kernel : ∀ t : Fin grid1.N, win1_5.index t = ![0, 0])
theorem idx1_6 : ∀ t : Fin cfg1.N, win1_6.index t = ![0, 0] :=
  (by decide +kernel : ∀ t : Fin grid1.N, win1_6.index t = ![0, 0])
theorem idx1_7 : ∀ t : Fin cfg1.N, win1_7.index t = ![0, t.val / 8] :=
  (by decide +kernel : ∀ t : Fin grid1.N, win1_7.index t = ![0, t.val / 8])

/-! ## The input blocks -/

/-- The message block of point `t`: columns `512 j …` of the message array, `j = t % 8`. -/
theorem iblk1_0 (c : Dev nD) (t : Fin cfg1.N) : (Agg.iblk1 V c 0 t : Vec F S16x512 .bf16)
    = fun (y : S16x512.Idx) => V c main_v25_1 (ValueIdx.ix2 (n0 := 16) (n1 := 4096) (y 0) ⟨512 * (t.val % 8) + (y 1).val, tile_lt (mod8_lt t) (ValueIdx.idx2_lt1 y)⟩) := by
  have h0 : win1_0.index t 0 = 0 := congrFun (idx1_0 t) 0
  have h1 : win1_0.index t 1 = t.val % 8 := congrFun (idx1_0 t) 1
  funext j
  unfold Agg.iblk1
  rw [View.read_apply]
  show V c main_v25_1 _ = V c main_v25_1 _
  congr 1
  funext a
  apply Fin.ext
  match a with
  | ⟨0, _⟩ => show win1_0.index t 0 * 16 + 1 * (j 0).val = (j 0).val; rw [h0]; omega
  | ⟨1, _⟩ => show win1_0.index t 1 * 512 + 1 * (j 1).val = 512 * (t.val % 8) + (j 1).val; rw [h1]; omega

/-- The adjacency block of point `t`: rows `512 j …` and columns `512 i …` of the transposed adjacency. -/
theorem iblk1_1 (c : Dev nD) (t : Fin cfg1.N) : (Agg.iblk1 V c 1 t : Vec F S512x512 .bf16)
    = fun (y : S512x512.Idx) => V c main_v24 (ValueIdx.ix2 (n0 := 4096) (n1 := 4096)
        ⟨512 * (t.val % 8) + (y 0).val, tile_lt (mod8_lt t) (ValueIdx.idx2_lt0 y)⟩
        ⟨512 * (t.val / 8) + (y 1).val, tile_lt (div8_lt t) (ValueIdx.idx2_lt1 y)⟩) := by
  have h0 : win1_1.index t 0 = t.val % 8 := congrFun (idx1_1 t) 0
  have h1 : win1_1.index t 1 = t.val / 8 := congrFun (idx1_1 t) 1
  funext j
  unfold Agg.iblk1
  rw [View.read_apply]
  show V c main_v24 _ = V c main_v24 _
  congr 1
  funext a
  apply Fin.ext
  match a with
  | ⟨0, _⟩ => show win1_1.index t 0 * 512 + 1 * (j 0).val = 512 * (t.val % 8) + (j 0).val; rw [h0]; omega
  | ⟨1, _⟩ => show win1_1.index t 1 * 512 + 1 * (j 1).val = 512 * (t.val / 8) + (j 1).val; rw [h1]; omega

/-- The hidden block of point `t`: columns `512 i …` of the hidden array, `i = t / 8`. -/
theorem iblk1_2 (c : Dev nD) (t : Fin cfg1.N) : (Agg.iblk1 V c 2 t : Vec F S16x512 .f32)
    = fun (y : S16x512.Idx) => V c main_v25_0 (ValueIdx.ix2 (n0 := 16) (n1 := 4096) (y 0) ⟨512 * (t.val / 8) + (y 1).val, tile_lt (div8_lt t) (ValueIdx.idx2_lt1 y)⟩) := by
  have h0 : win1_2.index t 0 = 0 := congrFun (idx1_2 t) 0
  have h1 : win1_2.index t 1 = t.val / 8 := congrFun (idx1_2 t) 1
  funext j
  unfold Agg.iblk1
  rw [View.read_apply]
  show V c main_v25_0 _ = V c main_v25_0 _
  congr 1
  funext a
  apply Fin.ext
  match a with
  | ⟨0, _⟩ => show win1_2.index t 0 * 16 + 1 * (j 0).val = (j 0).val; rw [h0]; omega
  | ⟨1, _⟩ => show win1_2.index t 1 * 512 + 1 * (j 1).val = 512 * (t.val / 8) + (j 1).val; rw [h1]; omega

/-- Window 3's block is its whole array at every point. -/
theorem iblk1_3 (c : Dev nD) (t : Fin cfg1.N) : (Agg.iblk1 V c 3 t : Vec F S32x16 .f32) = V c main_arg9 := by
  have h0 : win1_3.index t 0 = 0 := congrFun (idx1_3 t) 0
  have h1 : win1_3.index t 1 = 0 := congrFun (idx1_3 t) 1
  funext j
  unfold Agg.iblk1
  rw [View.read_apply]
  show V c main_arg9 _ = V c main_arg9 j
  congr 1
  funext a
  apply Fin.ext
  match a with
  | ⟨0, _⟩ => show win1_3.index t 0 * 32 + 1 * (j 0).val = (j 0).val; rw [h0]; omega
  | ⟨1, _⟩ => show win1_3.index t 1 * 16 + 1 * (j 1).val = (j 1).val; rw [h1]; omega

/-- Window 4's block is its whole array at every point. -/
theorem iblk1_4 (c : Dev nD) (t : Fin cfg1.N) : (Agg.iblk1 V c 4 t : Vec F S32x1 .f32) = V c main_arg10 := by
  have h0 : win1_4.index t 0 = 0 := congrFun (idx1_4 t) 0
  have h1 : win1_4.index t 1 = 0 := congrFun (idx1_4 t) 1
  funext j
  unfold Agg.iblk1
  rw [View.read_apply]
  show V c main_arg10 _ = V c main_arg10 j
  congr 1
  funext a
  apply Fin.ext
  match a with
  | ⟨0, _⟩ => show win1_4.index t 0 * 32 + 1 * (j 0).val = (j 0).val; rw [h0]; omega
  | ⟨1, _⟩ => show win1_4.index t 1 * 1 + 1 * (j 1).val = (j 1).val; rw [h1]; omega

/-- Window 5's block is its whole array at every point. -/
theorem iblk1_5 (c : Dev nD) (t : Fin cfg1.N) : (Agg.iblk1 V c 5 t : Vec F S16x32 .f32) = V c main_arg11 := by
  have h0 : win1_5.index t 0 = 0 := congrFun (idx1_5 t) 0
  have h1 : win1_5.index t 1 = 0 := congrFun (idx1_5 t) 1
  funext j
  unfold Agg.iblk1
  rw [View.read_apply]
  show V c main_arg11 _ = V c main_arg11 j
  congr 1
  funext a
  apply Fin.ext
  match a with
  | ⟨0, _⟩ => show win1_5.index t 0 * 16 + 1 * (j 0).val = (j 0).val; rw [h0]; omega
  | ⟨1, _⟩ => show win1_5.index t 1 * 32 + 1 * (j 1).val = (j 1).val; rw [h1]; omega

/-- Window 6's block is its whole array at every point. -/
theorem iblk1_6 (c : Dev nD) (t : Fin cfg1.N) : (Agg.iblk1 V c 6 t : Vec F S16x1 .f32) = V c main_arg12 := by
  have h0 : win1_6.index t 0 = 0 := congrFun (idx1_6 t) 0
  have h1 : win1_6.index t 1 = 0 := congrFun (idx1_6 t) 1
  funext j
  unfold Agg.iblk1
  rw [View.read_apply]
  show V c main_arg12 _ = V c main_arg12 j
  congr 1
  funext a
  apply Fin.ext
  match a with
  | ⟨0, _⟩ => show win1_6.index t 0 * 16 + 1 * (j 0).val = (j 0).val; rw [h0]; omega
  | ⟨1, _⟩ => show win1_6.index t 1 * 1 + 1 * (j 1).val = (j 1).val; rw [h1]; omega

end Cert.ReferenceIdeal.RefArr

end
-- ==== Proof.RefValue.lean ====
/-
  The reference's output tiles are the network's values.

  The node kernel leaves, tile by tile, the hidden features and the messages of all nodes (each a composition of dense
  layers on columns of the transposed feature matrix, so a tile of the result is the result of the tile). The
  aggregation kernel reads tile j of the messages and tile (j, i) of the transposed adjacency at grid point 8 i + j,
  accumulates their products over j, and at j = 7 writes two more layers of the accumulator plus tile i of the hidden
  features: the network at the nodes of tile i.
-/
import proofs.«145942_g2000600855469178_pallasbulk_547_29_alg».proof.Proof.RefAccum
import proofs.«145942_g2000600855469178_pallasbulk_547_29_alg».proof.Proof.RefMlpArray
import proofs.«145942_g2000600855469178_pallasbulk_547_29_alg».proof.Proof.RefAggArray
import proofs.«145942_g2000600855469178_pallasbulk_547_29_alg».proof.Proof.RefAggRegion

open scoped BigOperators

noncomputable section

namespace Cert.ReferenceIdeal.RefValue

open Idealize.ShloMosaic Idealize.ShloMosaic.TcCoe Idealize.ShloMosaic.ValueIdx Cert.GcnSpec Cert.ReferenceIdeal Cert.ReferenceIdeal.Gen
open Cert.ReferenceIdeal.Reads Cert.ReferenceIdeal.Accum Cert.ReferenceIdeal.RefArr

variable (V1 V2 : (c : Dev nD) → (b : Ref sig .tc) → Buf (Elt Ideal) ((c : Thread nD τ).loc b)) (c : Dev nD)

/-- The messages of all nodes, from the arrays the node kernel finds. -/
abbrev msgAll : Fin 16 → Fin 4096 → EReal :=
  layer (mat (V1 c main_arg7 : S16x32.Idx → EReal)) (col (V1 c main_arg8 : S16x1.Idx → EReal))
    (layer (mat (V1 c main_arg5 : S32x16.Idx → EReal)) (col (V1 c main_arg6 : S32x1.Idx → EReal))
      (layer (mat (V1 c main_arg3 : S16x10.Idx → EReal)) (col (V1 c main_arg4 : S16x1.Idx → EReal))
        (mat (V1 c main_v20 : S10x4096.Idx → EReal))))

/-- The hidden features of all nodes. -/
abbrev hidAll : Fin 16 → Fin 4096 → EReal :=
  layer (mat (V1 c main_arg3 : S16x10.Idx → EReal)) (col (V1 c main_arg4 : S16x1.Idx → EReal))
    (mat (V1 c main_v20 : S10x4096.Idx → EReal))

theorem lt8' (j : Fin 8) : j.val < 8 := j.isLt

/-- Tile `j` of the node kernel, as a grid point. -/
def pt0 (j : Fin 8) : Fin cfg0.N := ⟨j.val, lt_of_lt_of_eq j.isLt N_0.symm⟩

/-- The feature tile the node kernel reads at point `j` is tile `j` of the transposed feature matrix. -/
theorem feat_tile (j : Fin 8) :
    mat (Mlp.iblk0 V1 c 0 (pt0 j) : S10x512.Idx → EReal) = tile j (mat (V1 c main_v20 : S10x4096.Idx → EReal)) := by
  rw [iblk0_0]
  rfl

/-- Tile `j` of the messages array at (o, k). -/
theorem msgArr_apply (j : Fin 8) (o : Fin 16) (k : Fin 512) :
    (msgArr V1 c : S16x4096.Idx → EReal) (ix2 o (node j k)) = msgAll V1 c o (node j k) := by
  have h := msgArr_tile V1 c (pt0 j) (ix2 o k) (by show 512 * j.val + k.val < 4096; omega)
  rw [show (ix2 (n0 := 16) (n1 := 4096) ((ix2 o k : S16x512.Idx) 0) ⟨512 * (pt0 j).val + ((ix2 o k : S16x512.Idx) 1).val, _⟩ : S16x4096.Idx)
      = ix2 o (node j k) from rfl] at h
  rw [h, Mlp.after0_8, msg_apply, iblk0_1, iblk0_2, iblk0_3, iblk0_4, iblk0_5, iblk0_6, feat_tile]
  rfl

/-- Tile `j` of the hidden-features array at (o, k). -/
theorem hidArr_apply (j : Fin 8) (o : Fin 16) (k : Fin 512) :
    (hidArr V1 c : S16x4096.Idx → EReal) (ix2 o (node j k)) = hidAll V1 c o (node j k) := by
  have h := hidArr_tile V1 c (pt0 j) (ix2 o k) (by show 512 * j.val + k.val < 4096; omega)
  rw [show (ix2 (n0 := 16) (n1 := 4096) ((ix2 o k : S16x512.Idx) 0) ⟨512 * (pt0 j).val + ((ix2 o k : S16x512.Idx) 1).val, _⟩ : S16x4096.Idx)
      = ix2 o (node j k) from rfl] at h
  rw [h, Mlp.after0_7, hid_apply, iblk0_1, iblk0_2, feat_tile]
  rfl

/-- What the aggregation kernel writes for destination tile `i` is the network at the tile's nodes. -/
theorem out_tile_apply
    (hmsg : (V2 c main_v25_1 : S16x4096.Idx → EReal) = msgArr V1 c)
    (hhid : (V2 c main_v25_0 : S16x4096.Idx → EReal) = hidArr V1 c)
    (adj : Fin 4096 → Fin 4096 → EReal)
    (hadj : ∀ s d : Fin 4096, (V2 c main_v24 : S4096x4096.Idx → EReal) (ix2 s d) = adj d s)
    (i : Fin 8) (o : Fin 16) (q : Fin 512) :
    (Agg.accAt V2 c (point i 7).val (point i 7).isLt).1 (ix2 o q)
      = network (mat (V1 c main_v20 : S10x4096.Idx → EReal))
          (mat (V1 c main_arg3 : S16x10.Idx → EReal)) (col (V1 c main_arg4 : S16x1.Idx → EReal))
          (mat (V1 c main_arg5 : S32x16.Idx → EReal)) (col (V1 c main_arg6 : S32x1.Idx → EReal))
          (mat (V1 c main_arg7 : S16x32.Idx → EReal)) (col (V1 c main_arg8 : S16x1.Idx → EReal))
          (mat (V2 c main_arg9 : S32x16.Idx → EReal)) (col (V2 c main_arg10 : S32x1.Idx → EReal))
          (mat (V2 c main_arg11 : S16x32.Idx → EReal)) (col (V2 c main_arg12 : S16x1.Idx → EReal))
          adj o (node i q) := by
  rw [Agg.accAt_out, iblk1_3, iblk1_4, iblk1_5, iblk1_6]
  refine out_tile _ _ _ _ _ _ _ adj (fun n h => (Agg.accAt V2 c n h).2) (fun t => Agg.iblk1 V2 c 0 t) (fun t => Agg.iblk1 V2 c 1 t)
    (fun t h => Agg.accAt_first V2 c t h) (fun t h => Agg.accAt_step V2 c t h) i
    (fun j o' k => ?_) (fun j k q' => ?_) _ _ _ _ _ (fun o' q' => ?_) o q
  · rw [iblk1_0, hmsg]
    have e : (ix2 (n0 := 16) (n1 := 4096) ((ix2 o' k : S16x512.Idx) 0) ⟨512 * ((point i j).val % 8) + ((ix2 o' k : S16x512.Idx) 1).val, tile_lt (mod8_lt (point i j)) (idx2_lt1 (ix2 o' k : S16x512.Idx))⟩ : S16x4096.Idx)
        = ix2 o' (node j k) := by
      refine congrArg (ix2 o') (Fin.ext ?_)
      show 512 * ((8 * i.val + j.val) % 8) + k.val = 512 * j.val + k.val
      have := j.isLt; omega
    show (msgArr V1 c : S16x4096.Idx → EReal) _ = _
    rw [e]
    exact msgArr_apply V1 c j o' k
  · rw [iblk1_1]
    have e : (ix2 (n0 := 4096) (n1 := 4096)
          ⟨512 * ((point i j).val % 8) + ((ix2 k q' : S512x512.Idx) 0).val, tile_lt (mod8_lt (point i j)) (idx2_lt0 (ix2 k q' : S512x512.Idx))⟩
          ⟨512 * ((point i j).val / 8) + ((ix2 k q' : S512x512.Idx) 1).val, tile_lt (div8_lt (point i j)) (idx2_lt1 (ix2 k q' : S512x512.Idx))⟩ : S4096x4096.Idx)
        = ix2 (node j k) (node i q') := by
      refine congrArg₂ ix2 (Fin.ext ?_) (Fin.ext ?_)
      · show 512 * ((8 * i.val + j.val) % 8) + k.val = 512 * j.val + k.val
        have := j.isLt; omega
      · show 512 * ((8 * i.val + j.val) / 8) + q'.val = 512 * i.val + q'.val
        have := j.isLt; omega
    show (V2 c main_v24 : S4096x4096.Idx → EReal) _ = _
    rw [e]
    exact hadj _ _
  · rw [iblk1_2, hhid]
    have e : (ix2 (n0 := 16) (n1 := 4096) ((ix2 o' q' : S16x512.Idx) 0) ⟨512 * ((point i 7).val / 8) + ((ix2 o' q' : S16x512.Idx) 1).val, tile_lt (div8_lt (point i 7)) (idx2_lt1 (ix2 o' q' : S16x512.Idx))⟩ : S16x4096.Idx)
        = ix2 o' (node i q') := by
      refine congrArg (ix2 o') (Fin.ext ?_)
      show 512 * ((8 * i.val + 7) / 8) + q'.val = 512 * i.val + q'.val
      omega
    show (hidArr V1 c : S16x4096.Idx → EReal) _ = _
    rw [e]
    exact hidArr_apply V1 c i o' q'

end Cert.ReferenceIdeal.RefValue

end
-- ==== Proof.RefAggArray2.lean ====
/-
  The whole result of the aggregation region. Output block i (columns 512 i .. 512 i + 511 of the [16, 4096] array) is
  written back once, after the last point 8 i + 7 of its row, from the staging buffer that then holds the update of the
  row's accumulated sum plus residual block i; the eight blocks tile the array. So the array ends holding, at column n,
  tile n / 512 at lane n % 512.
-/
import proofs.«145942_g2000600855469178_pallasbulk_547_29_alg».proof.Proof.RefAggRegion
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.ReferenceIdeal.Agg

open Cert.ReferenceIdeal Cert.ReferenceIdeal.Gen

variable {F : FTy → Type} [FloatOps F]

variable (V : (c : Dev nD) → (b : Ref sig .tc) → Buf (Elt F) ((c : Thread nD τ).loc b))

theorem lt64 (t : Fin cfg1.N) : t.val < 64 := lt_of_lt_of_eq t.isLt N_1

/-- The output window's block index at point t = 8 i + j is (0, i). -/
theorem idx1_7 : ∀ t : Fin cfg1.N, win1_7.index t = ![0, t.val / 8] :=
  (by decide +kernel : ∀ t : Fin grid1.N, win1_7.index t = ![0, t.val / 8])

theorem accAt_congr (c : Dev nD) {n n' : ℕ} (h : n = n') (hn : n < cfg1.N) (hn' : n' < cfg1.N) :
    accAt V c n hn = accAt V c n' hn' := by subst h; rfl

/-- The tile written for destination tile i: what the output's staging buffer holds after the last point of row i. -/
def outTile (c : Dev nD) (i : Fin 8) : Vec F S16x512 .f32 :=
  (accAt V c (8 * i.val + 7) (by have := i.isLt; rw [show cfg1.N = 64 from N_1]; omega)).1

/-- The region's [16, 4096] result as one function of the buffers the region finds. -/
def outArrR (c : Dev nD) : Vec F S16x4096 .f32 := fun y =>
  outTile V c ⟨(y 1).val / 512, by have := ValueIdx.idx2_lt1 y; omega⟩
    (ValueIdx.ix2 (n0 := 16) (n1 := 512) (y 0) ⟨(y 1).val % 512, Nat.mod_lt _ (by decide)⟩)

theorem outTile_congr (c : Dev nD) {i i' : Fin 8} (hi : i = i') {y y' : S16x512.Idx} (hy : y = y') :
    outTile V c i y = outTile V c i' y' := by subst hi; subst hy; rfl

/-- At row y 0 and column 512 i + y 1 the array reads tile i at y. -/
theorem outArrR_tile (c : Dev nD) (i : Fin 8) (y : S16x512.Idx) (h : 512 * i.val + (y 1).val < 4096) :
    outArrR V c (ValueIdx.ix2 (n0 := 16) (n1 := 4096) (y 0) ⟨512 * i.val + (y 1).val, h⟩) = outTile V c i y := by
  have hy : (y 1).val < 512 := ValueIdx.idx2_lt1 y
  have e1 : (512 * i.val + (y 1).val) / 512 = i.val := by omega
  have e2 : (512 * i.val + (y 1).val) % 512 = (y 1).val := by omega
  unfold outArrR
  exact outTile_congr V c (Fin.ext e1) (by
    funext a
    match a with
    | ⟨0, _⟩ => rfl
    | ⟨1, _⟩ => exact Fin.ext e2)

/-- What a point that writes back (t ≡ 7 mod 8) writes is block t / 8 of that array. -/
theorem flushedR_eq (c : Dev nD) (t : Fin cfg1.N) (hf : (cfg1.win 7).flush t = true) :
    (dat1 V c).flushed 7 t = ((cfg1.win 7).blk t).view.read (Elt F) (outArrR V c) := by
  have h7 : t.val % 8 = 7 := (flush1_7 t).mp hf
  have ht := lt64 t
  have h0 : win1_7.index t 0 = 0 := congrFun (idx1_7 t) 0
  have h1 : win1_7.index t 1 = t.val / 8 := congrFun (idx1_7 t) 1
  show (cfg1.win 7).cut (grid1.coords t) ((dat1 V c).after 7 t) = _
  rw [after1_7]
  funext y
  rw [View.read_apply]
  have hy : (y 1).val < 512 := ValueIdx.idx2_lt1 y
  have e : ((cfg1.win 7).blk t).view.emb y = ValueIdx.ix2 (n0 := 16) (n1 := 4096) (y 0) ⟨512 * (t.val / 8) + (y 1).val, by omega⟩ := by
    funext a
    apply Fin.ext
    match a with
    | ⟨0, _⟩ => show win1_7.index t 0 * 16 + 1 * (y 0).val = (y 0).val; rw [h0]; omega
    | ⟨1, _⟩ => show win1_7.index t 1 * 512 + 1 * (y 1).val = 512 * (t.val / 8) + (y 1).val; rw [h1]; omega
  rw [e]
  exact ((outArrR_tile V c ⟨t.val / 8, by omega⟩ y _).trans
    (congrFun (congrArg Prod.fst (accAt_congr V c (show 8 * (t.val / 8) + 7 = t.val by omega) _ t.isLt)) y)).symm

/-- An index of the array is in point t's block iff each coordinate is in the block's range on its axis. -/
theorem mem_blkR (t : Fin cfg1.N) (i : S16x4096.Idx) :
    i ∈ ((cfg1.win 7).blk t).view.set ↔ ∀ a : Fin 2, win1_7.index t a * S16x512.size a ≤ (i a).val ∧ (i a).val < win1_7.index t a * S16x512.size a + S16x512.size a := by
  show i ∈ ((View.whole main_v26).slice (win1_7.rect t)).set ↔ _
  rw [View.set_slice_whole, Rect.mem_set_unit]
  exact Iff.rfl

/-- Every index of the array is in the block written back after the last point of its column's tile's row. -/
theorem coverR (i : S16x4096.Idx) :
    ∃ t : Fin cfg1.N, (cfg1.win 7).flush t = true ∧ i ∈ ((cfg1.win 7).blk t).view.set := by
  have hi0 : (i 0).val < 16 := ValueIdx.idx2_lt0 i
  have hi1 : (i 1).val < 4096 := ValueIdx.idx2_lt1 i
  have hT : 8 * ((i 1).val / 512) + 7 < cfg1.N := by rw [show cfg1.N = 64 from N_1]; omega
  refine ⟨⟨8 * ((i 1).val / 512) + 7, hT⟩, (flush1_7 _).mpr (by show (8 * ((i 1).val / 512) + 7) % 8 = 7; omega), ?_⟩
  have h0 : win1_7.index ⟨8 * ((i 1).val / 512) + 7, hT⟩ 0 = 0 := congrFun (idx1_7 _) 0
  have h1 : win1_7.index ⟨8 * ((i 1).val / 512) + 7, hT⟩ 1 = (8 * ((i 1).val / 512) + 7) / 8 := congrFun (idx1_7 _) 1
  rw [mem_blkR]
  intro a
  match a with
  | ⟨0, _⟩ =>
    show win1_7.index ⟨8 * ((i 1).val / 512) + 7, hT⟩ 0 * 16 ≤ (i 0).val ∧ (i 0).val < win1_7.index ⟨8 * ((i 1).val / 512) + 7, hT⟩ 0 * 16 + 16
    rw [h0]; omega
  | ⟨1, _⟩ =>
    show win1_7.index ⟨8 * ((i 1).val / 512) + 7, hT⟩ 1 * 512 ≤ (i 1).val ∧ (i 1).val < win1_7.index ⟨8 * ((i 1).val / 512) + 7, hT⟩ 1 * 512 + 512
    rw [h1]; omega

/-- So the result array ends holding outArrR. -/
theorem final1 (c : Dev nD) : (dat1 V c).arrAt 7 cfg1.N = outArrR V c :=
  (dat1 V c).arrAt_eq_of_cover 7 (outArrR V c) (flushedR_eq V c) fun i => coverR i

end Cert.ReferenceIdeal.Agg

end
-- ==== Proof.LibWholeScatter.lean ====
/-
  A scatter of ONE window that is the whole operand.

  When every update index lands on the operand index with the same coordinates (no scattered axis, the window
  axes the operand's axes in order, so every start is zero), the row-major fold of the scatter visits each operand
  element exactly once, with its own update: the result at i is the body applied to the operand's element and the
  update's element at i. With the body returning the update this is the update itself (the `.at[...].set` of a whole
  array), and with addition over a zero operand it is the update again (the `.at[...].add` into zeros).
-/
import Idealize.ShloMosaic.PureOps.ShapeOps
import Idealize.ShloMosaic.PureOps.Ideal

namespace Cert.Lib.WholeScatter

open Idealize.ShloMosaic

/-- A fold of single-position updates, at a position none of the steps names. -/
theorem foldl_miss {ι α β : Type} [DecidableEq ι] (g : β → ι) (f : α → α → α) (upd : β → α) (L : List β) (x : ι → α) (i : ι)
    (h : ∀ n ∈ L, g n ≠ i) :
    (L.foldl (fun r n => fun i' => if i' = g n then f (r (g n)) (upd n) else r i') x) i = x i := by
  induction L generalizing x with
  | nil => rfl
  | cons n L ih =>
    rw [List.foldl_cons, ih _ (fun k hk => h k (List.mem_cons_of_mem _ hk))]
    exact if_neg (fun e => h n (List.mem_cons_self) e.symm)

/-- A fold of single-position updates over distinct positions, at the position one step names. -/
theorem foldl_hit {ι α β : Type} [DecidableEq ι] (g : β → ι) (hg : Function.Injective g) (f : α → α → α) (upd : β → α)
    (L : List β) (hL : L.Nodup) (x : ι → α) (n₀ : β) (h₀ : n₀ ∈ L) :
    (L.foldl (fun r n => fun i' => if i' = g n then f (r (g n)) (upd n) else r i') x) (g n₀) = f (x (g n₀)) (upd n₀) := by
  induction L generalizing x with
  | nil => exact absurd h₀ List.not_mem_nil
  | cons n L ih =>
    rw [List.foldl_cons]
    rcases List.mem_cons.mp h₀ with rfl | hmem
    · rw [foldl_miss g f upd L _ (g n₀) (fun k hk e => (List.nodup_cons.mp hL).1 (hg e ▸ hk))]
      exact if_pos rfl
    · rw [ih (List.nodup_cons.mp hL).2 _ hmem]
      refine congrArg (fun z => f z (upd n₀)) (if_neg fun e => ?_)
      exact (List.nodup_cons.mp hL).1 (hg e ▸ hmem)

variable {s si : Shape} {w : Nat} {α : Type}

/-- A scatter all of whose update indices land on themselves applies the body element by element. -/
theorem scatter_apply (d : ScatterDims s si s) (f : α → α → α) (x : s.Idx → α) (idx : IVec si w) (upd : s.Idx → α)
    (hres : ∀ j : s.Idx, d.resultIdx? j idx = some j) (i : s.Idx) :
    Host.scatter d f x idx upd i = f (x i) (upd i) := by
  classical
  unfold Host.scatter
  simp only [hres]
  have := foldl_hit (fun n => s.rowMajor.symm n) s.rowMajor.symm.injective f (fun n => upd (s.rowMajor.symm n))
    (List.finRange s.numel) (List.nodup_finRange _) x (s.rowMajor i) (List.mem_finRange _)
  simpa using this

/-- For a rank-2 operand with no scattered axis and both axes window axes in order, every update index lands on
    itself. -/
theorem resultIdx_whole2 {a b : ℕ} (d : ScatterDims ⟨2, ![a, b]⟩ si ⟨2, ![a, b]⟩) (idx : IVec si w)
    (hw : d.updateWindowDims = [0, 1]) (hi : d.insertedWindowDims = []) (hs : d.scatterDimsToOperandDims = [])
    (j : (⟨2, ![a, b]⟩ : Shape).Idx) : d.resultIdx? j idx = some j := by
  have hstart : ∀ ax, d.start j idx ax = 0 := fun ax => by
    unfold ScatterDims.start
    rw [dif_neg (by rw [hs]; exact List.not_mem_nil)]
  have hkept : d.sKept = [0, 1] := by
    unfold ScatterDims.sKept Shape.kept
    rw [hi]; rfl
  have hwin : ∀ ax, d.window j ax = (j ax).val := fun ax => by
    unfold ScatterDims.window
    have hmem : ax ∈ d.sKept := by rw [hkept]; fin_cases ax <;> simp
    rw [dif_pos hmem]
    have key : ∀ (l₁ l₂ : List (Fin 2)) (h : l₂.idxOf ax < l₁.length), l₁ = [0, 1] → l₂ = [0, 1] → l₁[l₂.idxOf ax]'h = ax := by
      intro l₁ l₂ h e₁ e₂
      subst e₁; subst e₂
      fin_cases ax <;> rfl
    exact congrArg (fun z => (j z).val) (key _ _ _ hw hkept)
  unfold ScatterDims.resultIdx?
  rw [dif_pos (fun ax => by rw [hstart, hwin]; exact ⟨by omega, by have := (j ax).isLt; omega⟩)]
  refine congrArg some (funext fun ax => Fin.ext ?_)
  show (d.start j idx ax + d.window j ax).toNat = (j ax).val
  rw [hstart, hwin]; omega

end Cert.Lib.WholeScatter
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.HostGlue.lean ====
/-
  The host operations in front of the kernels, compared.

  Both programs compute the same transposed feature matrix from the same arguments: the real features divided by
  their column-wise largest magnitude plus a small constant, beside the rows of the embedding table the category
  indices name, transposed. The reference additionally adds the gathered rows into an array of zeros and writes the
  transposed matrix over an array of zeros — scatters of ONE window that is the whole array, which leave exactly the
  updates —, and it lays the adjacency matrix out transposed (again written over zeros, then changed to the narrower
  float format, which is the identity at the ideal values).
-/
import proofs.«145942_g2000600855469178_pallasbulk_547_29_alg».proof.Proof.Gen.KernelIdeal.Launch
import proofs.«145942_g2000600855469178_pallasbulk_547_29_alg».proof.Proof.Gen.ReferenceIdeal.Launch
import proofs.«145942_g2000600855469178_pallasbulk_547_29_alg».proof.Proof.LibWholeScatter
import proofs.«145942_g2000600855469178_pallasbulk_547_29_alg».proof.Proof.LibColumnReshape
import Idealize.ShloMosaic.Lib.StableHlo.Run
import Idealize.ShloMosaic.PureOps.Ideal
import Idealize.ShloMosaic.PureOps.Ideal.Laws
import Idealize.ShloMosaic.Lib.ValueIdx

set_option maxHeartbeats 2000000

noncomputable section

namespace Cert.HostGlue

open Idealize.ShloMosaic Idealize.ShloMosaic.TcCoe Idealize.SL.Sem Idealize.ShloMosaic.ValueIdx

/-- Writing a whole rank-2 array over another leaves the written array. -/
theorem scatter_set_whole {a b : ℕ} {si : Shape} {w : ℕ} {α : Type} (d : ScatterDims ⟨2, ![a, b]⟩ si ⟨2, ![a, b]⟩)
    (hw : d.updateWindowDims = [0, 1]) (hi : d.insertedWindowDims = []) (hs : d.scatterDimsToOperandDims = [])
    (x : (⟨2, ![a, b]⟩ : Shape).Idx → α) (idx : IVec si w) (u : (⟨2, ![a, b]⟩ : Shape).Idx → α) :
    Host.scatter d (fun _ y => y) x idx u = u :=
  funext fun i => Cert.Lib.WholeScatter.scatter_apply d _ x idx u (Cert.Lib.WholeScatter.resultIdx_whole2 d idx hw hi hs) i

/-- Adding a whole rank-2 array into zeros leaves the added array. -/
theorem scatter_add_zero_whole {a b : ℕ} {si : Shape} {w : ℕ} (d : ScatterDims ⟨2, ![a, b]⟩ si ⟨2, ![a, b]⟩)
    (hw : d.updateWindowDims = [0, 1]) (hi : d.insertedWindowDims = []) (hs : d.scatterDimsToOperandDims = [])
    (x : FVec Ideal ⟨2, ![a, b]⟩ .f32) (hx : ∀ i, x i = 0) (idx : IVec si w) (u : FVec Ideal ⟨2, ![a, b]⟩ .f32) :
    Host.scatter d FloatOps.addf x idx u = u :=
  funext fun i => (Cert.Lib.WholeScatter.scatter_apply d _ x idx u (Cert.Lib.WholeScatter.resultIdx_whole2 d idx hw hi hs) i).trans
    (by rw [hx i]; exact zero_add _)

/-- A transposed side-by-side pair is determined by its two pieces. -/
theorem transpose_pair_congr {α : Type} {a b n : ℕ}
    (hc hc' : Shape.Concatenates [(⟨2, ![a, b]⟩ : Shape), ⟨2, ![a, b]⟩] ⟨2, ![a, n]⟩ 1)
    (ht ht' : (⟨2, ![a, n]⟩ : Shape).Transposes [1, 0] ⟨2, ![n, a]⟩) (x x' y y' : (⟨2, ![a, b]⟩ : Shape).Idx → α)
    (hx : x = x') (hy : y = y') :
    transpose ⟨2, ![n, a]⟩ [1, 0] (concatenate ⟨2, ![a, n]⟩ 1 [⟨⟨2, ![a, b]⟩, x⟩, ⟨⟨2, ![a, b]⟩, y⟩] hc) ht
      = transpose ⟨2, ![n, a]⟩ [1, 0] (concatenate ⟨2, ![a, n]⟩ 1 [⟨⟨2, ![a, b]⟩, x'⟩, ⟨⟨2, ![a, b]⟩, y'⟩] hc') ht' := by
  subst hx; subst hy; rfl

/-- A splat of the zero word is zero everywhere. -/
theorem splat_zero {s : Shape} (h : (⟨0, ![]⟩ : Shape).BroadcastsInDim s ![]) (i : s.Idx) :
    broadcastInDim s ![] h (constant (F := Ideal) ⟨0, ![]⟩ .f32 0x00000000#32) i = 0 :=
  (broadcastInDim_apply ![] h _ i ix0 (fun ax => ax.elim0)).trans Ideal.ofBits_zero_f32

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' transposed feature matrices are the same array. -/
theorem features_eq
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (StableHlo.after (Cert.ReferenceIdeal.Gen.hostOps0 (F := Ideal)) (fun b => m' (c, b)) (Proc.devRef .tc Cert.ReferenceIdeal.main_v20) : Cert.KernelIdeal.S10x4096.Idx → EReal)
      = StableHlo.after (Cert.KernelIdeal.Gen.hostOps0 (F := Ideal)) (fun b => m (c, b)) (Proc.devRef .tc Cert.KernelIdeal.main_v16) := by
  unfold Cert.ReferenceIdeal.Gen.hostOps0 Cert.KernelIdeal.Gen.hostOps0
  after_results_simp
  rw [scatter_set_whole _ rfl rfl rfl]
  have h1' : m' (c, Proc.devRef .tc Cert.ReferenceIdeal.main_arg1) = m (c, Proc.devRef .tc Cert.KernelIdeal.main_arg1) := h1
  have h2' : m' (c, Proc.devRef .tc Cert.ReferenceIdeal.main_arg2) = m (c, Proc.devRef .tc Cert.KernelIdeal.main_arg2) := h2
  have h13' : m' (c, Proc.devRef .tc Cert.ReferenceIdeal.main_arg13) = m (c, Proc.devRef .tc Cert.KernelIdeal.main_arg13) := h13
  refine transpose_pair_congr _ _ _ _ _ _ _ _ ?_ ?_
  · after_results_simp
    rw [h1']
  · after_results_simp
    rw [scatter_add_zero_whole _ rfl rfl rfl _ (splat_zero _), h2', h13']
    rfl

/-- The reference's transposed adjacency at (source, destination) is the adjacency at (destination, source). -/
theorem adjT_apply (s d : Fin 4096) :
    (StableHlo.after (Cert.ReferenceIdeal.Gen.hostOps0 (F := Ideal)) (fun b => m' (c, b)) (Proc.devRef .tc Cert.ReferenceIdeal.main_v24) : Cert.ReferenceIdeal.S4096x4096.Idx → EReal) (ix2 s d)
      = (m' (c, Proc.devRef .tc Cert.ReferenceIdeal.main_arg0) : Cert.ReferenceIdeal.S4096x4096.Idx → EReal) (ix2 d s) := by
  unfold Cert.ReferenceIdeal.Gen.hostOps0
  after_results_simp
  rw [truncf_apply, scatter_set_whole _ rfl rfl rfl]
  exact Cert.Lib.ColumnReshape.transpose_ab_apply _ _ s d
end

end Cert.HostGlue

end
-- ==== Proof.RefFinal.lean ====
/-
  The reference program's result is the transpose of the network's values.

  The aggregation kernel's output array is, tile by tile, the network at the tile's nodes, computed from the arrays the
  two kernels were entered with: the transposed feature matrix and the weights as the host operations left them, the
  messages and hidden features as the node kernel left them, and the transposed adjacency.
-/
import proofs.«145942_g2000600855469178_pallasbulk_547_29_alg».proof.Proof.RefRunInst
import proofs.«145942_g2000600855469178_pallasbulk_547_29_alg».proof.Proof.RefValue
import proofs.«145942_g2000600855469178_pallasbulk_547_29_alg».proof.Proof.RefAggArray2
import proofs.«145942_g2000600855469178_pallasbulk_547_29_alg».proof.Proof.HostGlue

open scoped BigOperators

noncomputable section

namespace Cert.ReferenceIdeal.RefFinal

open Idealize.ShloMosaic Idealize.ShloMosaic.TcCoe Idealize.ShloMosaic.ValueIdx Cert.GcnSpec Cert.ReferenceIdeal Cert.ReferenceIdeal.Gen
open Cert.ReferenceIdeal.Reads Cert.ReferenceIdeal.Accum Cert.ReferenceIdeal.RefArr Cert.ReferenceIdeal.RefRun

variable (m : (ℓ : Loc nD τ sig) → Buf (Elt Ideal) ℓ) (c : Dev nD)

/-- The network over the reference's arguments and its transposed feature matrix. -/
def net (o : Fin 16) (n : Fin 4096) : EReal :=
  network (mat (V1 m c main_v20 : S10x4096.Idx → EReal))
    (mat (m (c, Proc.devRef .tc main_arg3) : S16x10.Idx → EReal)) (col (m (c, Proc.devRef .tc main_arg4) : S16x1.Idx → EReal))
    (mat (m (c, Proc.devRef .tc main_arg5) : S32x16.Idx → EReal)) (col (m (c, Proc.devRef .tc main_arg6) : S32x1.Idx → EReal))
    (mat (m (c, Proc.devRef .tc main_arg7) : S16x32.Idx → EReal)) (col (m (c, Proc.devRef .tc main_arg8) : S16x1.Idx → EReal))
    (mat (m (c, Proc.devRef .tc main_arg9) : S32x16.Idx → EReal)) (col (m (c, Proc.devRef .tc main_arg10) : S32x1.Idx → EReal))
    (mat (m (c, Proc.devRef .tc main_arg11) : S16x32.Idx → EReal)) (col (m (c, Proc.devRef .tc main_arg12) : S16x1.Idx → EReal))
    (mat (m (c, Proc.devRef .tc main_arg0) : S4096x4096.Idx → EReal)) o n

/-- An argument the host operations do not write is found by the first kernel as launched. -/
theorem V1_arg (r : Ref sig .tc) (h : r ∉ wr0) : V1 m c r = m (c, Proc.devRef .tc r) := W1_keep m c r h

/-- The aggregation kernel's output array at (o, n) is the network at node `n`. -/
theorem outArrR_apply (o : Fin 16) (n : Fin 4096) :
    (Agg.outArrR (V2 m) c : S16x4096.Idx → EReal) (ix2 o n) = net m c o n := by
  have hn : n.val / 512 < 8 := by have := n.isLt; omega
  have h := RefValue.out_tile_apply (V1 m) (V2 m) c
    ((V2_main_v25_1 m c).trans (final8 (V1 m) c)) ((V2_main_v25_0 m c).trans (final7 (V1 m) c))
    (mat (m (c, Proc.devRef .tc main_arg0) : S4096x4096.Idx → EReal))
    (fun s d => by
      rw [V2_main_v24]
      exact Cert.HostGlue.adjT_apply m c s d)
    ⟨n.val / 512, hn⟩ o ⟨n.val % 512, Nat.mod_lt _ (by decide)⟩
  rw [show node ⟨n.val / 512, hn⟩ ⟨n.val % 512, Nat.mod_lt _ (by decide)⟩ = n from node_div_mod n,
    V2_main_arg9, V2_main_arg10, V2_main_arg11, V2_main_arg12,
    V1_arg m c main_arg3 (by decide), V1_arg m c main_arg4 (by decide), V1_arg m c main_arg5 (by decide),
    V1_arg m c main_arg6 (by decide), V1_arg m c main_arg7 (by decide), V1_arg m c main_arg8 (by decide),
    V1_arg m c main_arg9 (by decide), V1_arg m c main_arg10 (by decide), V1_arg m c main_arg11 (by decide),
    V1_arg m c main_arg12 (by decide)] at h
  exact h

end Cert.ReferenceIdeal.RefFinal

end
-- ==== Proof.lean ====
/-
  A fused graph-convolution kernel against its two-kernel reference, over the extended reals.

  Both programs compute, for every node n and output feature o,
      relu (Wa2 · relu (Wa1 · f + ba1) + ba2) (o, n) + hid (o, n),   f (o, n) = Σ_s msg (o, s) · adj (n, s),
  where hid = relu (Wh · x + bh) and msg = relu (W2 · relu (W1 · hid + b1) + b2) are dense layers on the columns of the
  transposed feature matrix x (real features divided by their column-wise largest magnitude plus a small constant, beside
  the gathered embedding rows). The fused kernel computes hid and msg for all nodes at the first grid point of each core
  and keeps them; at every grid point it contracts msg with 512 rows of the adjacency matrix over all 4096 sources at
  once. The reference computes hid and msg tile by tile in a first kernel, and in a second accumulates, for each
  destination tile, the products of a message tile with a tile of the transposed adjacency over the eight source tiles.
  The two agree because every layer acts column by column, because a sum over the 4096 sources is the sum over the
  tiles of the sums within a tile (addition of extended reals is commutative and associative: no finiteness is needed),
  and because a change to a narrower float format and back is the identity at the ideal values.
-/
import proofs.«145942_g2000600855469178_pallasbulk_547_29_alg».proof.Defs
import proofs.«145942_g2000600855469178_pallasbulk_547_29_alg».proof.Proof.Gen.Kernel
import proofs.«145942_g2000600855469178_pallasbulk_547_29_alg».proof.Proof.Gen.Kernel.Frame
import proofs.«145942_g2000600855469178_pallasbulk_547_29_alg».proof.Proof.Gen.KernelIdeal
import proofs.«145942_g2000600855469178_pallasbulk_547_29_alg».proof.Proof.Gen.KernelIdeal.Frame
import proofs.«145942_g2000600855469178_pallasbulk_547_29_alg».proof.Proof.Gen.ReferenceIdeal
import proofs.«145942_g2000600855469178_pallasbulk_547_29_alg».proof.Proof.Gen.Pre_finite_inputs
import proofs.«145942_g2000600855469178_pallasbulk_547_29_alg».proof.Proof.KernelValue
import proofs.«145942_g2000600855469178_pallasbulk_547_29_alg».proof.Proof.RefFinal
import proofs.«145942_g2000600855469178_pallasbulk_547_29_alg».proof.Proof.HostGlue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames of the fused kernel, and its idealization's one rewrite -/

theorem frame_k : Cert.frame_Kernel := fun m ρ _ => Cert.Kernel.Gen.frame m ρ
theorem frame_ki : Cert.frame_KernelIdeal := fun m ρ _ => Cert.KernelIdeal.Gen.frame m ρ

/-- The messages' round trip through the narrower float format, removed at the ideal values. -/
theorem preserves : Cert.preserves_Kernel_KernelIdeal := IdealRules.truncf_extf.statement _ .f32 .bf16

/-! ## The reference's run -/

/-- The reference terminates with its result at the transpose of the aggregation kernel's output array and its
    arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v27)
          = transpose Cert.ReferenceIdeal.S4096x16 [1, 0] (Cert.ReferenceIdeal.Agg.outArrR (Cert.ReferenceIdeal.RefRun.V2 m) c)
              Cert.ReferenceIdeal.Gen.transposes_S16x4096_S4096x16_1_0
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run (Cert.ReferenceIdeal.defs (F := Ideal)) _ _).mono (fun r h c =>
    ⟨(h c _ (Cert.ReferenceIdeal.RefRun.mem_uc Cert.ReferenceIdeal.main_v27 (by decide))).trans
        ((Cert.ReferenceIdeal.RefRun.X4_main_v27 m c).trans
          (by rw [Cert.ReferenceIdeal.RefRun.X3_main_v26, Cert.ReferenceIdeal.Agg.final1])),
      (h c _ (Cert.ReferenceIdeal.RefRun.mem_uc Cert.ReferenceIdeal.main_arg0 (by decide))).trans (Cert.ReferenceIdeal.RefRun.X4_main_arg0 m c),
      (h c _ (Cert.ReferenceIdeal.RefRun.mem_uc Cert.ReferenceIdeal.main_arg1 (by decide))).trans (Cert.ReferenceIdeal.RefRun.X4_main_arg1 m c),
      (h c _ (Cert.ReferenceIdeal.RefRun.mem_uc Cert.ReferenceIdeal.main_arg2 (by decide))).trans (Cert.ReferenceIdeal.RefRun.X4_main_arg2 m c),
      (h c _ (Cert.ReferenceIdeal.RefRun.mem_uc Cert.ReferenceIdeal.main_arg3 (by decide))).trans (Cert.ReferenceIdeal.RefRun.X4_main_arg3 m c),
      (h c _ (Cert.ReferenceIdeal.RefRun.mem_uc Cert.ReferenceIdeal.main_arg4 (by decide))).trans (Cert.ReferenceIdeal.RefRun.X4_main_arg4 m c),
      (h c _ (Cert.ReferenceIdeal.RefRun.mem_uc Cert.ReferenceIdeal.main_arg5 (by decide))).trans (Cert.ReferenceIdeal.RefRun.X4_main_arg5 m c),
      (h c _ (Cert.ReferenceIdeal.RefRun.mem_uc Cert.ReferenceIdeal.main_arg6 (by decide))).trans (Cert.ReferenceIdeal.RefRun.X4_main_arg6 m c),
      (h c _ (Cert.ReferenceIdeal.RefRun.mem_uc Cert.ReferenceIdeal.main_arg7 (by decide))).trans (Cert.ReferenceIdeal.RefRun.X4_main_arg7 m c),
      (h c _ (Cert.ReferenceIdeal.RefRun.mem_uc Cert.ReferenceIdeal.main_arg8 (by decide))).trans (Cert.ReferenceIdeal.RefRun.X4_main_arg8 m c),
      (h c _ (Cert.ReferenceIdeal.RefRun.mem_uc Cert.ReferenceIdeal.main_arg9 (by decide))).trans (Cert.ReferenceIdeal.RefRun.X4_main_arg9 m c),
      (h c _ (Cert.ReferenceIdeal.RefRun.mem_uc Cert.ReferenceIdeal.main_arg10 (by decide))).trans (Cert.ReferenceIdeal.RefRun.X4_main_arg10 m c),
      (h c _ (Cert.ReferenceIdeal.RefRun.mem_uc Cert.ReferenceIdeal.main_arg11 (by decide))).trans (Cert.ReferenceIdeal.RefRun.X4_main_arg11 m c),
      (h c _ (Cert.ReferenceIdeal.RefRun.mem_uc Cert.ReferenceIdeal.main_arg12 (by decide))).trans (Cert.ReferenceIdeal.RefRun.X4_main_arg12 m c),
      (h c _ (Cert.ReferenceIdeal.RefRun.mem_uc Cert.ReferenceIdeal.main_arg13 (by decide))).trans (Cert.ReferenceIdeal.RefRun.X4_main_arg13 m c)⟩)
    (Cert.ReferenceIdeal.RefRun.run (F := Ideal) m ρ)

theorem frame_ri : Cert.frame_ReferenceIdeal := fun m ρ _ =>
  (θ_run (Cert.ReferenceIdeal.defs (F := Ideal)) _ _).mono (fun _ h c => (h c).2) (ref_run m ρ)

/-! ## The two results are one array -/

/-- From memories that agree on the arguments, the two programs' networks are the same function. -/
theorem nets_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hc : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (o : Fin 16) (n : Fin 4096) :
    Cert.ReferenceIdeal.RefFinal.net m' c o n = Cert.KernelIdeal.KValue.net m c o n := by
  obtain ⟨h0, h1, h2, h3, h4, h5, h6, h7, h8, h9, h10, h11, h12, h13⟩ := hc
  unfold Cert.ReferenceIdeal.RefFinal.net Cert.KernelIdeal.KValue.net
  have hf : (Cert.ReferenceIdeal.RefRun.V1 m' c Cert.ReferenceIdeal.main_v20 : Cert.KernelIdeal.S10x4096.Idx → EReal)
      = Cert.KernelIdeal.Gen.V m c Cert.KernelIdeal.main_v16 := Cert.HostGlue.features_eq m m' c h1 h2 h13
  rw [hf, Cert.KernelIdeal.Gen.V_main_arg0, Cert.KernelIdeal.Gen.V_main_arg3, Cert.KernelIdeal.Gen.V_main_arg4,
    Cert.KernelIdeal.Gen.V_main_arg5, Cert.KernelIdeal.Gen.V_main_arg6, Cert.KernelIdeal.Gen.V_main_arg7,
    Cert.KernelIdeal.Gen.V_main_arg8, Cert.KernelIdeal.Gen.V_main_arg9, Cert.KernelIdeal.Gen.V_main_arg10,
    Cert.KernelIdeal.Gen.V_main_arg11, Cert.KernelIdeal.Gen.V_main_arg12]
  rw [show m' (c, Proc.devRef .tc Cert.ReferenceIdeal.main_arg0) = _ from h0, show m' (c, Proc.devRef .tc Cert.ReferenceIdeal.main_arg3) = _ from h3,
    show m' (c, Proc.devRef .tc Cert.ReferenceIdeal.main_arg4) = _ from h4, show m' (c, Proc.devRef .tc Cert.ReferenceIdeal.main_arg5) = _ from h5,
    show m' (c, Proc.devRef .tc Cert.ReferenceIdeal.main_arg6) = _ from h6, show m' (c, Proc.devRef .tc Cert.ReferenceIdeal.main_arg7) = _ from h7,
    show m' (c, Proc.devRef .tc Cert.ReferenceIdeal.main_arg8) = _ from h8, show m' (c, Proc.devRef .tc Cert.ReferenceIdeal.main_arg9) = _ from h9,
    show m' (c, Proc.devRef .tc Cert.ReferenceIdeal.main_arg10) = _ from h10, show m' (c, Proc.devRef .tc Cert.ReferenceIdeal.main_arg11) = _ from h11,
    show m' (c, Proc.devRef .tc Cert.ReferenceIdeal.main_arg12) = _ from h12]

/-- Both programs end at the transpose of the network's values: the fused kernel's tiles read off its generated frame
    run, the reference's off the run assembled from its two kernels. -/
theorem algebraic : Cert.algebraic_KernelIdeal_ReferenceIdeal := by
  intro m ρ m' ρ' _ hagree
  refine ⟨fun c => Cert.KernelIdeal.KVal.result (F := Ideal) m c, Cert.KernelIdeal.KVal.run (F := Ideal) m ρ, ?_⟩
  refine (θ_run (Cert.ReferenceIdeal.defs (F := Ideal)) _ _).mono (fun r h c => ⟨(h c).1.trans ?_, (h c).2⟩) (ref_run m' ρ')
  have e : (Cert.ReferenceIdeal.Agg.outArrR (Cert.ReferenceIdeal.RefRun.V2 m') c : Cert.KernelIdeal.S16x4096.Idx → EReal)
      = Cert.KernelIdeal.KVal.outArr (F := Ideal) m c := funext fun i => by
    obtain ⟨o, n, rfl⟩ : ∃ (o : Fin 16) (n : Fin 4096), i = ix2 o n := ⟨i 0, i 1, eq_ix2 i⟩
    rw [Cert.ReferenceIdeal.RefFinal.outArrR_apply, Cert.KernelIdeal.KValue.outArr_apply]
    exact nets_agree m m' c (hagree c) o n
  unfold Cert.KernelIdeal.KVal.result
  rw [e]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
